-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 64]⟩ ⟨2, ![1024, 64]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 64]⟩ ⟨2, ![1024, 64]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 64]⟩ ⟨2, ![1024, 64]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 64]⟩ ⟨2, ![1024, 64]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x64 : Shape := ⟨2, ![256, 64]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel

variable [Facts]

def fn {F : FTy → Type} [FloatOps F] (main_arg0 : FVec F S256x64 .f32) (main_arg1 : FVec F S256x64 .f32) (main_arg2 : FVec F S256x64 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Pre_finite_inputs_ReferenceIdeal.lean ====
abbrev S1024x64 : Shape := ⟨2, ![1024, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel

variable [Facts]

def fn {F : FTy → Type} [FloatOps F] (main_arg0 : FVec F S1024x64 .f32) (main_arg1 : FVec F S1024x64 .f32) (main_arg2 : FVec F S1024x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S256x64 : Shape := ⟨2, ![256, 64]⟩
abbrev S256x128 : Shape := ⟨2, ![256, 128]⟩
abbrev S3x256x128 : Shape := ⟨3, ![3, 256, 128]⟩
abbrev S3 : Shape := ⟨1, ![3]⟩
abbrev S2 : Shape := ⟨1, ![2]⟩
abbrev S_ : Shape := ⟨0, ![]⟩
abbrev S1 : Shape := ⟨1, ![1]⟩
abbrev S1x256x128 : Shape := ⟨3, ![1, 256, 128]⟩
abbrev S256x1 : Shape := ⟨2, ![256, 1]⟩
abbrev S256x256 : Shape := ⟨2, ![256, 256]⟩
abbrev S256 : Shape := ⟨1, ![256]⟩
abbrev S1x256x64 : Shape := ⟨3, ![1, 256, 64]⟩

abbrev nBuf : Space → Nat
  | .hbm => 4
  | .vmem => 6
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x128, .bf16⟩
  | .local _ .vmem, ⟨5, _⟩ => ⟨S3x256x128, .bf16⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  { ofTc nBuf bufTy 3 10 bufScoped semScoped dmaSemScoped tileCredit tileCredit_eq_zero tileCredit_pos with
    barrierSem := RefSig.barrierTable [(0, 2)]
    barrierSem_unscoped := RefSig.barrierTable_unscoped [(0, 2)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v12 : BitVec 32 := Scalar.muli v4 c1_i32_5
  let v13 : BitVec 32 := Scalar.addi c0_i32_6 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_9 : BitVec 32 := 1#32
  let v16 : BitVec 32 := Scalar.muli v6 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_12 : BitVec 32 := 1#32
  let v18 : BitVec 32 := Scalar.muli v8 c1_i32_12
  let v19 : BitVec 32 := Scalar.addi c0_i32_13 v18
  v19.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_25 : BitVec 32 := 1#32
  let v34 : BitVec 32 := Scalar.muli v6 c1_i32_25
  let v35 : BitVec 32 := Scalar.addi c0_i32_26 v34
  v35.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_35 : BitVec 32 := 1#32
  let v44 : BitVec 32 := Scalar.muli v4 c1_i32_35
  let v45 : BitVec 32 := Scalar.addi c0_i32_36 v44
  v45.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_44 : BitVec 32 := 1#32
  let v52 : BitVec 32 := Scalar.muli v8 c1_i32_44
  let v53 : BitVec 32 := Scalar.addi c0_i32_45 v52
  v53.toNat
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  hamt_1 : (1#32 : BitVec 32).msb = false
  inb_S2_S1_1 : ∀ a, (![1] : Fin 1 → Nat) a + S1.size a ≤ S2.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S256x128_S256x64_0_0 : ∀ a, (![0, 0] : Fin 2 → Nat) a + S256x64.size a ≤ S256x128.size a
  packedbf16_S256x128_S256x64_0_0 : (Rect.unit (s := S256x128) ![0, 0] S256x64.size inb_S256x128_S256x64_0_0).PackedRows (EltTy.packing .bf16)
  inb_S256x128_S256x64_0_64 : ∀ a, (![0, 64] : Fin 2 → Nat) a + S256x64.size a ≤ S256x128.size a
  packedbf16_S256x128_S256x64_0_64 : (Rect.unit (s := S256x128) ![0, 64] S256x64.size inb_S256x128_S256x64_0_64).PackedRows (EltTy.packing .bf16)
  inb_S3_S1_0 : ∀ a, (![0] : Fin 1 → Nat) a + S1.size a ≤ S3.size a
  inb_S3x256x128_S1x256x128_0_0_0 : ∀ a, (![0, 0, 0] : Fin 3 → Nat) a + S1x256x128.size a ≤ S3x256x128.size a
  squeezes_S1x256x128_S256x128 : S1x256x128.Squeezes S256x128
  wordsbf16_S3x256x128_S1x256x128_0_0_0 : (Rect.unit (s := S3x256x128) ![0, 0, 0] S1x256x128.size inb_S3x256x128_S1x256x128_0_0_0).WholeWords (EltTy.packing .bf16)
  inb_S3_S1_1 : ∀ a, (![1] : Fin 1 → Nat) a + S1.size a ≤ S3.size a
  inb_S3x256x128_S1x256x128_1_0_0 : ∀ a, (![1, 0, 0] : Fin 3 → Nat) a + S1x256x128.size a ≤ S3x256x128.size a
  wordsbf16_S3x256x128_S1x256x128_1_0_0 : (Rect.unit (s := S3x256x128) ![1, 0, 0] S1x256x128.size inb_S3x256x128_S1x256x128_1_0_0).WholeWords (EltTy.packing .bf16)
  inb_S3_S1_2 : ∀ a, (![2] : Fin 1 → Nat) a + S1.size a ≤ S3.size a
  inb_S3x256x128_S1x256x128_2_0_0 : ∀ a, (![2, 0, 0] : Fin 3 → Nat) a + S1x256x128.size a ≤ S3x256x128.size a
  wordsbf16_S3x256x128_S1x256x128_2_0_0 : (Rect.unit (s := S3x256x128) ![2, 0, 0] S1x256x128.size inb_S3x256x128_S1x256x128_2_0_0).WholeWords (EltTy.packing .bf16)
  reduces_S256x256_S256 : S256x256.Reduces [1] S256
  shapeCasts_S256_S256x1 : S256.ShapeCasts S256x1
  inb_S3x256x128_S1x256x64_0_0_0 : ∀ a, (![0, 0, 0] : Fin 3 → Nat) a + S1x256x64.size a ≤ S3x256x128.size a
  h_S1x256x64 : 0 < S1x256x64.numel
  shapeCasts_S1x256x64_S256x64 : S1x256x64.ShapeCasts S256x64
  inb_S3x256x128_S1x256x64_0_0_64 : ∀ a, (![0, 0, 64] : Fin 3 → Nat) a + S1x256x64.size a ≤ S3x256x128.size a
  inb_S3x256x128_S1x256x64_1_0_0 : ∀ a, (![1, 0, 0] : Fin 3 → Nat) a + S1x256x64.size a ≤ S3x256x128.size a
  inb_S3x256x128_S1x256x64_1_0_64 : ∀ a, (![1, 0, 64] : Fin 3 → Nat) a + S1x256x64.size a ≤ S3x256x128.size a
  inb_S3x256x128_S1x256x64_2_0_0 : ∀ a, (![2, 0, 0] : Fin 3 → Nat) a + S1x256x64.size a ≤ S3x256x128.size a
  inb_S3x256x128_S1x256x64_2_0_64 : ∀ a, (![2, 0, 64] : Fin 3 → Nat) a + S1x256x64.size a ≤ S3x256x128.size a
  broadcasts_S256x1_S256x64 : S256x1.Broadcasts S256x64
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hcc0_scratch4 : 0 + S2.numel ≤ 3
  hcc0_scratch2 : 4 + S3.numel ≤ 10
  hcc0_scratch3 : 7 + S3.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch4 : Sems sig S2 := SemArray.consecutive 0 S2 hcc0_scratch4
abbrev cc0_scratch2 : DmaSems sig S3 := SemArray.consecutive 4 S3 hcc0_scratch2
abbrev cc0_scratch3 : DmaSems sig S3 := SemArray.consecutive 7 S3 hcc0_scratch3
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x1024 : Shape := ⟨2, ![64, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S64x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S1024x64_S64x1024_1_0 : S1024x64.Transposes [1, 0] S64x1024
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

class Facts : Prop extends Facts₀ where

variable [Facts]
-- ==== Proof.RingCells.lean ====
/-
  The four devices of the ring, the nine semaphore cells each of them waits on, and the buffers the exchange moves.

  Device `c` sends its packed key/value slab three times: to `c+1` (into that device's slab 0), to `c+3` (slab 1) and to
  `c+2` (slab 2). Before each send it waits for one unit on a cell the destination signalled: its entry cell 0 (signalled
  by `c+1`), its entry cell 1 (by `c+3`), its barrier cell (by `c+2`). Each send credits the sender's send cell `t` and the
  destination's receive cell `t`.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the ring's -/

abbrev UB : Type := URounds (GSem nD τ sig) Unit
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## The ring -/

def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide

/-- The printed device chains: the three signals name `c+3`, `c+1`, `c+2`; the three transfers `c+1`, `c+3`, `c+2`. -/
theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = opp c := Fin.ext (k0_dev3_eq c)
theorem dev4_eq (c : Dev nD) : (⟨k0_dev4 c, k0_dev4_lt c⟩ : Dev nD) = rgt c := Fin.ext (k0_dev4_eq c)
theorem dev5_eq (c : Dev nD) : (⟨k0_dev5 c, k0_dev5_lt c⟩ : Dev nD) = lft c := Fin.ext (k0_dev5_eq c)
theorem dev6_eq (c : Dev nD) : (⟨k0_dev6 c, k0_dev6_lt c⟩ : Dev nD) = opp c := Fin.ext (k0_dev6_eq c)

def ringR : Dev nD ≃ Dev nD := ⟨rgt, lft, lft_rgt, rgt_lft⟩
def ringO : Dev nD ≃ Dev nD := ⟨opp, opp, opp_opp, opp_opp⟩

/-! ## The semaphores, as the body spells them -/

abbrev eS0 : Sem sig := ((cc0_scratch4.slice (Rect.unit (s := S2) ![0] S1.size inb_S2_S1_0)).squeeze S_ squeezes_S1_S_).sem
abbrev eS1 : Sem sig := ((cc0_scratch4.slice (Rect.unit (s := S2) ![1] S1.size inb_S2_S1_1)).squeeze S_ squeezes_S1_S_).sem
abbrev barS : Sem sig := (SemArray.scalar (sig.barrier 0 rfl) : Sems sig S_).sem
abbrev sS0 : DmaSem sig := ((cc0_scratch2.slice (Rect.unit (s := S3) ![0] S1.size inb_S3_S1_0)).squeeze S_ squeezes_S1_S_).sem
abbrev sS1 : DmaSem sig := ((cc0_scratch2.slice (Rect.unit (s := S3) ![1] S1.size inb_S3_S1_1)).squeeze S_ squeezes_S1_S_).sem
abbrev sS2 : DmaSem sig := ((cc0_scratch2.slice (Rect.unit (s := S3) ![2] S1.size inb_S3_S1_2)).squeeze S_ squeezes_S1_S_).sem
abbrev rS0 : DmaSem sig := ((cc0_scratch3.slice (Rect.unit (s := S3) ![0] S1.size inb_S3_S1_0)).squeeze S_ squeezes_S1_S_).sem
abbrev rS1 : DmaSem sig := ((cc0_scratch3.slice (Rect.unit (s := S3) ![1] S1.size inb_S3_S1_1)).squeeze S_ squeezes_S1_S_).sem
abbrev rS2 : DmaSem sig := ((cc0_scratch3.slice (Rect.unit (s := S3) ![2] S1.size inb_S3_S1_2)).squeeze S_ squeezes_S1_S_).sem

/-- The nine cells of a device: entry 0, entry 1, barrier; send 0–2; receive 0–2. -/
abbrev csem : Fin 9 → SemLoc sig := fun
  | 0 => .reg eS0 | 1 => .reg eS1 | 2 => .reg barS
  | 3 => .dma sS0 | 4 => .dma sS1 | 5 => .dma sS2
  | 6 => .dma rS0 | 7 => .dma rS1 | 8 => .dma rS2
abbrev kcell (ck : Dev nD × Fin 9) : GSem nD τ sig := ((ck.1 : Thread nD τ), csem ck.2)

theorem csem_inj : Function.Injective csem := by decide

/-- The nine cells of device `c` by name: entry 0, entry 1, barrier; send 0–2; receive 0–2. -/
abbrev e0C (c : Dev nD) : GSem nD τ sig := ((c : Thread nD τ), SemLoc.reg eS0)
abbrev e1C (c : Dev nD) : GSem nD τ sig := ((c : Thread nD τ), SemLoc.reg eS1)
abbrev bC (c : Dev nD) : GSem nD τ sig := ((c : Thread nD τ), SemLoc.reg barS)
abbrev s0C (c : Dev nD) : GSem nD τ sig := ((c : Thread nD τ), SemLoc.dma sS0)
abbrev s1C (c : Dev nD) : GSem nD τ sig := ((c : Thread nD τ), SemLoc.dma sS1)
abbrev s2C (c : Dev nD) : GSem nD τ sig := ((c : Thread nD τ), SemLoc.dma sS2)
abbrev r0C (c : Dev nD) : GSem nD τ sig := ((c : Thread nD τ), SemLoc.dma rS0)
abbrev r1C (c : Dev nD) : GSem nD τ sig := ((c : Thread nD τ), SemLoc.dma rS1)
abbrev r2C (c : Dev nD) : GSem nD τ sig := ((c : Thread nD τ), SemLoc.dma rS2)

/-- The kernel's own (scoped) semaphores, as the launch indexes them: all but the barrier. -/
abbrev osem : Fin 8 → SemLoc sig := fun
  | 0 => .reg eS0 | 1 => .reg eS1
  | 2 => .dma sS0 | 3 => .dma sS1 | 4 => .dma sS2
  | 5 => .dma rS0 | 6 => .dma rS1 | 7 => .dma rS2

/-! ## The buffers -/

abbrev sendM : Memref sig .tc .vmem S256x128 .bf16 := Memref.whole cc0_scratch0
abbrev commM : Memref sig .tc .vmem S3x256x128 .bf16 := Memref.whole cc0_scratch1
abbrev slab0 : Memref sig .tc .vmem S256x128 .bf16 :=
  (commM.slice (Rect.unit (s := S3x256x128) ![0, 0, 0] S1x256x128.size inb_S3x256x128_S1x256x128_0_0_0) (fun _ => rfl)).squeeze S256x128 squeezes_S1x256x128_S256x128
abbrev slab1 : Memref sig .tc .vmem S256x128 .bf16 :=
  (commM.slice (Rect.unit (s := S3x256x128) ![1, 0, 0] S1x256x128.size inb_S3x256x128_S1x256x128_1_0_0) (fun _ => rfl)).squeeze S256x128 squeezes_S1x256x128_S256x128
abbrev slab2 : Memref sig .tc .vmem S256x128 .bf16 :=
  (commM.slice (Rect.unit (s := S3x256x128) ![2, 0, 0] S1x256x128.size inb_S3x256x128_S1x256x128_2_0_0) (fun _ => rfl)).squeeze S256x128 squeezes_S1x256x128_S256x128

/-- The credit of one slab's transfer. -/
abbrev N : ℕ := (sendM : Memref sig .tc .vmem S256x128 .bf16).view.dmaCredit
theorem N_pos : 0 < N := View.dmaCredit_pos _ (by decide)
theorem N_slab0 : (slab0 : Memref sig .tc .vmem S256x128 .bf16).view.dmaCredit = N := by decide
theorem N_slab1 : (slab1 : Memref sig .tc .vmem S256x128 .bf16).view.dmaCredit = N := by decide
theorem N_slab2 : (slab2 : Memref sig .tc .vmem S256x128 .bf16).view.dmaCredit = N := by decide

theorem ownSemFacts : Pipeline.OwnSemFacts cfg0.spec osem := by decide

end Cert.KernelIdeal.Ring

end
-- ==== Proof.RingSched.lean ====
/-
  The exchange's schedule: what each of a device's nine cells expects in its one round, and what a unit paid onto it hands
  the waiting device.

  An entry or barrier cell of `c` expects one unit, from the device `d` that `c` is about to send to; with it `d` hands over
  the slab of its receive buffer that `c`'s transfer writes, and the fact that `d`'s receive cell for that slab is at its
  round. A send cell expects one slab's credit from `c`'s own transfer, which lends it a share of the packed buffer. A
  receive cell expects one slab's credit from the transfer of the device sending to `c`, which hands back the slab now
  holding that device's packed keys (columns 0–63) and values (columns 64–127).
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingCells
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- A device's three staged blocks: its query rows, key rows and value rows. -/
def qB (d : Dev nD) : (cc0_stg0_0 : Ref sig .tc).ty.Contents (Elt F) :=
  (win0_0.blk (0 : Fin 1)).view.read (Elt F) (m ((d : Thread nD τ).loc main_arg0))
def kB (d : Dev nD) : (cc0_stg1_0 : Ref sig .tc).ty.Contents (Elt F) :=
  (win0_1.blk (0 : Fin 1)).view.read (Elt F) (m ((d : Thread nD τ).loc main_arg1))
def vB (d : Dev nD) : (cc0_stg2_0 : Ref sig .tc).ty.Contents (Elt F) :=
  (win0_2.blk (0 : Fin 1)).view.read (Elt F) (m ((d : Thread nD τ).loc main_arg2))

theorem casts_slab : S256x64.ShapeCasts S1x256x64 := by decide

/-- What a load of a received slab's key half, respectively value half, must read when the slab came from device `d`: `d`'s
    keys, respectively values, narrowed as `d` packed them, seen as a [1, 256, 64] vector. -/
def slabK (d : Dev nD) : Vec F S1x256x64 .bf16 := shapeCast S1x256x64 (k0_pay1 (kB m d)) casts_slab
def slabV (d : Dev nD) : Vec F S1x256x64 .bf16 := shapeCast S1x256x64 (k0_pay3 (k0_pay2 (vB m d))) casts_slab

abbrev rK0 : Rect S3x256x128 := Rect.unit (s := S3x256x128) ![0, 0, 0] S1x256x64.size inb_S3x256x128_S1x256x64_0_0_0
abbrev rV0 : Rect S3x256x128 := Rect.unit (s := S3x256x128) ![0, 0, 64] S1x256x64.size inb_S3x256x128_S1x256x64_0_0_64
abbrev rK1 : Rect S3x256x128 := Rect.unit (s := S3x256x128) ![1, 0, 0] S1x256x64.size inb_S3x256x128_S1x256x64_1_0_0
abbrev rV1 : Rect S3x256x128 := Rect.unit (s := S3x256x128) ![1, 0, 64] S1x256x64.size inb_S3x256x128_S1x256x64_1_0_64
abbrev rK2 : Rect S3x256x128 := Rect.unit (s := S3x256x128) ![2, 0, 0] S1x256x64.size inb_S3x256x128_S1x256x64_2_0_0
abbrev rV2 : Rect S3x256x128 := Rect.unit (s := S3x256x128) ![2, 0, 64] S1x256x64.size inb_S3x256x128_S1x256x64_2_0_64

/-- The receive buffer of `c` at contents `f` holds, in slab 0 (respectively 1, 2), what device `d` packed. -/
def Holds0 (d c : Dev nD) (f : Buf (Elt F) ((slab0 : Memref sig .tc .vmem S256x128 .bf16).view.loc (c : Thread nD τ))) : Prop :=
  (commM : Memref sig .tc .vmem S3x256x128 .bf16).view.readAt (Elt F) rK0.toLoadRect f = slabK m d
    ∧ (commM : Memref sig .tc .vmem S3x256x128 .bf16).view.readAt (Elt F) rV0.toLoadRect f = slabV m d
def Holds1 (d c : Dev nD) (f : Buf (Elt F) ((slab1 : Memref sig .tc .vmem S256x128 .bf16).view.loc (c : Thread nD τ))) : Prop :=
  (commM : Memref sig .tc .vmem S3x256x128 .bf16).view.readAt (Elt F) rK1.toLoadRect f = slabK m d
    ∧ (commM : Memref sig .tc .vmem S3x256x128 .bf16).view.readAt (Elt F) rV1.toLoadRect f = slabV m d
def Holds2 (d c : Dev nD) (f : Buf (Elt F) ((slab2 : Memref sig .tc .vmem S256x128 .bf16).view.loc (c : Thread nD τ))) : Prop :=
  (commM : Memref sig .tc .vmem S3x256x128 .bf16).view.readAt (Elt F) rK2.toLoadRect f = slabK m d
    ∧ (commM : Memref sig .tc .vmem S3x256x128 .bf16).view.readAt (Elt F) rV2.toLoadRect f = slabV m d

def slabPts0 (d : Dev nD) (f : Buf (Elt F) ((slab0 : Memref sig .tc .vmem S256x128 .bf16).view.loc (d : Thread nD τ))) : sProp 𝕄 :=
  (slab0 : Memref sig .tc .vmem S256x128 .bf16).view.loc (d : Thread nD τ) ↦[(slab0 : Memref sig .tc .vmem S256x128 .bf16).view.set]{fullShare} f
def slabPts1 (d : Dev nD) (f : Buf (Elt F) ((slab1 : Memref sig .tc .vmem S256x128 .bf16).view.loc (d : Thread nD τ))) : sProp 𝕄 :=
  (slab1 : Memref sig .tc .vmem S256x128 .bf16).view.loc (d : Thread nD τ) ↦[(slab1 : Memref sig .tc .vmem S256x128 .bf16).view.set]{fullShare} f
def slabPts2 (d : Dev nD) (f : Buf (Elt F) ((slab2 : Memref sig .tc .vmem S256x128 .bf16).view.loc (d : Thread nD τ))) : sProp 𝕄 :=
  (slab2 : Memref sig .tc .vmem S256x128 .bf16).view.loc (d : Thread nD τ) ↦[(slab2 : Memref sig .tc .vmem S256x128 .bf16).view.set]{fullShare} f
/-- The packed buffer of `d` at share `q`. -/
def sendPts (q : PosShare TreeShare) (d : Dev nD) (f : Buf (Elt F) ((sendM : Memref sig .tc .vmem S256x128 .bf16).view.loc (d : Thread nD τ))) : sProp 𝕄 :=
  (sendM : Memref sig .tc .vmem S256x128 .bf16).view.loc (d : Thread nD τ) ↦[(sendM : Memref sig .tc .vmem S256x128 .bf16).view.set]{q} f

/-- The three shares the three transfers read the packed buffer at. -/
abbrev sh0 : PosShare TreeShare := fullShare.left
abbrev sh1 : PosShare TreeShare := fullShare.right.left
abbrev sh2 : PosShare TreeShare := fullShare.right.right

/-! ## The schedule -/

/-- What one unit paid onto cell `k` of device `c` hands `c`. -/
def pay (k : Fin 9) (c : Dev nD) : sProp 𝕄 := match k with
  | 0 => iprop((∃ f, slabPts0 (rgt c) f) ∗ reached ER (r0C (rgt c)) 0)
  | 1 => iprop((∃ f, slabPts1 (lft c) f) ∗ reached ER (r1C (lft c)) 0)
  | 2 => iprop((∃ f, slabPts2 (opp c) f) ∗ reached ER (r2C (opp c)) 0)
  | 3 => iprop(∃ f, sendPts sh0 c f)
  | 4 => iprop(∃ f, sendPts sh1 c f)
  | 5 => iprop(∃ f, sendPts sh2 c f)
  | 6 => iprop(∃ f, slabPts0 c f ∗ ⌜Holds0 m (lft c) c f⌝)
  | 7 => iprop(∃ f, slabPts1 c f ∗ ⌜Holds1 m (rgt c) c f⌝)
  | 8 => iprop(∃ f, slabPts2 c f ∗ ⌜Holds2 m (opp c) c f⌝)

/-- One unit for an entry or barrier cell, one slab's credit for a send or receive cell. -/
def amt (k : Fin 9) : ℕ := if k.val < 3 then 1 else N
theorem amt_pos (k : Fin 9) : 0 < amt k := by unfold amt; split; exact Nat.one_pos; exact N_pos

/-- Which of the nine cells a semaphore is. -/
def kindOf (s : SemLoc sig) : Option (Fin 9) :=
  if s = csem 0 then some 0 else if s = csem 1 then some 1 else if s = csem 2 then some 2
  else if s = csem 3 then some 3 else if s = csem 4 then some 4 else if s = csem 5 then some 5
  else if s = csem 6 then some 6 else if s = csem 7 then some 7 else if s = csem 8 then some 8 else none
theorem kindOf_csem : ∀ k : Fin 9, kindOf (csem k) = some k := by decide

/-- One round, round 0, one duty per cell. -/
def rd : Rounds.Schedule (GSem nD τ sig) Unit 𝕄 where
  duties g r := if r = 0 ∧ g.1.2 = .tc ∧ (kindOf g.2).isSome = true then {()} else ∅
  unitless _ := False
  amount g _ _ := match kindOf g.2 with | some k => amt k | none => 1
  payload g _ _ := match kindOf g.2 with | some k => pay m k g.1.1 | none => iprop(emp)
  amount_pos g _ _ _ := by
    cases kindOf g.2 with
    | none => exact Nat.one_pos
    | some k => exact amt_pos k

instance pay_storable (k : Fin 9) (c : Dev nD) : BI.Storable (upEmb : UEmb _ 𝕄) (pay (F := F) m k c) := by
  fin_cases k <;> (unfold pay slabPts0 slabPts1 slabPts2 sendPts; infer_instance)

instance rd_payload_storable (g : GSem nD τ sig) (r : ℕ) (u : Unit) :
    BI.Storable (upEmb : UEmb _ 𝕄) ((rd (F := F) m).payload g r u) := by
  show BI.Storable upEmb (match kindOf g.2 with | some k => pay m k g.1.1 | none => iprop(emp))
  cases kindOf g.2 <;> infer_instance

section Tables
variable (c : Dev nD) (k : Fin 9)

theorem duties_k : (rd (F := F) m).duties (kcell (c, k)) 0 = {()} := by
  dsimp only [rd]; rw [if_pos ⟨rfl, rfl, by rw [kindOf_csem]; rfl⟩]
theorem duties_later (g : GSem nD τ sig) : ∀ r, 1 ≤ r → (rd (F := F) m).duties g r = ∅ :=
  fun r hr => by dsimp only [rd]; rw [if_neg fun h => by omega]
theorem amount_k (u : Unit) : (rd (F := F) m).amount (kcell (c, k)) 0 u = amt k := by
  dsimp only [rd]; rw [kindOf_csem]
theorem payload_k (u : Unit) : (rd (F := F) m).payload (kcell (c, k)) 0 u = pay m k c := by
  dsimp only [rd]; rw [kindOf_csem]
theorem expect_k : (rd (F := F) m).expect (kcell (c, k)) 0 = amt k := by
  unfold Schedule.expect Schedule.amountOf; rw [duties_k, Finset.sum_singleton, amount_k]
theorem rest_k : bigSep ((rd (F := F) m).duties (kcell (c, k)) 0 \ ∅) (fun u => (rd (F := F) m).payload (kcell (c, k)) 0 u) = pay m k c := by
  rw [Finset.sdiff_empty, duties_k, bigSep_singleton, payload_k]

end Tables

/-! ## The tables at each named cell -/

section PerCell
variable (c : Dev nD)
theorem duties_e0C : (rd (F := F) m).duties (e0C c) 0 = {()} := duties_k m c 0
theorem amount_e0C (u : Unit) : (rd (F := F) m).amount (e0C c) 0 u = 1 := (amount_k m c 0 u).trans (by decide)
theorem payload_e0C (u : Unit) : (rd (F := F) m).payload (e0C c) 0 u = pay m 0 c := payload_k m c 0 u
theorem expect_e0C : (rd (F := F) m).expect (e0C c) 0 = 1 := (expect_k m c 0).trans (by decide)
theorem mem_e0C : () ∈ (rd (F := F) m).duties (e0C c) 0 := by rw [duties_e0C]; exact Finset.mem_singleton_self _
theorem duties_e1C : (rd (F := F) m).duties (e1C c) 0 = {()} := duties_k m c 1
theorem amount_e1C (u : Unit) : (rd (F := F) m).amount (e1C c) 0 u = 1 := (amount_k m c 1 u).trans (by decide)
theorem payload_e1C (u : Unit) : (rd (F := F) m).payload (e1C c) 0 u = pay m 1 c := payload_k m c 1 u
theorem expect_e1C : (rd (F := F) m).expect (e1C c) 0 = 1 := (expect_k m c 1).trans (by decide)
theorem mem_e1C : () ∈ (rd (F := F) m).duties (e1C c) 0 := by rw [duties_e1C]; exact Finset.mem_singleton_self _
theorem duties_bC : (rd (F := F) m).duties (bC c) 0 = {()} := duties_k m c 2
theorem amount_bC (u : Unit) : (rd (F := F) m).amount (bC c) 0 u = 1 := (amount_k m c 2 u).trans (by decide)
theorem payload_bC (u : Unit) : (rd (F := F) m).payload (bC c) 0 u = pay m 2 c := payload_k m c 2 u
theorem expect_bC : (rd (F := F) m).expect (bC c) 0 = 1 := (expect_k m c 2).trans (by decide)
theorem mem_bC : () ∈ (rd (F := F) m).duties (bC c) 0 := by rw [duties_bC]; exact Finset.mem_singleton_self _
theorem duties_s0C : (rd (F := F) m).duties (s0C c) 0 = {()} := duties_k m c 3
theorem amount_s0C (u : Unit) : (rd (F := F) m).amount (s0C c) 0 u = N := (amount_k m c 3 u).trans (by decide)
theorem payload_s0C (u : Unit) : (rd (F := F) m).payload (s0C c) 0 u = pay m 3 c := payload_k m c 3 u
theorem expect_s0C : (rd (F := F) m).expect (s0C c) 0 = N := (expect_k m c 3).trans (by decide)
theorem mem_s0C : () ∈ (rd (F := F) m).duties (s0C c) 0 := by rw [duties_s0C]; exact Finset.mem_singleton_self _
theorem duties_s1C : (rd (F := F) m).duties (s1C c) 0 = {()} := duties_k m c 4
theorem amount_s1C (u : Unit) : (rd (F := F) m).amount (s1C c) 0 u = N := (amount_k m c 4 u).trans (by decide)
theorem payload_s1C (u : Unit) : (rd (F := F) m).payload (s1C c) 0 u = pay m 4 c := payload_k m c 4 u
theorem expect_s1C : (rd (F := F) m).expect (s1C c) 0 = N := (expect_k m c 4).trans (by decide)
theorem mem_s1C : () ∈ (rd (F := F) m).duties (s1C c) 0 := by rw [duties_s1C]; exact Finset.mem_singleton_self _
theorem duties_s2C : (rd (F := F) m).duties (s2C c) 0 = {()} := duties_k m c 5
theorem amount_s2C (u : Unit) : (rd (F := F) m).amount (s2C c) 0 u = N := (amount_k m c 5 u).trans (by decide)
theorem payload_s2C (u : Unit) : (rd (F := F) m).payload (s2C c) 0 u = pay m 5 c := payload_k m c 5 u
theorem expect_s2C : (rd (F := F) m).expect (s2C c) 0 = N := (expect_k m c 5).trans (by decide)
theorem mem_s2C : () ∈ (rd (F := F) m).duties (s2C c) 0 := by rw [duties_s2C]; exact Finset.mem_singleton_self _
theorem duties_r0C : (rd (F := F) m).duties (r0C c) 0 = {()} := duties_k m c 6
theorem amount_r0C (u : Unit) : (rd (F := F) m).amount (r0C c) 0 u = N := (amount_k m c 6 u).trans (by decide)
theorem payload_r0C (u : Unit) : (rd (F := F) m).payload (r0C c) 0 u = pay m 6 c := payload_k m c 6 u
theorem expect_r0C : (rd (F := F) m).expect (r0C c) 0 = N := (expect_k m c 6).trans (by decide)
theorem mem_r0C : () ∈ (rd (F := F) m).duties (r0C c) 0 := by rw [duties_r0C]; exact Finset.mem_singleton_self _
theorem duties_r1C : (rd (F := F) m).duties (r1C c) 0 = {()} := duties_k m c 7
theorem amount_r1C (u : Unit) : (rd (F := F) m).amount (r1C c) 0 u = N := (amount_k m c 7 u).trans (by decide)
theorem payload_r1C (u : Unit) : (rd (F := F) m).payload (r1C c) 0 u = pay m 7 c := payload_k m c 7 u
theorem expect_r1C : (rd (F := F) m).expect (r1C c) 0 = N := (expect_k m c 7).trans (by decide)
theorem mem_r1C : () ∈ (rd (F := F) m).duties (r1C c) 0 := by rw [duties_r1C]; exact Finset.mem_singleton_self _
theorem duties_r2C : (rd (F := F) m).duties (r2C c) 0 = {()} := duties_k m c 8
theorem amount_r2C (u : Unit) : (rd (F := F) m).amount (r2C c) 0 u = N := (amount_k m c 8 u).trans (by decide)
theorem payload_r2C (u : Unit) : (rd (F := F) m).payload (r2C c) 0 u = pay m 8 c := payload_k m c 8 u
theorem expect_r2C : (rd (F := F) m).expect (r2C c) 0 = N := (expect_k m c 8).trans (by decide)
theorem mem_r2C : () ∈ (rd (F := F) m).duties (r2C c) 0 := by rw [duties_r2C]; exact Finset.mem_singleton_self _

/-- The payloads spelled out, at a device's own cells. -/
theorem pay_e0 : pay (F := F) m 0 c = iprop((∃ f, slabPts0 (rgt c) f) ∗ reached ER (r0C (rgt c)) 0) := rfl
theorem pay_e1 : pay (F := F) m 1 c = iprop((∃ f, slabPts1 (lft c) f) ∗ reached ER (r1C (lft c)) 0) := rfl
theorem pay_b : pay (F := F) m 2 c = iprop((∃ f, slabPts2 (opp c) f) ∗ reached ER (r2C (opp c)) 0) := rfl
theorem pay_s0 : pay (F := F) m 3 c = iprop(∃ f, sendPts sh0 c f) := rfl
theorem pay_s1 : pay (F := F) m 4 c = iprop(∃ f, sendPts sh1 c f) := rfl
theorem pay_s2 : pay (F := F) m 5 c = iprop(∃ f, sendPts sh2 c f) := rfl
theorem pay_r0 : pay (F := F) m 6 c = iprop(∃ f, slabPts0 c f ∗ ⌜Holds0 m (lft c) c f⌝) := rfl
theorem pay_r1 : pay (F := F) m 7 c = iprop(∃ f, slabPts1 c f ∗ ⌜Holds1 m (rgt c) c f⌝) := rfl
theorem pay_r2 : pay (F := F) m 8 c = iprop(∃ f, slabPts2 c f ∗ ⌜Holds2 m (opp c) c f⌝) := rfl

/-- The payloads at the six peer cells device `c` pays, stated at `c`: a signal hands over `c`'s own slab, a transfer hands the
    peer its slab holding what `c` packed. -/
theorem pay_e0_at (x : Dev nD) (h : rgt x = c) : pay (F := F) m 0 x = iprop((∃ f, slabPts0 c f) ∗ reached ER (r0C c) 0) := by subst h; rfl
theorem pay_e1_at (x : Dev nD) (h : lft x = c) : pay (F := F) m 1 x = iprop((∃ f, slabPts1 c f) ∗ reached ER (r1C c) 0) := by subst h; rfl
theorem pay_b_at (x : Dev nD) (h : opp x = c) : pay (F := F) m 2 x = iprop((∃ f, slabPts2 c f) ∗ reached ER (r2C c) 0) := by subst h; rfl
theorem payload_e0C_lft (u : Unit) : (rd (F := F) m).payload (e0C (lft c)) 0 u = iprop((∃ f, slabPts0 c f) ∗ reached ER (r0C c) 0) :=
  (payload_e0C m (lft c) u).trans (pay_e0_at m c (lft c) (rgt_lft c))
theorem payload_e1C_rgt (u : Unit) : (rd (F := F) m).payload (e1C (rgt c)) 0 u = iprop((∃ f, slabPts1 c f) ∗ reached ER (r1C c) 0) :=
  (payload_e1C m (rgt c) u).trans (pay_e1_at m c (rgt c) (lft_rgt c))
theorem payload_bC_opp (u : Unit) : (rd (F := F) m).payload (bC (opp c)) 0 u = iprop((∃ f, slabPts2 c f) ∗ reached ER (r2C c) 0) :=
  (payload_bC m (opp c) u).trans (pay_b_at m c (opp c) (opp_opp c))
theorem payload_r0C_rgt (u : Unit) : (rd (F := F) m).payload (r0C (rgt c)) 0 u = iprop(∃ f, slabPts0 (rgt c) f ∗ ⌜Holds0 m c (rgt c) f⌝) :=
  (payload_r0C m (rgt c) u).trans (by rw [pay_r0, lft_rgt])
theorem payload_r1C_lft (u : Unit) : (rd (F := F) m).payload (r1C (lft c)) 0 u = iprop(∃ f, slabPts1 (lft c) f ∗ ⌜Holds1 m c (lft c) f⌝) :=
  (payload_r1C m (lft c) u).trans (by rw [pay_r1, rgt_lft])
theorem payload_r2C_opp (u : Unit) : (rd (F := F) m).payload (r2C (opp c)) 0 u = iprop(∃ f, slabPts2 (opp c) f ∗ ⌜Holds2 m c (opp c) f⌝) :=
  (payload_r2C m (opp c) u).trans (by rw [pay_r2, opp_opp])

/-- "Some contents" of a slab, at a device named twice round the ring. -/
theorem ex_slab0_rl : (iprop(∃ f, slabPts0 (rgt (lft c)) f) : sProp 𝕄) = iprop(∃ f, slabPts0 c f) :=
  congrArg (fun d => (iprop(∃ f, slabPts0 d f) : sProp 𝕄)) (rgt_lft c)
theorem ex_slab1_lr : (iprop(∃ f, slabPts1 (lft (rgt c)) f) : sProp 𝕄) = iprop(∃ f, slabPts1 c f) :=
  congrArg (fun d => (iprop(∃ f, slabPts1 d f) : sProp 𝕄)) (lft_rgt c)
theorem ex_slab2_oo : (iprop(∃ f, slabPts2 (opp (opp c)) f) : sProp 𝕄) = iprop(∃ f, slabPts2 c f) :=
  congrArg (fun d => (iprop(∃ f, slabPts2 d f) : sProp 𝕄)) (opp_opp c)
end PerCell

/-! ## What a device owes at launch; the levels -/

/-- Device `c` owes three signals — to entry cell 0 of `c+3`, entry cell 1 of `c+1`, the barrier cell of `c+2` — and three slabs'
    credits — to receive cell 0 of `c+1`, 1 of `c+3`, 2 of `c+2`. Summed so that the body's steps peel the LAST summand each. -/
def O₃ (c : Dev nD) : CellTallies nD τ sig Unit :=
  tallyAt (r2C (opp c)) () N + tallyAt (r1C (lft c)) () N + tallyAt (r0C (rgt c)) () N
def O₀ (c : Dev nD) : CellTallies nD τ sig Unit :=
  O₃ c + tallyAt (bC (opp c)) () 1 + tallyAt (e1C (rgt c)) () 1 + tallyAt (e0C (lft c)) () 1

def Lset (g : GSem nD τ sig) : Finset Unit := if g.1.2 = .tc then {()} else ∅
/-- Entry and barrier cells at 1, receive cells at 2, everything else (staging, send) at 0. -/
def lv (g : GSem nD τ sig) (_ : Unit) : ℕ :=
  if g.2 = csem 0 ∨ g.2 = csem 1 ∨ g.2 = csem 2 then 1 else if g.2 = csem 6 ∨ g.2 = csem 7 ∨ g.2 = csem 8 then 2 else 0

theorem Lset_of_ne (g : GSem nD τ sig) (h : g.1.2 ≠ .tc) : Lset g = ∅ := if_neg h
theorem Lset_tc (c : Dev nD) (sm : SemLoc sig) : Lset ((c : Thread nD τ), sm) = {()} := if_pos rfl

/-- The level of each of the nine cells. -/
def lvk (k : Fin 9) : ℕ := if k.val < 3 then 1 else if 6 ≤ k.val then 2 else 0
theorem lv_tab : ∀ k : Fin 9,
    (if csem k = csem 0 ∨ csem k = csem 1 ∨ csem k = csem 2 then 1 else if csem k = csem 6 ∨ csem k = csem 7 ∨ csem k = csem 8 then 2 else 0) = lvk k := by
  decide
theorem lv_kcell (c : Dev nD) (k : Fin 9) (u : Unit) : lv (kcell (c, k)) u = lvk k := lv_tab k
/-- A staging cell, or any semaphore that is none of the nine, sits at level 0. -/
theorem lv_other (g : GSem nD τ sig) (u : Unit) (h : ∀ k : Fin 9, g.2 ≠ csem k) : lv g u = 0 := by
  dsimp only [lv]
  rw [if_neg (fun h' => by rcases h' with h' | h' | h' <;> exact h _ h'), if_neg (fun h' => by rcases h' with h' | h' | h' <;> exact h _ h')]

end Cert.KernelIdeal.Ring

end
-- ==== Proof.RingGhost.lean ====
/-
  The ghost state one device's body starts from, and what the launch deals each device before the cells' invariants exist.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingSched
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants device `c`'s body opens, under the names `K` the launch allocated them at: its own nine cells', the three
    cells' it signals, the three receive cells' its transfers credit. -/
def invs (K : Dev nD × Fin 9 → ℕ) (c : Dev nD) : sProp 𝕄 :=
  iprop(cellInv ER (rd m) (K (c, 0)) (e0C c) ∗ cellInv ER (rd m) (K (c, 1)) (e1C c) ∗ cellInv ER (rd m) (K (c, 2)) (bC c)
    ∗ cellInv ER (rd m) (K (c, 3)) (s0C c) ∗ cellInv ER (rd m) (K (c, 4)) (s1C c) ∗ cellInv ER (rd m) (K (c, 5)) (s2C c)
    ∗ cellInv ER (rd m) (K (c, 6)) (r0C c) ∗ cellInv ER (rd m) (K (c, 7)) (r1C c) ∗ cellInv ER (rd m) (K (c, 8)) (r2C c)
    ∗ cellInv ER (rd m) (K (lft c, 0)) (e0C (lft c)) ∗ cellInv ER (rd m) (K (rgt c, 1)) (e1C (rgt c)) ∗ cellInv ER (rd m) (K (opp c, 2)) (bC (opp c))
    ∗ cellInv ER (rd m) (K (rgt c, 6)) (r0C (rgt c)) ∗ cellInv ER (rd m) (K (lft c, 7)) (r1C (lft c)) ∗ cellInv ER (rd m) (K (opp c, 8)) (r2C (opp c)))

instance invs_persistent (K : Dev nD × Fin 9 → ℕ) (c : Dev nD) : BI.Persistent (invs m K c) := by unfold invs; infer_instance

/-- Its positions: round 0 of each of its nine cells. -/
def posns (c : Dev nD) : sProp 𝕄 :=
  iprop(atPos ER (e0C c) 0 ∅ 0 ∗ atPos ER (e1C c) 0 ∅ 0 ∗ atPos ER (bC c) 0 ∅ 0
    ∗ atPos ER (s0C c) 0 ∅ 0 ∗ atPos ER (s1C c) 0 ∅ 0 ∗ atPos ER (s2C c) 0 ∅ 0
    ∗ atPos ER (r0C c) 0 ∅ 0 ∗ atPos ER (r1C c) 0 ∅ 0 ∗ atPos ER (r2C c) 0 ∅ 0)

/-- The rounds it knows reached: of the six peer cells it pays, of its own send cells, of its own receive cells. -/
def marks (c : Dev nD) : sProp 𝕄 :=
  iprop(reached ER (e0C (lft c)) 0 ∗ reached ER (e1C (rgt c)) 0 ∗ reached ER (bC (opp c)) 0
    ∗ reached ER (r0C (rgt c)) 0 ∗ reached ER (r1C (lft c)) 0 ∗ reached ER (r2C (opp c)) 0
    ∗ reached ER (s0C c) 0 ∗ reached ER (s1C c) 0 ∗ reached ER (s2C c) 0
    ∗ reached ER (r0C c) 0 ∗ reached ER (r1C c) 0 ∗ reached ER (r2C c) 0)

instance marks_persistent (c : Dev nD) : BI.Persistent (marks (F := F) c) := by unfold marks; infer_instance

/-- The tokens of the nine duties it pays: three signals, its three send cells, three peers' receive cells. -/
def payToks (c : Dev nD) : sProp 𝕄 :=
  iprop(dutyTok ER (e0C (lft c)) 0 () ∗ dutyTok ER (e1C (rgt c)) 0 () ∗ dutyTok ER (bC (opp c)) 0 ()
    ∗ dutyTok ER (s0C c) 0 () ∗ dutyTok ER (s1C c) 0 () ∗ dutyTok ER (s2C c) 0 ()
    ∗ dutyTok ER (r0C (rgt c)) 0 () ∗ dutyTok ER (r1C (lft c)) 0 () ∗ dutyTok ER (r2C (opp c)) 0 ())

/-- The ring's ghost state device `c` starts from. -/
def ghost (K : Dev nD × Fin 9 → ℕ) (c : Dev nD) : sProp 𝕄 :=
  iprop(invs m K c ∗ posns c ∗ marks c ∗ payToks c)

/-- The credit of the six waits that other devices pay. -/
def waitCred (c : Dev nD) : sProp 𝕄 :=
  iprop(cred (tallyAt (e0C c) () 1) ∗ cred (tallyAt (e1C c) () 1) ∗ cred (tallyAt (bC c) () 1)
    ∗ cred (tallyAt (r0C c) () N) ∗ cred (tallyAt (r1C c) () N) ∗ cred (tallyAt (r2C c) () N))

/-- What device `c`'s body starts from, besides its buffers. -/
def start (c : Dev nD) : sProp 𝕄 :=
  iprop((∃ K, ghost m K c) ∗ waitCred c ∗ levAts Lset lv)

/-- The duty tokens of device `c`'s own nine cells, as minted. -/
def toks (c : Dev nD) : sProp 𝕄 := bigSep Finset.univ fun k : Fin 9 => dutyTok ER (kcell (c, k)) 0 ()

/-- What the launch element deals device `c`, before any invariant is allocated. -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- The tokens minted: one per cell, round 0. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

end Cert.KernelIdeal.Ring

end
-- ==== Proof.RingData.lean ====
/-
  The proof data of the one launch: what each window holds after the point, what a device holds before and after it, and
  what it owes.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingGhost
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device stores into its result block, as a function of its own three loads and of the six loads it makes from the
    three received slabs: the body's pure steps composed in the order the body applies them. -/
def outOfR (q k v : Vec F S256x64 .f32) (ka va kb vb kc vc : Vec F S1x256x64 .bf16) : FVec F S256x64 .f32 :=
  k0_pay13 (k0_pay4 q)
    (k0_pay11 (k0_pay4 q) (k0_pay6 q k) (k0_pay8 ka) kb)
    (k0_pay12 (k0_pay4 q) (k0_pay7 q k v) (k0_pay8 ka) va kb vb)
    kc vc

/-- Device `c`'s result: its own slab, then the slabs of `c+3`, `c+1`, `c+2`, in the order they are received. -/
def outAt (c : Dev nD) : (cc0_stg3_0 : Ref sig .tc).ty.Contents (Elt F) :=
  outOfR (qB m c) (kB m c) (vB m c) (slabK m (lft c)) (slabV m (lft c)) (slabK m (rgt c)) (slabV m (rgt c)) (slabK m (opp c)) (slabV m (opp c))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the point: the ghost state, and the two scratch buffers at some contents. -/
def Φ₀ (c : Dev nD) : sProp 𝕄 :=
  iprop(start m c ∗ (∃ f, sendPts fullShare c f) ∗ (∃ f : Buf (Elt F) ((c : Thread nD τ).loc cc0_scratch1), (((c : Thread nD τ).loc cc0_scratch1) ↦{fullShare} f)))
/-- After it: the two scratch buffers at some contents, the eight scoped cells at zero, closed (the barrier cell is the
    runtime's: nothing to hand back). -/
def Φ₁ (c : Dev nD) : sProp 𝕄 :=
  iprop((∃ f, sendPts fullShare c f) ∗ (∃ f : Buf (Elt F) ((c : Thread nD τ).loc cc0_scratch1), (((c : Thread nD τ).loc cc0_scratch1) ↦{fullShare} f))
    ∗ semVal (e0C c) 0 ∗ semVal (e1C c) 0 ∗ semVal (s0C c) 0 ∗ semVal (s1C c) 0 ∗ semVal (s2C c) 0
    ∗ semVal (r0C c) 0 ∗ semVal (r1C c) 0 ∗ semVal (r2C c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qB m c
    | ⟨1, _⟩ => kB m c
    | ⟨2, _⟩ => vB m c
    | ⟨3, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the after-state, what it still owes (nothing), and the four staging buffers, the result's at the
    device's result. -/
def bodyPost (c : Dev nD) : sProp 𝕄 :=
  iprop(Φ₁ (F := F) c ∗ (dats m ρ 0 c).owesAt () t₀.succ
    ∗ stg c cc0_stg0_0 (qB m c) ∗ stg c cc0_stg1_0 (kB m c) ∗ stg c cc0_stg2_0 (vB m c) ∗ stg c cc0_stg3_0 (outAt m c))

end Cert.KernelIdeal.Ring

end
-- ==== Proof.RingBodySpec.lean ====
/-
  The statement of one device's body: from the ghost state and buffers it starts with, to its result written, its scratch
  buffers whole again and its eight scoped cells closed.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingData
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer of device `c`, whole, at contents `f`. -/
def stgPts (b : Ref sig .tc) (c : Dev nD) (f : Buf (Elt F) ((Memref.whole b : Memref sig .tc b.space b.ty.shape b.ty.elt).view.loc (c : Thread nD τ))) : sProp 𝕄 :=
  (Memref.whole b : Memref sig .tc b.space b.ty.shape b.ty.elt).view.loc (c : Thread nD τ) ↦[(Memref.whole b : Memref sig .tc b.space b.ty.shape b.ty.elt).view.set]{fullShare} f

/-- What the body of device `c` starts from: the invariants, positions, reached marks and tokens of `ghost`, the credit of its
    six waits, the levels, what it owes, the packed buffer and the three slabs of the receive buffer at some contents, and the
    four staging buffers (the three inputs at the device's blocks). -/
def BodyPre (K : Dev nD × Fin 9 → ℕ) (c : Dev nD) (W : Waits sig Unit)
    (f0 : Buf (Elt F) ((sendM : Memref sig .tc .vmem S256x128 .bf16).view.loc (c : Thread nD τ)))
    (fc : Buf (Elt F) ((c : Thread nD τ).loc cc0_scratch1)) (fo : (cc0_stg3_0 : Ref sig .tc).ty.Contents (Elt F)) : sProp 𝕄 :=
  iprop(invs m K c ∗ posns c ∗ marks c ∗ payToks c ∗ waitCred c ∗ levAts Lset lv
    ∗ owes (c : Thread nD τ) (O₀ c) W
    ∗ sendPts fullShare c f0 ∗ slabPts0 c fc ∗ slabPts1 c fc ∗ slabPts2 c fc
    ∗ stgPts cc0_stg0_0 c (qB m c) ∗ stgPts cc0_stg1_0 c (kB m c) ∗ stgPts cc0_stg2_0 c (vB m c) ∗ stgPts cc0_stg3_0 c fo)

/-- What it ends with. -/
def BodyPost (c : Dev nD) : sProp 𝕄 :=
  iprop((∃ f, sendPts fullShare c f) ∗ (∃ f0 f1 f2, slabPts0 c f0 ∗ slabPts1 c f1 ∗ slabPts2 c f2)
    ∗ (semVal (e0C c) 0 ∗ semVal (e1C c) 0 ∗ semVal (s0C c) 0 ∗ semVal (s1C c) 0 ∗ semVal (s2C c) 0
        ∗ semVal (r0C c) 0 ∗ semVal (r1C c) 0 ∗ semVal (r2C c) 0)
    ∗ (∃ W', owes (c : Thread nD τ) 0 W')
    ∗ stgPts cc0_stg0_0 c (qB m c) ∗ stgPts cc0_stg1_0 c (kB m c) ∗ stgPts cc0_stg2_0 c (vB m c) ∗ stgPts cc0_stg3_0 c (outAt m c))

/-- The body, at a symbolic device. -/
def SoundBody : Prop :=
  ∀ (K : Dev nD × Fin 9 → ℕ) (c : Dev nD) (W : Waits sig Unit)
    (f0 : Buf (Elt F) ((sendM : Memref sig .tc .vmem S256x128 .bf16).view.loc (c : Thread nD τ)))
    (fc : Buf (Elt F) ((c : Thread nD τ).loc cc0_scratch1)) (fo : (cc0_stg3_0 : Ref sig .tc).ty.Contents (Elt F)),
    BodyPre m K c W f0 fc fo
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4) (fun _ => BodyPost m c)

end Cert.KernelIdeal.Ring

end
-- ==== Proof.RingSlabs.lean ====
/-
  A device's receive buffer as its three slabs.

  The buffer has shape [3, 256, 128]; slab `t` is the set of indices whose leading coordinate is `t`. The three slabs are
  pairwise disjoint and cover the buffer, so owning the whole buffer is owning the three slabs, at any contents.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingCells
import proofs.«900383_g7700000000000384_dist_ring_attn_i_s256_d64_v7x_i4_f32_1_alg».proof.Proof.RingSched
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The three index sets -/

/-- An index is in the unit rectangle of leading offset `T` and full trailing extents exactly when its leading
    coordinate is `T`. -/
theorem mem_leading (T : ℕ) (inb : ∀ a, (![T, 0, 0] : Fin 3 → ℕ) a + S1x256x128.size a ≤ S3x256x128.size a)
    (i : S3x256x128.Idx) :
    i ∈ (Rect.unit (s := S3x256x128) ![T, 0, 0] S1x256x128.size inb).set ↔ (i 0).val = T := by
  rw [Rect.mem_set_unit]
  constructor
  · intro h
    have h0 : T ≤ (i 0).val ∧ (i 0).val < T + 1 := h 0
    omega
  · intro h a
    match a with
    | ⟨0, _⟩ => exact (show T ≤ (i 0).val ∧ (i 0).val < T + 1 by omega)
    | ⟨1, _⟩ =>
      have h1 : (i 1).val < 256 := (i 1).isLt
      exact (show 0 ≤ (i 1).val ∧ (i 1).val < 0 + 256 by omega)
    | ⟨2, _⟩ =>
      have h2 : (i 2).val < 128 := (i 2).isLt
      exact (show 0 ≤ (i 2).val ∧ (i 2).val < 0 + 128 by omega)

theorem slab0_set : (slab0 : Memref sig .tc .vmem S256x128 .bf16).view.set
    = (Rect.unit (s := S3x256x128) ![0, 0, 0] S1x256x128.size inb_S3x256x128_S1x256x128_0_0_0).set :=
  (View.set_reshape _ _).trans (View.set_slice_whole cc0_scratch1 _)
theorem slab1_set : (slab1 : Memref sig .tc .vmem S256x128 .bf16).view.set
    = (Rect.unit (s := S3x256x128) ![1, 0, 0] S1x256x128.size inb_S3x256x128_S1x256x128_1_0_0).set :=
  (View.set_reshape _ _).trans (View.set_slice_whole cc0_scratch1 _)
theorem slab2_set : (slab2 : Memref sig .tc .vmem S256x128 .bf16).view.set
    = (Rect.unit (s := S3x256x128) ![2, 0, 0] S1x256x128.size inb_S3x256x128_S1x256x128_2_0_0).set :=
  (View.set_reshape _ _).trans (View.set_slice_whole cc0_scratch1 _)

/-- Slab `t` is the indices of leading coordinate `t`. -/
theorem mem_slab0 (i : S3x256x128.Idx) :
    i ∈ (slab0 : Memref sig .tc .vmem S256x128 .bf16).view.set ↔ (i 0).val = 0 :=
  (Finset.ext_iff.mp slab0_set i).trans (mem_leading 0 _ i)
theorem mem_slab1 (i : S3x256x128.Idx) :
    i ∈ (slab1 : Memref sig .tc .vmem S256x128 .bf16).view.set ↔ (i 0).val = 1 :=
  (Finset.ext_iff.mp slab1_set i).trans (mem_leading 1 _ i)
theorem mem_slab2 (i : S3x256x128.Idx) :
    i ∈ (slab2 : Memref sig .tc .vmem S256x128 .bf16).view.set ↔ (i 0).val = 2 :=
  (Finset.ext_iff.mp slab2_set i).trans (mem_leading 2 _ i)

/-- Slab 1 lies outside slab 0. -/
theorem slab1_subset :
    (slab1 : Memref sig .tc .vmem S256x128 .bf16).view.set
      ⊆ Finset.univ \ (slab0 : Memref sig .tc .vmem S256x128 .bf16).view.set := fun i hi =>
  Finset.mem_sdiff.mpr ⟨Finset.mem_univ i, fun h0 => by
    have e0 := (mem_slab0 i).mp h0
    have e1 := (mem_slab1 i).mp hi
    omega⟩

/-- What is left of the buffer outside slabs 0 and 1 is slab 2. -/
theorem slabs_rest :
    (Finset.univ \ (slab0 : Memref sig .tc .vmem S256x128 .bf16).view.set)
        \ (slab1 : Memref sig .tc .vmem S256x128 .bf16).view.set
      = (slab2 : Memref sig .tc .vmem S256x128 .bf16).view.set := by
  ext i
  have hi : (i 0).val < 3 := (i 0).isLt
  constructor
  · intro h
    have h01 := Finset.mem_sdiff.mp h
    have h0 := (Finset.mem_sdiff.mp h01.1).2
    refine (mem_slab2 i).mpr ?_
    have n0 : (i 0).val ≠ 0 := fun e => h0 ((mem_slab0 i).mpr e)
    have n1 : (i 0).val ≠ 1 := fun e => h01.2 ((mem_slab1 i).mpr e)
    omega
  · intro h
    have e2 := (mem_slab2 i).mp h
    refine Finset.mem_sdiff.mpr ⟨Finset.mem_sdiff.mpr ⟨Finset.mem_univ i, fun h0 => ?_⟩, fun h1 => ?_⟩
    · have e0 := (mem_slab0 i).mp h0
      omega
    · have e1 := (mem_slab1 i).mp h1
      omega

theorem slab12_disjoint :
    Disjoint (slab1 : Memref sig .tc .vmem S256x128 .bf16).view.set (slab2 : Memref sig .tc .vmem S256x128 .bf16).view.set :=
  Finset.disjoint_left.mpr fun i h1 h2 => by
    have e1 := (mem_slab1 i).mp h1
    have e2 := (mem_slab2 i).mp h2
    omega

theorem slab0_disjoint :
    Disjoint (slab0 : Memref sig .tc .vmem S256x128 .bf16).view.set
      ((slab1 : Memref sig .tc .vmem S256x128 .bf16).view.set ∪ (slab2 : Memref sig .tc .vmem S256x128 .bf16).view.set) :=
  Finset.disjoint_left.mpr fun i h0 h12 => by
    have e0 := (mem_slab0 i).mp h0
    rcases Finset.mem_union.mp h12 with h | h
    · have e1 := (mem_slab1 i).mp h
      omega
    · have e2 := (mem_slab2 i).mp h
      omega

/-- The three slabs cover the buffer. -/
theorem slabs_cover :
    (slab0 : Memref sig .tc .vmem S256x128 .bf16).view.set
        ∪ ((slab1 : Memref sig .tc .vmem S256x128 .bf16).view.set ∪ (slab2 : Memref sig .tc .vmem S256x128 .bf16).view.set)
      = Finset.univ :=
  Finset.eq_univ_iff_forall.mpr fun i => by
    have hi : (i 0).val < 3 := (i 0).isLt
    rcases (by omega : (i 0).val = 0 ∨ (i 0).val = 1 ∨ (i 0).val = 2) with h | h | h
    · exact Finset.mem_union_left _ ((mem_slab0 i).mpr h)
    · exact Finset.mem_union_right _ (Finset.mem_union_left _ ((mem_slab1 i).mpr h))
    · exact Finset.mem_union_right _ (Finset.mem_union_right _ ((mem_slab2 i).mpr h))

/-! ## The buffer whole and in slabs -/

/-- The whole receive buffer, at contents `f`, is its three slabs at `f`. -/
theorem slabs_split (c : Dev nD) (f : Buf (Elt F) ((c : Thread nD τ).loc cc0_scratch1)) :
    ((((c : Thread nD τ).loc cc0_scratch1) ↦{fullShare} f : sProp 𝕄)) ⊢ iprop(slabPts0 c f ∗ slabPts1 c f ∗ slabPts2 c f) := by
  unfold slabPts0 slabPts1 slabPts2
  have h1 := (Region.is_split_subset (ι := (memEmb : UEmb _ 𝕄).toEmb) (k := (c : Thread nD τ).loc cc0_scratch1)
    (q := fullShare) (f := f) (Finset.subset_univ (slab0 : Memref sig .tc .vmem S256x128 .bf16).view.set)).1
  have h2 := (Region.is_split_subset (ι := (memEmb : UEmb _ 𝕄).toEmb) (k := (c : Thread nD τ).loc cc0_scratch1)
    (q := fullShare) (f := f) slab1_subset).1
  rw [slabs_rest] at h2
  exact h1.trans (sep_mono_right h2)

/-- The three slabs of a device's receive buffer, at any contents, are the whole buffer at some contents. -/
theorem slabs_join (c : Dev nD) (f0 f1 f2 : Buf (Elt F) ((c : Thread nD τ).loc cc0_scratch1)) :
    iprop(slabPts0 c f0 ∗ slabPts1 c f1 ∗ slabPts2 c f2)
      ⊢ (iprop(∃ f : Buf (Elt F) ((c : Thread nD τ).loc cc0_scratch1), (((c : Thread nD τ).loc cc0_scratch1) ↦{fullShare} f)) : sProp 𝕄) := by
  unfold slabPts0 slabPts1 slabPts2
  have j1 := Region.is_join (ι := (memEmb : UEmb _ 𝕄).toEmb) (k := (c : Thread nD τ).loc cc0_scratch1)
    (q := fullShare) (f := f1) (g := f2) slab12_disjoint
  have j2 := Region.is_join (ι := (memEmb : UEmb _ 𝕄).toEmb) (k := (c : Thread nD τ).loc cc0_scratch1)
    (q := fullShare) (f := f0)
    (g := ((slab2 : Memref sig .tc .vmem S256x128 .bf16).view.set).piecewise f2 f1) slab0_disjoint
  rw [slabs_cover] at j2
  exact (sep_mono_right j1).trans (j2.trans (exists_intro _))

end Cert.KernelIdeal.Ring

end
-- ==== Proof.RingGlob.lean ====
/-
  The launch's global step: from every device's semaphores at zero and the launch element, every cell's invariant is
  allocated, and each device is handed the ghost state its body starts from.

  The launch element splits into each cell's round state, position, reached mark and duty token. A device keeps its own
  positions; the reached marks and the invariants are persistent and shared; the tokens travel: a device pays the entry
  cell 0 of its left neighbour, the entry cell 1 of its right neighbour, the barrier cell of the opposite device, its own
  three send cells, and the receive cells 0, 1, 2 of its right, left and opposite devices.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingGhost
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A product over nine cells, spelled out. -/
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The launch element, split per device. -/
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own eight semaphores: the two entry cells, the three send cells, the three receive cells; -/
theorem ownSems0_eq (c : Dev nD) :
    (Pipeline.ownSems0 (Ix := Unit) (Name := ℕ) (U := UU) (Lvl := ℕ) (Val := Elt F) (τ := τ) osem c : sProp 𝕄)
      = iprop(semVal (e0C c) 0 ∗ semVal (e1C c) 0 ∗ semVal (s0C c) 0 ∗ semVal (s1C c) 0 ∗ semVal (s2C c) 0
          ∗ semVal (r0C c) 0 ∗ semVal (r1C c) 0 ∗ semVal (r2C c) 0) := by
  rw [Pipeline.ownSems0_eq_of_list c osem [0, 1, 2, 3, 4, 5, 6, 7] (by decide) (by decide)]; rfl

/-- the barrier semaphore is the one unscoped semaphore. -/
theorem unscopedSems0_eq (c : Dev nD) : (unscopedSems0 c : sProp 𝕄) = semVal (bC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H0, H1, H3, H4, H5, H6, H7, H8⟩, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- One device's nine invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, under the names `K`, and every cell's reached mark. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(posns c ∗ payToks c)

theorem ghost_intro (K : Dev nD × Fin 9 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (lft c, 0)); iexact HI
    isplitr; · iapply (inv_at m K (rgt c, 1)); iexact HI
    isplitr; · iapply (inv_at m K (opp c, 2)); iexact HI
    isplitr; · iapply (inv_at m K (rgt c, 6)); iexact HI
    isplitr; · iapply (inv_at m K (lft c, 7)); iexact HI
    iapply (inv_at m K (opp c, 8)); iexact HI
  isplitl [Hpos]; · iexact Hpos
  isplitr
  · isplitr; · iapply (reached_at (F := F) (lft c, 0)); iexact HR
    isplitr; · iapply (reached_at (F := F) (rgt c, 1)); iexact HR
    isplitr; · iapply (reached_at (F := F) (opp c, 2)); iexact HR
    isplitr; · iapply (reached_at (F := F) (rgt c, 6)); iexact HR
    isplitr; · iapply (reached_at (F := F) (lft c, 7)); iexact HR
    isplitr; · iapply (reached_at (F := F) (opp c, 8)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    iapply (reached_at (F := F) (c, 8)); iexact HR
  iexact Htok

/-- A device's own nine tokens, spelled out. -/
theorem toks_eq (c : Dev nD) :
    (toks c : sProp 𝕄) = iprop(dutyTok ER (e0C c) 0 () ∗ dutyTok ER (e1C c) 0 () ∗ dutyTok ER (bC c) 0 ()
      ∗ dutyTok ER (s0C c) 0 () ∗ dutyTok ER (s1C c) 0 () ∗ dutyTok ER (s2C c) 0 ()
      ∗ dutyTok ER (r0C c) 0 () ∗ dutyTok ER (r1C c) 0 () ∗ dutyTok ER (r2C c) 0 ()) := by
  unfold toks; rw [bigSep_fin9]

/-- The tokens dealt around the ring: an entry-0 token and a receive-1 token to the device on the right of the cell's,
    an entry-1 token and a receive-0 token to the device on its left, a barrier token and a receive-2 token to the
    device opposite; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv ringR.symm (fun c : Dev nD => (dutyTok ER (e0C c) 0 () : sProp 𝕄)),
    bigSep_univ_equiv ringR (fun c : Dev nD => (dutyTok ER (e1C c) 0 () : sProp 𝕄)),
    bigSep_univ_equiv ringO (fun c : Dev nD => (dutyTok ER (bC c) 0 () : sProp 𝕄)),
    bigSep_univ_equiv ringR (fun c : Dev nD => (dutyTok ER (r0C c) 0 () : sProp 𝕄)),
    bigSep_univ_equiv ringR.symm (fun c : Dev nD => (dutyTok ER (r1C c) 0 () : sProp 𝕄)),
    bigSep_univ_equiv ringO (fun c : Dev nD => (dutyTok ER (r2C c) 0 () : sProp 𝕄))]
  iintro ⟨H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring

end
-- ==== Proof.RingCredit.lean ====
/-
  The launch credit. At launch every device d owes one unit to entry cell 0 of its left neighbour, to entry cell 1 of its
  right neighbour and to the barrier cell of the device opposite, and one slab's credit to receive cell 0 of its right
  neighbour, receive cell 1 of its left neighbour and receive cell 2 of the device opposite. Going round the ring, each
  of these six cells of a device c is therefore owed by exactly one device — the one whose neighbour in that direction c
  is — and the dues of the four devices sum, at each of the six cells, to exactly one round's amount: one unit at the
  entry and barrier cells, one slab's credit at the receive cells. The launch deals c the matching credit tokens.
-/
import proofs.«900383_g7700000000000384_dist_ring_attn_i_s256_d64_v7x_i4_f32_1_alg».proof.Proof.RingSched
import Idealize.ShloMosaic.Lib.Pipeline.Launch
import Idealize.ShloMosaic.Lib.Pipeline.Kit

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Round the ring: who is whose neighbour -/

theorem lft_eq_iff (d c : Dev nD) : lft d = c ↔ d = rgt c :=
  ⟨fun h => by rw [← h, rgt_lft], fun h => by rw [h, lft_rgt]⟩
theorem rgt_eq_iff (d c : Dev nD) : rgt d = c ↔ d = lft c :=
  ⟨fun h => by rw [← h, lft_rgt], fun h => by rw [h, rgt_lft]⟩
theorem opp_eq_iff (d c : Dev nD) : opp d = c ↔ d = opp c :=
  ⟨fun h => by rw [← h, opp_opp], fun h => by rw [h, opp_opp]⟩

/-- Two of the nine cells, of two devices, are the same cell exactly when the devices and the two kinds are. -/
theorem kcell_eq_iff (a c : Dev nD) (i j : Fin 9) : kcell (c, j) = kcell (a, i) ↔ a = c ∧ i = j := by
  constructor
  · intro h
    exact ⟨(Fin.ext (congrArg (fun g : GSem nD τ sig => g.1.1.val) h)).symm,
      (csem_inj (congrArg Prod.snd h : csem j = csem i)).symm⟩
  · rintro ⟨rfl, rfl⟩; rfl

/-- A due of k to cell i of device a, read at cell j of device c: k there, nothing elsewhere. -/
theorem tally_kcell (a c : Dev nD) (i j : Fin 9) (k : ℕ) :
    (tallyAt (kcell (a, i)) () k : CellTallies nD τ sig Unit) (kcell (c, j)) () = if a = c ∧ i = j then k else 0 := by
  rw [tallyAt_apply]
  exact if_congr ⟨fun h => (kcell_eq_iff a c i j).mp h.1, fun h => ⟨(kcell_eq_iff a c i j).mpr h, rfl⟩⟩ rfl rfl

/-! ## What one device owes one cell -/

/-- What device d owes cell j of device c: its six dues, each read at that cell. -/
theorem owed (d c : Dev nD) (j : Fin 9) :
    O₀ d (kcell (c, j)) () =
      (if opp d = c ∧ (8 : Fin 9) = j then N else 0) + (if lft d = c ∧ (7 : Fin 9) = j then N else 0)
        + (if rgt d = c ∧ (6 : Fin 9) = j then N else 0) + (if opp d = c ∧ (2 : Fin 9) = j then 1 else 0)
        + (if rgt d = c ∧ (1 : Fin 9) = j then 1 else 0) + (if lft d = c ∧ (0 : Fin 9) = j then 1 else 0) := by
  have e : O₀ d = (tallyAt (kcell (opp d, 8)) () N + tallyAt (kcell (lft d, 7)) () N + tallyAt (kcell (rgt d, 6)) () N
      + tallyAt (kcell (opp d, 2)) () 1 + tallyAt (kcell (rgt d, 1)) () 1 + tallyAt (kcell (lft d, 0)) () 1 :
      CellTallies nD τ sig Unit) := rfl
  rw [e]
  simp only [Pi.add_apply, Finsupp.add_apply, tally_kcell]

theorem owed_e0 (d c : Dev nD) : O₀ d (e0C c) () = if lft d = c then 1 else 0 :=
  (owed d c 0).trans (by simp only [Fin.reduceEq, and_false, and_true, ↓reduceIte, Nat.zero_add, Nat.add_zero])
theorem owed_e1 (d c : Dev nD) : O₀ d (e1C c) () = if rgt d = c then 1 else 0 :=
  (owed d c 1).trans (by simp only [Fin.reduceEq, and_false, and_true, ↓reduceIte, Nat.zero_add, Nat.add_zero])
theorem owed_b (d c : Dev nD) : O₀ d (bC c) () = if opp d = c then 1 else 0 :=
  (owed d c 2).trans (by simp only [Fin.reduceEq, and_false, and_true, ↓reduceIte, Nat.zero_add, Nat.add_zero])
theorem owed_r0 (d c : Dev nD) : O₀ d (r0C c) () = if rgt d = c then N else 0 :=
  (owed d c 6).trans (by simp only [Fin.reduceEq, and_false, and_true, ↓reduceIte, Nat.zero_add, Nat.add_zero])
theorem owed_r1 (d c : Dev nD) : O₀ d (r1C c) () = if lft d = c then N else 0 :=
  (owed d c 7).trans (by simp only [Fin.reduceEq, and_false, and_true, ↓reduceIte, Nat.zero_add, Nat.add_zero])
theorem owed_r2 (d c : Dev nD) : O₀ d (r2C c) () = if opp d = c then N else 0 :=
  (owed d c 8).trans (by simp only [Fin.reduceEq, and_false, and_true, ↓reduceIte, Nat.zero_add, Nat.add_zero])

/-! ## What the four devices together owe a cell -/

/-- When exactly one device (g c) has c as its f-neighbour, dues of n from each device to its f-neighbour sum, at c, to n. -/
theorem sum_pay (f g : Dev nD → Dev nD) (hfg : ∀ d c, f d = c ↔ d = g c) (c : Dev nD) (n : ℕ) :
    ∑ d : Dev nD, (if f d = c then n else 0) = n := by
  simp only [hfg]
  rw [Finset.sum_ite_eq' Finset.univ (g c) (fun _ => n), if_pos (Finset.mem_univ _)]

/-- A cell that the devices together owe n is dealt, at launch, exactly the credit for n. -/
theorem launch_of_sum (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_e0 (c : Dev nD) :
    tallyOn (e0C c) (launchCredit (Pipeline.owing O₀) 0 (e0C c)) = (tallyAt (e0C c) () 1 : CellTallies nD τ sig Unit) :=
  launch_of_sum _ 1 ((Finset.sum_congr rfl fun d _ => owed_e0 d c).trans (sum_pay lft rgt lft_eq_iff c 1))
theorem launch_e1 (c : Dev nD) :
    tallyOn (e1C c) (launchCredit (Pipeline.owing O₀) 0 (e1C c)) = (tallyAt (e1C c) () 1 : CellTallies nD τ sig Unit) :=
  launch_of_sum _ 1 ((Finset.sum_congr rfl fun d _ => owed_e1 d c).trans (sum_pay rgt lft rgt_eq_iff c 1))
theorem launch_b (c : Dev nD) :
    tallyOn (bC c) (launchCredit (Pipeline.owing O₀) 0 (bC c)) = (tallyAt (bC c) () 1 : CellTallies nD τ sig Unit) :=
  launch_of_sum _ 1 ((Finset.sum_congr rfl fun d _ => owed_b d c).trans (sum_pay opp opp opp_eq_iff c 1))
theorem launch_r0 (c : Dev nD) :
    tallyOn (r0C c) (launchCredit (Pipeline.owing O₀) 0 (r0C c)) = (tallyAt (r0C c) () N : CellTallies nD τ sig Unit) :=
  launch_of_sum _ N ((Finset.sum_congr rfl fun d _ => owed_r0 d c).trans (sum_pay rgt lft rgt_eq_iff c N))
theorem launch_r1 (c : Dev nD) :
    tallyOn (r1C c) (launchCredit (Pipeline.owing O₀) 0 (r1C c)) = (tallyAt (r1C c) () N : CellTallies nD τ sig Unit) :=
  launch_of_sum _ N ((Finset.sum_congr rfl fun d _ => owed_r1 d c).trans (sum_pay lft rgt lft_eq_iff c N))
theorem launch_r2 (c : Dev nD) :
    tallyOn (r2C c) (launchCredit (Pipeline.owing O₀) 0 (r2C c)) = (tallyAt (r2C c) () N : CellTallies nD τ sig Unit) :=
  launch_of_sum _ N ((Finset.sum_congr rfl fun d _ => owed_r2 d c).trans (sum_pay opp opp opp_eq_iff c N))

/-! ## The credit a device is dealt -/

/-- Of the credit tokens the launch deals device c, those on its entry, barrier and receive cells: one round's amount each. -/
theorem creds (c : Dev nD) :
    (Pipeline.launchCred O₀ c : sProp 𝕄) ⊢ iprop(cred (tallyAt (e0C c) () 1) ∗ cred (tallyAt (e1C c) () 1) ∗ cred (tallyAt (bC c) () 1)
      ∗ cred (tallyAt (r0C c) () N) ∗ cred (tallyAt (r1C c) () N) ∗ cred (tallyAt (r2C c) () N)) := by
  unfold Pipeline.launchCred
  refine (bigSep_subset (Finset.subset_univ ({SemLoc.reg eS0, SemLoc.reg eS1, SemLoc.reg barS, SemLoc.dma rS0, SemLoc.dma rS1,
    SemLoc.dma rS2} : Finset (SemLoc sig)))).trans ?_
  rw [bigSep_insert (by decide), bigSep_insert (by decide), bigSep_insert (by decide), bigSep_insert (by decide),
    bigSep_insert (by decide), bigSep_singleton]
  rw [launch_e0, launch_e1, launch_b, launch_r0, launch_r1, launch_r2]
  exact .refl _

end Cert.KernelIdeal.Ring

end
-- ==== Proof.RingLaunch.lean ====
/-
  The launch: the side conditions of the launch theorem, and the run.

  A staging semaphore is none of the ring's nine cells and sits at level 0, below every cell a device owes at launch
  (three signal cells at level 1, three receive cells at level 2), so the pipeline may wait on it. The launch credit and
  the global step's ghost state make what a device's body starts from; the two scratch buffers enter and leave the
  point whole. Granted the body obligation, every run ends with each device's result array at the device's result
  and the three argument arrays as launched.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingData
import proofs.«900383_g7700000000000384_dist_ring_attn_i_s256_d64_v7x_i4_f32_1_alg».proof.Proof.RingGlob
import proofs.«900383_g7700000000000384_dist_ring_attn_i_s256_d64_v7x_i4_f32_1_alg».proof.Proof.RingCredit
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The levels of what a device owes -/

/-- A cell a device owes at launch is one of six: three receive cells and three signal cells of its peers. -/
theorem O₀_pos {c : Dev nD} {g : GSem nD τ sig} {u : Unit} (h : 0 < O₀ c g u) :
    g = r2C (opp c) ∨ g = r1C (lft c) ∨ g = r0C (rgt c) ∨ g = bC (opp c) ∨ g = e1C (rgt c) ∨ g = e0C (lft c) := by
  unfold O₀ O₃ at h
  rw [Pi.add_apply, Finsupp.add_apply, Pi.add_apply, Finsupp.add_apply, Pi.add_apply, Finsupp.add_apply,
    Pi.add_apply, Finsupp.add_apply, Pi.add_apply, Finsupp.add_apply,
    tallyAt_apply, tallyAt_apply, tallyAt_apply, tallyAt_apply, tallyAt_apply, tallyAt_apply] at h
  by_contra hn
  rw [not_or, not_or, not_or, not_or, not_or] at hn
  rw [if_neg (fun h' => hn.1 h'.1), if_neg (fun h' => hn.2.1 h'.1), if_neg (fun h' => hn.2.2.1 h'.1),
    if_neg (fun h' => hn.2.2.2.1 h'.1), if_neg (fun h' => hn.2.2.2.2.1 h'.1), if_neg (fun h' => hn.2.2.2.2.2 h'.1)] at h
  exact Nat.lt_irrefl 0 h

/-- A staging semaphore may be waited on whatever the device still owes: it sits at level 0, what is owed above. -/
theorem mayWait_stage (c : Dev nD) (q : DmaSem sig) (hq : ∀ k : Fin 9, (SemLoc.dma q : SemLoc sig) ≠ csem k)
    (O : CellTallies nD τ sig Unit) (hO : O = O₀ c ∨ O = 0) :
    (levAts Lset lv : sProp 𝕄) ⊢ MayWait (c : Thread nD τ) (.dma q) () O := by
  rcases hO with rfl | rfl
  · refine MayOwe.of_cut (L := Lset) (lev := lv) 0
      (fun p hp => by rw [Finset.mem_singleton.mp hp, Lset_tc]; exact Finset.mem_singleton_self _)
      (fun g u hg => by
        rcases O₀_pos hg with rfl | rfl | rfl | rfl | rfl | rfl <;> (rw [Lset_tc]; exact Finset.mem_singleton_self _))
      (fun p hp => by rw [Finset.mem_singleton.mp hp]; exact Nat.le_of_eq (lv_other _ _ hq))
      (fun g u hg => by
        rcases O₀_pos hg with rfl | rfl | rfl | rfl | rfl | rfl
        · rw [show lv (r2C (opp c)) u = lvk 8 from lv_kcell (opp c) 8 u]; decide
        · rw [show lv (r1C (lft c)) u = lvk 7 from lv_kcell (lft c) 7 u]; decide
        · rw [show lv (r0C (rgt c)) u = lvk 6 from lv_kcell (rgt c) 6 u]; decide
        · rw [show lv (bC (opp c)) u = lvk 2 from lv_kcell (opp c) 2 u]; decide
        · rw [show lv (e1C (rgt c)) u = lvk 1 from lv_kcell (rgt c) 1 u]; decide
        · rw [show lv (e0C (lft c)) u = lvk 0 from lv_kcell (lft c) 0 u]; decide)
  · rw [MayWait_zero]; iintro -; iempintro

/-! ### The theorem's side conditions -/

theorem share_eq (c : Dev nD) (w : Fin cfg0.W) : (dats m ρ 0 c).share w = fullShare := by unfold Dat.share; split <;> rfl

theorem send_set : (sendM : Memref sig .tc .vmem S256x128 .bf16).view.set = Finset.univ := View.set_whole _
/-- The packed buffer at a share is the whole first scratch buffer at that share. -/
theorem sendPts_eq (q : PosShare TreeShare) (c : Dev nD) (f : Buf (Elt F) ((c : Thread nD τ).loc cc0_scratch0)) :
    sendPts q c f = (((c : Thread nD τ).loc cc0_scratch0) ↦{q} f : sProp 𝕄) := by unfold sendPts; rw [send_set]

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' waitCred
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f0, H0⟩, H1⟩
  isplitl [Hs]; · iexact Hs
  isplitl [H0]
  · iexists f0; rw [sendPts_eq]; iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f0, H0⟩, H1, Hsems⟩
  isplitr; · iempintro
  isplitl [Hsems]; · iexact Hsems
  isplitl [H0]
  · iexists f0; rw [← sendPts_eq]; iexact H0
  iexact H1

theorem waits (c : Dev nD) : (levAts Lset lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, granted the body
    obligation: every weakly fair execution of @main terminates, and every final state has each device's four window
    arrays at the pipeline's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lset) (lv := lv) (hL := Lset_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- An argument array after the run holds what it held. -/
theorem finalA_in0 (c : Dev nD) : finalA m ρ c (0 : Fin 4) = m ((c : Thread nD τ).loc main_arg0) :=
  (dats (F := F) m ρ 0 c).arrAt_in (0 : Fin 4) rfl _
theorem finalA_in1 (c : Dev nD) : finalA m ρ c (1 : Fin 4) = m ((c : Thread nD τ).loc main_arg1) :=
  (dats (F := F) m ρ 0 c).arrAt_in (1 : Fin 4) rfl _
theorem finalA_in2 (c : Dev nD) : finalA m ρ c (2 : Fin 4) = m ((c : Thread nD τ).loc main_arg2) :=
  (dats (F := F) m ρ 0 c).arrAt_in (2 : Fin 4) rfl _

/-- The result array after the run holds the device's result: the one point writes the whole block back. -/
theorem finalA_out (c : Dev nD) : finalA m ρ c (3 : Fin 4) = outAt m c := by
  have h := (dats (F := F) m ρ 0 c).arrAt_succ (3 : Fin 4) t₀
  rw [flush0_3 t₀, if_pos rfl] at h
  refine (congrArg ((dats (F := F) m ρ 0 c).arrAt (3 : Fin 4)) (cfg0_N.trans (rfl : 1 = t₀.val + 1))).trans (h.trans ?_)
  exact Memref.write_access_unit_zero_univ (Elt F) main_v1 (funext fun a => Nat.zero_mul _) _ _ _

/-- THE RUN, at the strongest post: each device's result array at its result, the three argument arrays unchanged. -/
theorem run_strong (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
        r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c (3 : Fin 4)).trans (finalA_out m ρ c), (h c (0 : Fin 4)).trans (finalA_in0 m ρ c),
      (h c (1 : Fin 4)).trans (finalA_in1 m ρ c), (h c (2 : Fin 4)).trans (finalA_in2 m ρ c)⟩) (run_main m ρ hbody)

end Cert.KernelIdeal.Ring

end
-- ==== Proof.RingOblig.lean ====
/-
  From the body's statement at a symbolic device to the pipeline's body obligation, and the run.

  The obligation hands the body the invariant before the point, what the device owes, and the four staging buffers: the
  three inputs at the fetched blocks, the result's at anything. The invariant is the ghost state with the two scratch
  buffers; the receive buffer is split into its three slabs. The body's post gives back the invariant after the point
  (the receive buffer joined from its slabs), nothing owed, and the staging buffers at the blocks and the result.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingBodySpec
import proofs.«900383_g7700000000000384_dist_ring_attn_i_s256_d64_v7x_i4_f32_1_alg».proof.Proof.RingSlabs
import proofs.«900383_g7700000000000384_dist_ring_attn_i_s256_d64_v7x_i4_f32_1_alg».proof.Proof.RingLaunch
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole staging memref owned at the full share and read as `X` is its buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem stg_set (b : Ref sig .tc) : (Memref.whole b : Memref sig .tc b.space b.ty.shape b.ty.elt).view.set = Finset.univ :=
  View.set_whole _
/-- A whole staging buffer at contents `f`, as a points-to of the whole buffer. -/
theorem stgPts_eq (b : Ref sig .tc) (c : Dev nD) (f : Buf (Elt F) ((c : Thread nD τ).loc b)) :
    stgPts b c f = (((c : Thread nD τ).loc b) ↦{fullShare} f : sProp 𝕄) := by unfold stgPts; rw [stg_set]

/-- What the obligation hands the body at the one point. -/
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- The body's post is the obligation's. -/
theorem post_intro (c : Dev nD) : BodyPost m c ⊢ bodyPost m ρ c := by
  unfold BodyPost bodyPost Φ₁ Dat.owesAt Pipeline.owesWithin
  rw [show (dats m ρ 0 c).owed t₀.succ = 0 from rfl]
  iintro ⟨Hsend, ⟨%f0, %f1, %f2, Hsl⟩, Hsems, ⟨%W', HO⟩, H0, H1, H2, H3⟩
  isplitl [Hsend Hsl Hsems]
  · isplitl [Hsend]; · iexact Hsend
    isplitl [Hsl]
    · iapply (slabs_join (F := F) c f0 f1 f2); iexact Hsl
    iexact Hsems
  isplitl [HO]
  · iexists W'
    isplitr; · ipureintro; exact fun _ _ => Or.inl trivial
    iexact HO
  isplitl [H0]
  · iexists _; isplitr; · (ipureintro; rfl)
    rw [← stgPts_eq]; iexact H0
  isplitl [H1]
  · iexists _; isplitr; · (ipureintro; rfl)
    rw [← stgPts_eq]; iexact H1
  isplitl [H2]
  · iexists _; isplitr; · (ipureintro; rfl)
    rw [← stgPts_eq]; iexact H2
  iexists _; isplitr; · (ipureintro; rfl)
  rw [← stgPts_eq]; iexact H3

set_option maxRecDepth 4000 in
/-- The library's body obligation on device `c`, from the body's statement. -/
theorem body_obligation (hs : SoundBody (F := F) m) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3 cc0_scratch4) (fun _ => bodyPost m ρ c)
  unfold bodyPre' Φ₀ start
  iintro ⟨⟨⟨⟨%K, Hg⟩, Hcred, Hlev⟩, ⟨%f0, Hsend⟩, ⟨%fc, Hcomm⟩⟩, Ho, ⟨%d0, %g0, %hg0, H0⟩, ⟨%d1, %g1, %hg1, H1⟩,
    ⟨%d2, %g2, %hg2, H2⟩, ⟨%d3, %g3, %hg3, H3⟩⟩
  have hx0 : g0 = qB m c := by rw [hg0]; unfold Dat.before; rw [if_pos (fetch0_0 t₀)]; rfl
  have hx1 : g1 = kB m c := by rw [hg1]; unfold Dat.before; rw [if_pos (fetch0_1 t₀)]; rfl
  have hx2 : g2 = vB m c := by rw [hg2]; unfold Dat.before; rw [if_pos (fetch0_2 t₀)]; rfl
  subst hx0 hx1 hx2
  unfold Dat.owesAt Pipeline.owesWithin
  icases Ho with ⟨%W, %hW, HO⟩
  rw [show (dats m ρ 0 c).owed t₀.castSucc = O₀ c from rfl]
  iapply (wp_mono frame (wpE (defs₀ (F := F)) 𝒱₀ c none) Set.univ (Q := fun _ => BodyPost m c) fun _ => post_intro m ρ c)
  iapply (hs K c W f0 fc g3)
  unfold BodyPre ghost
  icases Hg with ⟨Hinv, Hpos, Hmark, Htok⟩
  ihave Hsl := (slabs_split (F := F) c fc) $$ Hcomm
  icases Hsl with ⟨Hs0, Hs1, Hs2⟩
  isplitl [Hinv]; · iexact Hinv
  isplitl [Hpos]; · iexact Hpos
  isplitl [Hmark]; · iexact Hmark
  isplitl [Htok]; · iexact Htok
  isplitl [Hcred]; · iexact Hcred
  isplitl [Hlev]; · iexact Hlev
  isplitl [HO]; · iexact HO
  isplitl [Hsend]; · iexact Hsend
  isplitl [Hs0]; · iexact Hs0
  isplitl [Hs1]; · iexact Hs1
  isplitl [Hs2]; · iexact Hs2
  isplitl [H0]; · rw [stgPts_eq]; iexact H0
  isplitl [H1]; · rw [stgPts_eq]; iexact H1
  isplitl [H2]; · rw [stgPts_eq]; iexact H2
  rw [stgPts_eq]; iexact H3

/-- THE RUN from the body's statement. -/
theorem run_strong' (hs : SoundBody (F := F) m) :
    θ_run defs (onTc (τ := τ) (main (F := F))) ⟨m, fun _ => 0, ρ⟩ (fun r => ∀ c : Dev nD,
        r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_strong m ρ (fun c => body_obligation m ρ hs c)

end Cert.KernelIdeal.Ring

end
-- ==== Proof.KRingCells.lean ====
/-
  The four devices of the ring, the nine semaphore cells each of them waits on, and the buffers the exchange moves.

  Device `c` sends its packed key/value slab three times: to `c+1` (into that device's slab 0), to `c+3` (slab 1) and to
  `c+2` (slab 2). Before each send it waits for one unit on a cell the destination signalled: its entry cell 0 (signalled
  by `c+1`), its entry cell 1 (by `c+3`), its barrier cell (by `c+2`). Each send credits the sender's send cell `t` and the
  destination's receive cell `t`.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the ring's -/

abbrev UB : Type := URounds (GSem nD τ sig) Unit
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## The ring -/

def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide

/-- The printed device chains: the three signals name `c+3`, `c+1`, `c+2`; the three transfers `c+1`, `c+3`, `c+2`. -/
theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = opp c := Fin.ext (k0_dev3_eq c)
theorem dev4_eq (c : Dev nD) : (⟨k0_dev4 c, k0_dev4_lt c⟩ : Dev nD) = rgt c := Fin.ext (k0_dev4_eq c)
theorem dev5_eq (c : Dev nD) : (⟨k0_dev5 c, k0_dev5_lt c⟩ : Dev nD) = lft c := Fin.ext (k0_dev5_eq c)
theorem dev6_eq (c : Dev nD) : (⟨k0_dev6 c, k0_dev6_lt c⟩ : Dev nD) = opp c := Fin.ext (k0_dev6_eq c)

def ringR : Dev nD ≃ Dev nD := ⟨rgt, lft, lft_rgt, rgt_lft⟩
def ringO : Dev nD ≃ Dev nD := ⟨opp, opp, opp_opp, opp_opp⟩

/-! ## The semaphores, as the body spells them -/

abbrev eS0 : Sem sig := ((cc0_scratch4.slice (Rect.unit (s := S2) ![0] S1.size inb_S2_S1_0)).squeeze S_ squeezes_S1_S_).sem
abbrev eS1 : Sem sig := ((cc0_scratch4.slice (Rect.unit (s := S2) ![1] S1.size inb_S2_S1_1)).squeeze S_ squeezes_S1_S_).sem
abbrev barS : Sem sig := (SemArray.scalar (sig.barrier 0 rfl) : Sems sig S_).sem
abbrev sS0 : DmaSem sig := ((cc0_scratch2.slice (Rect.unit (s := S3) ![0] S1.size inb_S3_S1_0)).squeeze S_ squeezes_S1_S_).sem
abbrev sS1 : DmaSem sig := ((cc0_scratch2.slice (Rect.unit (s := S3) ![1] S1.size inb_S3_S1_1)).squeeze S_ squeezes_S1_S_).sem
abbrev sS2 : DmaSem sig := ((cc0_scratch2.slice (Rect.unit (s := S3) ![2] S1.size inb_S3_S1_2)).squeeze S_ squeezes_S1_S_).sem
abbrev rS0 : DmaSem sig := ((cc0_scratch3.slice (Rect.unit (s := S3) ![0] S1.size inb_S3_S1_0)).squeeze S_ squeezes_S1_S_).sem
abbrev rS1 : DmaSem sig := ((cc0_scratch3.slice (Rect.unit (s := S3) ![1] S1.size inb_S3_S1_1)).squeeze S_ squeezes_S1_S_).sem
abbrev rS2 : DmaSem sig := ((cc0_scratch3.slice (Rect.unit (s := S3) ![2] S1.size inb_S3_S1_2)).squeeze S_ squeezes_S1_S_).sem

/-- The nine cells of a device: entry 0, entry 1, barrier; send 0–2; receive 0–2. -/
abbrev csem : Fin 9 → SemLoc sig := fun
  | 0 => .reg eS0 | 1 => .reg eS1 | 2 => .reg barS
  | 3 => .dma sS0 | 4 => .dma sS1 | 5 => .dma sS2
  | 6 => .dma rS0 | 7 => .dma rS1 | 8 => .dma rS2
abbrev kcell (ck : Dev nD × Fin 9) : GSem nD τ sig := ((ck.1 : Thread nD τ), csem ck.2)

theorem csem_inj : Function.Injective csem := by decide

/-- The nine cells of device `c` by name: entry 0, entry 1, barrier; send 0–2; receive 0–2. -/
abbrev e0C (c : Dev nD) : GSem nD τ sig := ((c : Thread nD τ), SemLoc.reg eS0)
abbrev e1C (c : Dev nD) : GSem nD τ sig := ((c : Thread nD τ), SemLoc.reg eS1)
abbrev bC (c : Dev nD) : GSem nD τ sig := ((c : Thread nD τ), SemLoc.reg barS)
abbrev s0C (c : Dev nD) : GSem nD τ sig := ((c : Thread nD τ), SemLoc.dma sS0)
abbrev s1C (c : Dev nD) : GSem nD τ sig := ((c : Thread nD τ), SemLoc.dma sS1)
abbrev s2C (c : Dev nD) : GSem nD τ sig := ((c : Thread nD τ), SemLoc.dma sS2)
abbrev r0C (c : Dev nD) : GSem nD τ sig := ((c : Thread nD τ), SemLoc.dma rS0)
abbrev r1C (c : Dev nD) : GSem nD τ sig := ((c : Thread nD τ), SemLoc.dma rS1)
abbrev r2C (c : Dev nD) : GSem nD τ sig := ((c : Thread nD τ), SemLoc.dma rS2)

/-- The kernel's own (scoped) semaphores, as the launch indexes them: all but the barrier. -/
abbrev osem : Fin 8 → SemLoc sig := fun
  | 0 => .reg eS0 | 1 => .reg eS1
  | 2 => .dma sS0 | 3 => .dma sS1 | 4 => .dma sS2
  | 5 => .dma rS0 | 6 => .dma rS1 | 7 => .dma rS2

/-! ## The buffers -/

abbrev sendM : Memref sig .tc .vmem S256x128 .bf16 := Memref.whole cc0_scratch0
abbrev commM : Memref sig .tc .vmem S3x256x128 .bf16 := Memref.whole cc0_scratch1
abbrev slab0 : Memref sig .tc .vmem S256x128 .bf16 :=
  (commM.slice (Rect.unit (s := S3x256x128) ![0, 0, 0] S1x256x128.size inb_S3x256x128_S1x256x128_0_0_0) (fun _ => rfl)).squeeze S256x128 squeezes_S1x256x128_S256x128
abbrev slab1 : Memref sig .tc .vmem S256x128 .bf16 :=
  (commM.slice (Rect.unit (s := S3x256x128) ![1, 0, 0] S1x256x128.size inb_S3x256x128_S1x256x128_1_0_0) (fun _ => rfl)).squeeze S256x128 squeezes_S1x256x128_S256x128
abbrev slab2 : Memref sig .tc .vmem S256x128 .bf16 :=
  (commM.slice (Rect.unit (s := S3x256x128) ![2, 0, 0] S1x256x128.size inb_S3x256x128_S1x256x128_2_0_0) (fun _ => rfl)).squeeze S256x128 squeezes_S1x256x128_S256x128

/-- The credit of one slab's transfer. -/
abbrev N : ℕ := (sendM : Memref sig .tc .vmem S256x128 .bf16).view.dmaCredit
theorem N_pos : 0 < N := View.dmaCredit_pos _ (by decide)
theorem N_slab0 : (slab0 : Memref sig .tc .vmem S256x128 .bf16).view.dmaCredit = N := by decide
theorem N_slab1 : (slab1 : Memref sig .tc .vmem S256x128 .bf16).view.dmaCredit = N := by decide
theorem N_slab2 : (slab2 : Memref sig .tc .vmem S256x128 .bf16).view.dmaCredit = N := by decide

theorem ownSemFacts : Pipeline.OwnSemFacts cfg0.spec osem := by decide

end Cert.Kernel.Ring

end
-- ==== Proof.KRingSched.lean ====
/-
  The exchange's schedule: what each of a device's nine cells expects in its one round, and what a unit paid onto it hands
  the waiting device.

  An entry or barrier cell of `c` expects one unit, from the device `d` that `c` is about to send to; with it `d` hands over
  the slab of its receive buffer that `c`'s transfer writes, and the fact that `d`'s receive cell for that slab is at its
  round. A send cell expects one slab's credit from `c`'s own transfer, which lends it a share of the packed buffer. A
  receive cell expects one slab's credit from the transfer of the device sending to `c`, which hands back the slab now
  holding that device's packed keys (columns 0–63) and values (columns 64–127).
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingCells
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- A device's three staged blocks: its query rows, key rows and value rows. -/
def qB (d : Dev nD) : (cc0_stg0_0 : Ref sig .tc).ty.Contents (Elt F) :=
  (win0_0.blk (0 : Fin 1)).view.read (Elt F) (m ((d : Thread nD τ).loc main_arg0))
def kB (d : Dev nD) : (cc0_stg1_0 : Ref sig .tc).ty.Contents (Elt F) :=
  (win0_1.blk (0 : Fin 1)).view.read (Elt F) (m ((d : Thread nD τ).loc main_arg1))
def vB (d : Dev nD) : (cc0_stg2_0 : Ref sig .tc).ty.Contents (Elt F) :=
  (win0_2.blk (0 : Fin 1)).view.read (Elt F) (m ((d : Thread nD τ).loc main_arg2))

theorem casts_slab : S256x64.ShapeCasts S1x256x64 := by decide

/-- What a load of a received slab's key half, respectively value half, must read when the slab came from device `d`: `d`'s
    keys, respectively values, narrowed as `d` packed them, seen as a [1, 256, 64] vector. -/
def slabK (d : Dev nD) : Vec F S1x256x64 .bf16 := shapeCast S1x256x64 (k0_pay1 (kB m d)) casts_slab
def slabV (d : Dev nD) : Vec F S1x256x64 .bf16 := shapeCast S1x256x64 (k0_pay3 (k0_pay2 (vB m d))) casts_slab

abbrev rK0 : Rect S3x256x128 := Rect.unit (s := S3x256x128) ![0, 0, 0] S1x256x64.size inb_S3x256x128_S1x256x64_0_0_0
abbrev rV0 : Rect S3x256x128 := Rect.unit (s := S3x256x128) ![0, 0, 64] S1x256x64.size inb_S3x256x128_S1x256x64_0_0_64
abbrev rK1 : Rect S3x256x128 := Rect.unit (s := S3x256x128) ![1, 0, 0] S1x256x64.size inb_S3x256x128_S1x256x64_1_0_0
abbrev rV1 : Rect S3x256x128 := Rect.unit (s := S3x256x128) ![1, 0, 64] S1x256x64.size inb_S3x256x128_S1x256x64_1_0_64
abbrev rK2 : Rect S3x256x128 := Rect.unit (s := S3x256x128) ![2, 0, 0] S1x256x64.size inb_S3x256x128_S1x256x64_2_0_0
abbrev rV2 : Rect S3x256x128 := Rect.unit (s := S3x256x128) ![2, 0, 64] S1x256x64.size inb_S3x256x128_S1x256x64_2_0_64

/-- The receive buffer of `c` at contents `f` holds, in slab 0 (respectively 1, 2), what device `d` packed. -/
def Holds0 (d c : Dev nD) (f : Buf (Elt F) ((slab0 : Memref sig .tc .vmem S256x128 .bf16).view.loc (c : Thread nD τ))) : Prop :=
  (commM : Memref sig .tc .vmem S3x256x128 .bf16).view.readAt (Elt F) rK0.toLoadRect f = slabK m d
    ∧ (commM : Memref sig .tc .vmem S3x256x128 .bf16).view.readAt (Elt F) rV0.toLoadRect f = slabV m d
def Holds1 (d c : Dev nD) (f : Buf (Elt F) ((slab1 : Memref sig .tc .vmem S256x128 .bf16).view.loc (c : Thread nD τ))) : Prop :=
  (commM : Memref sig .tc .vmem S3x256x128 .bf16).view.readAt (Elt F) rK1.toLoadRect f = slabK m d
    ∧ (commM : Memref sig .tc .vmem S3x256x128 .bf16).view.readAt (Elt F) rV1.toLoadRect f = slabV m d
def Holds2 (d c : Dev nD) (f : Buf (Elt F) ((slab2 : Memref sig .tc .vmem S256x128 .bf16).view.loc (c : Thread nD τ))) : Prop :=
  (commM : Memref sig .tc .vmem S3x256x128 .bf16).view.readAt (Elt F) rK2.toLoadRect f = slabK m d
    ∧ (commM : Memref sig .tc .vmem S3x256x128 .bf16).view.readAt (Elt F) rV2.toLoadRect f = slabV m d

def slabPts0 (d : Dev nD) (f : Buf (Elt F) ((slab0 : Memref sig .tc .vmem S256x128 .bf16).view.loc (d : Thread nD τ))) : sProp 𝕄 :=
  (slab0 : Memref sig .tc .vmem S256x128 .bf16).view.loc (d : Thread nD τ) ↦[(slab0 : Memref sig .tc .vmem S256x128 .bf16).view.set]{fullShare} f
def slabPts1 (d : Dev nD) (f : Buf (Elt F) ((slab1 : Memref sig .tc .vmem S256x128 .bf16).view.loc (d : Thread nD τ))) : sProp 𝕄 :=
  (slab1 : Memref sig .tc .vmem S256x128 .bf16).view.loc (d : Thread nD τ) ↦[(slab1 : Memref sig .tc .vmem S256x128 .bf16).view.set]{fullShare} f
def slabPts2 (d : Dev nD) (f : Buf (Elt F) ((slab2 : Memref sig .tc .vmem S256x128 .bf16).view.loc (d : Thread nD τ))) : sProp 𝕄 :=
  (slab2 : Memref sig .tc .vmem S256x128 .bf16).view.loc (d : Thread nD τ) ↦[(slab2 : Memref sig .tc .vmem S256x128 .bf16).view.set]{fullShare} f
/-- The packed buffer of `d` at share `q`. -/
def sendPts (q : PosShare TreeShare) (d : Dev nD) (f : Buf (Elt F) ((sendM : Memref sig .tc .vmem S256x128 .bf16).view.loc (d : Thread nD τ))) : sProp 𝕄 :=
  (sendM : Memref sig .tc .vmem S256x128 .bf16).view.loc (d : Thread nD τ) ↦[(sendM : Memref sig .tc .vmem S256x128 .bf16).view.set]{q} f

/-- The three shares the three transfers read the packed buffer at. -/
abbrev sh0 : PosShare TreeShare := fullShare.left
abbrev sh1 : PosShare TreeShare := fullShare.right.left
abbrev sh2 : PosShare TreeShare := fullShare.right.right

/-! ## The schedule -/

/-- What one unit paid onto cell `k` of device `c` hands `c`. -/
def pay (k : Fin 9) (c : Dev nD) : sProp 𝕄 := match k with
  | 0 => iprop((∃ f, slabPts0 (rgt c) f) ∗ reached ER (r0C (rgt c)) 0)
  | 1 => iprop((∃ f, slabPts1 (lft c) f) ∗ reached ER (r1C (lft c)) 0)
  | 2 => iprop((∃ f, slabPts2 (opp c) f) ∗ reached ER (r2C (opp c)) 0)
  | 3 => iprop(∃ f, sendPts sh0 c f)
  | 4 => iprop(∃ f, sendPts sh1 c f)
  | 5 => iprop(∃ f, sendPts sh2 c f)
  | 6 => iprop(∃ f, slabPts0 c f ∗ ⌜Holds0 m (lft c) c f⌝)
  | 7 => iprop(∃ f, slabPts1 c f ∗ ⌜Holds1 m (rgt c) c f⌝)
  | 8 => iprop(∃ f, slabPts2 c f ∗ ⌜Holds2 m (opp c) c f⌝)

/-- One unit for an entry or barrier cell, one slab's credit for a send or receive cell. -/
def amt (k : Fin 9) : ℕ := if k.val < 3 then 1 else N
theorem amt_pos (k : Fin 9) : 0 < amt k := by unfold amt; split; exact Nat.one_pos; exact N_pos

/-- Which of the nine cells a semaphore is. -/
def kindOf (s : SemLoc sig) : Option (Fin 9) :=
  if s = csem 0 then some 0 else if s = csem 1 then some 1 else if s = csem 2 then some 2
  else if s = csem 3 then some 3 else if s = csem 4 then some 4 else if s = csem 5 then some 5
  else if s = csem 6 then some 6 else if s = csem 7 then some 7 else if s = csem 8 then some 8 else none
theorem kindOf_csem : ∀ k : Fin 9, kindOf (csem k) = some k := by decide

/-- One round, round 0, one duty per cell. -/
def rd : Rounds.Schedule (GSem nD τ sig) Unit 𝕄 where
  duties g r := if r = 0 ∧ g.1.2 = .tc ∧ (kindOf g.2).isSome = true then {()} else ∅
  unitless _ := False
  amount g _ _ := match kindOf g.2 with | some k => amt k | none => 1
  payload g _ _ := match kindOf g.2 with | some k => pay m k g.1.1 | none => iprop(emp)
  amount_pos g _ _ _ := by
    cases kindOf g.2 with
    | none => exact Nat.one_pos
    | some k => exact amt_pos k

instance pay_storable (k : Fin 9) (c : Dev nD) : BI.Storable (upEmb : UEmb _ 𝕄) (pay (F := F) m k c) := by
  fin_cases k <;> (unfold pay slabPts0 slabPts1 slabPts2 sendPts; infer_instance)

instance rd_payload_storable (g : GSem nD τ sig) (r : ℕ) (u : Unit) :
    BI.Storable (upEmb : UEmb _ 𝕄) ((rd (F := F) m).payload g r u) := by
  show BI.Storable upEmb (match kindOf g.2 with | some k => pay m k g.1.1 | none => iprop(emp))
  cases kindOf g.2 <;> infer_instance

section Tables
variable (c : Dev nD) (k : Fin 9)

theorem duties_k : (rd (F := F) m).duties (kcell (c, k)) 0 = {()} := by
  dsimp only [rd]; rw [if_pos ⟨rfl, rfl, by rw [kindOf_csem]; rfl⟩]
theorem duties_later (g : GSem nD τ sig) : ∀ r, 1 ≤ r → (rd (F := F) m).duties g r = ∅ :=
  fun r hr => by dsimp only [rd]; rw [if_neg fun h => by omega]
theorem amount_k (u : Unit) : (rd (F := F) m).amount (kcell (c, k)) 0 u = amt k := by
  dsimp only [rd]; rw [kindOf_csem]
theorem payload_k (u : Unit) : (rd (F := F) m).payload (kcell (c, k)) 0 u = pay m k c := by
  dsimp only [rd]; rw [kindOf_csem]
theorem expect_k : (rd (F := F) m).expect (kcell (c, k)) 0 = amt k := by
  unfold Schedule.expect Schedule.amountOf; rw [duties_k, Finset.sum_singleton, amount_k]
theorem rest_k : bigSep ((rd (F := F) m).duties (kcell (c, k)) 0 \ ∅) (fun u => (rd (F := F) m).payload (kcell (c, k)) 0 u) = pay m k c := by
  rw [Finset.sdiff_empty, duties_k, bigSep_singleton, payload_k]

end Tables

/-! ## The tables at each named cell -/

section PerCell
variable (c : Dev nD)
theorem duties_e0C : (rd (F := F) m).duties (e0C c) 0 = {()} := duties_k m c 0
theorem amount_e0C (u : Unit) : (rd (F := F) m).amount (e0C c) 0 u = 1 := (amount_k m c 0 u).trans (by decide)
theorem payload_e0C (u : Unit) : (rd (F := F) m).payload (e0C c) 0 u = pay m 0 c := payload_k m c 0 u
theorem expect_e0C : (rd (F := F) m).expect (e0C c) 0 = 1 := (expect_k m c 0).trans (by decide)
theorem mem_e0C : () ∈ (rd (F := F) m).duties (e0C c) 0 := by rw [duties_e0C]; exact Finset.mem_singleton_self _
theorem duties_e1C : (rd (F := F) m).duties (e1C c) 0 = {()} := duties_k m c 1
theorem amount_e1C (u : Unit) : (rd (F := F) m).amount (e1C c) 0 u = 1 := (amount_k m c 1 u).trans (by decide)
theorem payload_e1C (u : Unit) : (rd (F := F) m).payload (e1C c) 0 u = pay m 1 c := payload_k m c 1 u
theorem expect_e1C : (rd (F := F) m).expect (e1C c) 0 = 1 := (expect_k m c 1).trans (by decide)
theorem mem_e1C : () ∈ (rd (F := F) m).duties (e1C c) 0 := by rw [duties_e1C]; exact Finset.mem_singleton_self _
theorem duties_bC : (rd (F := F) m).duties (bC c) 0 = {()} := duties_k m c 2
theorem amount_bC (u : Unit) : (rd (F := F) m).amount (bC c) 0 u = 1 := (amount_k m c 2 u).trans (by decide)
theorem payload_bC (u : Unit) : (rd (F := F) m).payload (bC c) 0 u = pay m 2 c := payload_k m c 2 u
theorem expect_bC : (rd (F := F) m).expect (bC c) 0 = 1 := (expect_k m c 2).trans (by decide)
theorem mem_bC : () ∈ (rd (F := F) m).duties (bC c) 0 := by rw [duties_bC]; exact Finset.mem_singleton_self _
theorem duties_s0C : (rd (F := F) m).duties (s0C c) 0 = {()} := duties_k m c 3
theorem amount_s0C (u : Unit) : (rd (F := F) m).amount (s0C c) 0 u = N := (amount_k m c 3 u).trans (by decide)
theorem payload_s0C (u : Unit) : (rd (F := F) m).payload (s0C c) 0 u = pay m 3 c := payload_k m c 3 u
theorem expect_s0C : (rd (F := F) m).expect (s0C c) 0 = N := (expect_k m c 3).trans (by decide)
theorem mem_s0C : () ∈ (rd (F := F) m).duties (s0C c) 0 := by rw [duties_s0C]; exact Finset.mem_singleton_self _
theorem duties_s1C : (rd (F := F) m).duties (s1C c) 0 = {()} := duties_k m c 4
theorem amount_s1C (u : Unit) : (rd (F := F) m).amount (s1C c) 0 u = N := (amount_k m c 4 u).trans (by decide)
theorem payload_s1C (u : Unit) : (rd (F := F) m).payload (s1C c) 0 u = pay m 4 c := payload_k m c 4 u
theorem expect_s1C : (rd (F := F) m).expect (s1C c) 0 = N := (expect_k m c 4).trans (by decide)
theorem mem_s1C : () ∈ (rd (F := F) m).duties (s1C c) 0 := by rw [duties_s1C]; exact Finset.mem_singleton_self _
theorem duties_s2C : (rd (F := F) m).duties (s2C c) 0 = {()} := duties_k m c 5
theorem amount_s2C (u : Unit) : (rd (F := F) m).amount (s2C c) 0 u = N := (amount_k m c 5 u).trans (by decide)
theorem payload_s2C (u : Unit) : (rd (F := F) m).payload (s2C c) 0 u = pay m 5 c := payload_k m c 5 u
theorem expect_s2C : (rd (F := F) m).expect (s2C c) 0 = N := (expect_k m c 5).trans (by decide)
theorem mem_s2C : () ∈ (rd (F := F) m).duties (s2C c) 0 := by rw [duties_s2C]; exact Finset.mem_singleton_self _
theorem duties_r0C : (rd (F := F) m).duties (r0C c) 0 = {()} := duties_k m c 6
theorem amount_r0C (u : Unit) : (rd (F := F) m).amount (r0C c) 0 u = N := (amount_k m c 6 u).trans (by decide)
theorem payload_r0C (u : Unit) : (rd (F := F) m).payload (r0C c) 0 u = pay m 6 c := payload_k m c 6 u
theorem expect_r0C : (rd (F := F) m).expect (r0C c) 0 = N := (expect_k m c 6).trans (by decide)
theorem mem_r0C : () ∈ (rd (F := F) m).duties (r0C c) 0 := by rw [duties_r0C]; exact Finset.mem_singleton_self _
theorem duties_r1C : (rd (F := F) m).duties (r1C c) 0 = {()} := duties_k m c 7
theorem amount_r1C (u : Unit) : (rd (F := F) m).amount (r1C c) 0 u = N := (amount_k m c 7 u).trans (by decide)
theorem payload_r1C (u : Unit) : (rd (F := F) m).payload (r1C c) 0 u = pay m 7 c := payload_k m c 7 u
theorem expect_r1C : (rd (F := F) m).expect (r1C c) 0 = N := (expect_k m c 7).trans (by decide)
theorem mem_r1C : () ∈ (rd (F := F) m).duties (r1C c) 0 := by rw [duties_r1C]; exact Finset.mem_singleton_self _
theorem duties_r2C : (rd (F := F) m).duties (r2C c) 0 = {()} := duties_k m c 8
theorem amount_r2C (u : Unit) : (rd (F := F) m).amount (r2C c) 0 u = N := (amount_k m c 8 u).trans (by decide)
theorem payload_r2C (u : Unit) : (rd (F := F) m).payload (r2C c) 0 u = pay m 8 c := payload_k m c 8 u
theorem expect_r2C : (rd (F := F) m).expect (r2C c) 0 = N := (expect_k m c 8).trans (by decide)
theorem mem_r2C : () ∈ (rd (F := F) m).duties (r2C c) 0 := by rw [duties_r2C]; exact Finset.mem_singleton_self _

/-- The payloads spelled out, at a device's own cells. -/
theorem pay_e0 : pay (F := F) m 0 c = iprop((∃ f, slabPts0 (rgt c) f) ∗ reached ER (r0C (rgt c)) 0) := rfl
theorem pay_e1 : pay (F := F) m 1 c = iprop((∃ f, slabPts1 (lft c) f) ∗ reached ER (r1C (lft c)) 0) := rfl
theorem pay_b : pay (F := F) m 2 c = iprop((∃ f, slabPts2 (opp c) f) ∗ reached ER (r2C (opp c)) 0) := rfl
theorem pay_s0 : pay (F := F) m 3 c = iprop(∃ f, sendPts sh0 c f) := rfl
theorem pay_s1 : pay (F := F) m 4 c = iprop(∃ f, sendPts sh1 c f) := rfl
theorem pay_s2 : pay (F := F) m 5 c = iprop(∃ f, sendPts sh2 c f) := rfl
theorem pay_r0 : pay (F := F) m 6 c = iprop(∃ f, slabPts0 c f ∗ ⌜Holds0 m (lft c) c f⌝) := rfl
theorem pay_r1 : pay (F := F) m 7 c = iprop(∃ f, slabPts1 c f ∗ ⌜Holds1 m (rgt c) c f⌝) := rfl
theorem pay_r2 : pay (F := F) m 8 c = iprop(∃ f, slabPts2 c f ∗ ⌜Holds2 m (opp c) c f⌝) := rfl

/-- The payloads at the six peer cells device `c` pays, stated at `c`: a signal hands over `c`'s own slab, a transfer hands the
    peer its slab holding what `c` packed. -/
theorem pay_e0_at (x : Dev nD) (h : rgt x = c) : pay (F := F) m 0 x = iprop((∃ f, slabPts0 c f) ∗ reached ER (r0C c) 0) := by subst h; rfl
theorem pay_e1_at (x : Dev nD) (h : lft x = c) : pay (F := F) m 1 x = iprop((∃ f, slabPts1 c f) ∗ reached ER (r1C c) 0) := by subst h; rfl
theorem pay_b_at (x : Dev nD) (h : opp x = c) : pay (F := F) m 2 x = iprop((∃ f, slabPts2 c f) ∗ reached ER (r2C c) 0) := by subst h; rfl
theorem payload_e0C_lft (u : Unit) : (rd (F := F) m).payload (e0C (lft c)) 0 u = iprop((∃ f, slabPts0 c f) ∗ reached ER (r0C c) 0) :=
  (payload_e0C m (lft c) u).trans (pay_e0_at m c (lft c) (rgt_lft c))
theorem payload_e1C_rgt (u : Unit) : (rd (F := F) m).payload (e1C (rgt c)) 0 u = iprop((∃ f, slabPts1 c f) ∗ reached ER (r1C c) 0) :=
  (payload_e1C m (rgt c) u).trans (pay_e1_at m c (rgt c) (lft_rgt c))
theorem payload_bC_opp (u : Unit) : (rd (F := F) m).payload (bC (opp c)) 0 u = iprop((∃ f, slabPts2 c f) ∗ reached ER (r2C c) 0) :=
  (payload_bC m (opp c) u).trans (pay_b_at m c (opp c) (opp_opp c))
theorem payload_r0C_rgt (u : Unit) : (rd (F := F) m).payload (r0C (rgt c)) 0 u = iprop(∃ f, slabPts0 (rgt c) f ∗ ⌜Holds0 m c (rgt c) f⌝) :=
  (payload_r0C m (rgt c) u).trans (by rw [pay_r0, lft_rgt])
theorem payload_r1C_lft (u : Unit) : (rd (F := F) m).payload (r1C (lft c)) 0 u = iprop(∃ f, slabPts1 (lft c) f ∗ ⌜Holds1 m c (lft c) f⌝) :=
  (payload_r1C m (lft c) u).trans (by rw [pay_r1, rgt_lft])
theorem payload_r2C_opp (u : Unit) : (rd (F := F) m).payload (r2C (opp c)) 0 u = iprop(∃ f, slabPts2 (opp c) f ∗ ⌜Holds2 m c (opp c) f⌝) :=
  (payload_r2C m (opp c) u).trans (by rw [pay_r2, opp_opp])

/-- "Some contents" of a slab, at a device named twice round the ring. -/
theorem ex_slab0_rl : (iprop(∃ f, slabPts0 (rgt (lft c)) f) : sProp 𝕄) = iprop(∃ f, slabPts0 c f) :=
  congrArg (fun d => (iprop(∃ f, slabPts0 d f) : sProp 𝕄)) (rgt_lft c)
theorem ex_slab1_lr : (iprop(∃ f, slabPts1 (lft (rgt c)) f) : sProp 𝕄) = iprop(∃ f, slabPts1 c f) :=
  congrArg (fun d => (iprop(∃ f, slabPts1 d f) : sProp 𝕄)) (lft_rgt c)
theorem ex_slab2_oo : (iprop(∃ f, slabPts2 (opp (opp c)) f) : sProp 𝕄) = iprop(∃ f, slabPts2 c f) :=
  congrArg (fun d => (iprop(∃ f, slabPts2 d f) : sProp 𝕄)) (opp_opp c)
end PerCell

/-! ## What a device owes at launch; the levels -/

/-- Device `c` owes three signals — to entry cell 0 of `c+3`, entry cell 1 of `c+1`, the barrier cell of `c+2` — and three slabs'
    credits — to receive cell 0 of `c+1`, 1 of `c+3`, 2 of `c+2`. Summed so that the body's steps peel the LAST summand each. -/
def O₃ (c : Dev nD) : CellTallies nD τ sig Unit :=
  tallyAt (r2C (opp c)) () N + tallyAt (r1C (lft c)) () N + tallyAt (r0C (rgt c)) () N
def O₀ (c : Dev nD) : CellTallies nD τ sig Unit :=
  O₃ c + tallyAt (bC (opp c)) () 1 + tallyAt (e1C (rgt c)) () 1 + tallyAt (e0C (lft c)) () 1

def Lset (g : GSem nD τ sig) : Finset Unit := if g.1.2 = .tc then {()} else ∅
/-- Entry and barrier cells at 1, receive cells at 2, everything else (staging, send) at 0. -/
def lv (g : GSem nD τ sig) (_ : Unit) : ℕ :=
  if g.2 = csem 0 ∨ g.2 = csem 1 ∨ g.2 = csem 2 then 1 else if g.2 = csem 6 ∨ g.2 = csem 7 ∨ g.2 = csem 8 then 2 else 0

theorem Lset_of_ne (g : GSem nD τ sig) (h : g.1.2 ≠ .tc) : Lset g = ∅ := if_neg h
theorem Lset_tc (c : Dev nD) (sm : SemLoc sig) : Lset ((c : Thread nD τ), sm) = {()} := if_pos rfl

/-- The level of each of the nine cells. -/
def lvk (k : Fin 9) : ℕ := if k.val < 3 then 1 else if 6 ≤ k.val then 2 else 0
theorem lv_tab : ∀ k : Fin 9,
    (if csem k = csem 0 ∨ csem k = csem 1 ∨ csem k = csem 2 then 1 else if csem k = csem 6 ∨ csem k = csem 7 ∨ csem k = csem 8 then 2 else 0) = lvk k := by
  decide
theorem lv_kcell (c : Dev nD) (k : Fin 9) (u : Unit) : lv (kcell (c, k)) u = lvk k := lv_tab k
/-- A staging cell, or any semaphore that is none of the nine, sits at level 0. -/
theorem lv_other (g : GSem nD τ sig) (u : Unit) (h : ∀ k : Fin 9, g.2 ≠ csem k) : lv g u = 0 := by
  dsimp only [lv]
  rw [if_neg (fun h' => by rcases h' with h' | h' | h' <;> exact h _ h'), if_neg (fun h' => by rcases h' with h' | h' | h' <;> exact h _ h')]

end Cert.Kernel.Ring

end
-- ==== Proof.KRingGhost.lean ====
/-
  The ghost state one device's body starts from, and what the launch deals each device before the cells' invariants exist.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingSched
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants device `c`'s body opens, under the names `K` the launch allocated them at: its own nine cells', the three
    cells' it signals, the three receive cells' its transfers credit. -/
def invs (K : Dev nD × Fin 9 → ℕ) (c : Dev nD) : sProp 𝕄 :=
  iprop(cellInv ER (rd m) (K (c, 0)) (e0C c) ∗ cellInv ER (rd m) (K (c, 1)) (e1C c) ∗ cellInv ER (rd m) (K (c, 2)) (bC c)
    ∗ cellInv ER (rd m) (K (c, 3)) (s0C c) ∗ cellInv ER (rd m) (K (c, 4)) (s1C c) ∗ cellInv ER (rd m) (K (c, 5)) (s2C c)
    ∗ cellInv ER (rd m) (K (c, 6)) (r0C c) ∗ cellInv ER (rd m) (K (c, 7)) (r1C c) ∗ cellInv ER (rd m) (K (c, 8)) (r2C c)
    ∗ cellInv ER (rd m) (K (lft c, 0)) (e0C (lft c)) ∗ cellInv ER (rd m) (K (rgt c, 1)) (e1C (rgt c)) ∗ cellInv ER (rd m) (K (opp c, 2)) (bC (opp c))
    ∗ cellInv ER (rd m) (K (rgt c, 6)) (r0C (rgt c)) ∗ cellInv ER (rd m) (K (lft c, 7)) (r1C (lft c)) ∗ cellInv ER (rd m) (K (opp c, 8)) (r2C (opp c)))

instance invs_persistent (K : Dev nD × Fin 9 → ℕ) (c : Dev nD) : BI.Persistent (invs m K c) := by unfold invs; infer_instance

/-- Its positions: round 0 of each of its nine cells. -/
def posns (c : Dev nD) : sProp 𝕄 :=
  iprop(atPos ER (e0C c) 0 ∅ 0 ∗ atPos ER (e1C c) 0 ∅ 0 ∗ atPos ER (bC c) 0 ∅ 0
    ∗ atPos ER (s0C c) 0 ∅ 0 ∗ atPos ER (s1C c) 0 ∅ 0 ∗ atPos ER (s2C c) 0 ∅ 0
    ∗ atPos ER (r0C c) 0 ∅ 0 ∗ atPos ER (r1C c) 0 ∅ 0 ∗ atPos ER (r2C c) 0 ∅ 0)

/-- The rounds it knows reached: of the six peer cells it pays, of its own send cells, of its own receive cells. -/
def marks (c : Dev nD) : sProp 𝕄 :=
  iprop(reached ER (e0C (lft c)) 0 ∗ reached ER (e1C (rgt c)) 0 ∗ reached ER (bC (opp c)) 0
    ∗ reached ER (r0C (rgt c)) 0 ∗ reached ER (r1C (lft c)) 0 ∗ reached ER (r2C (opp c)) 0
    ∗ reached ER (s0C c) 0 ∗ reached ER (s1C c) 0 ∗ reached ER (s2C c) 0
    ∗ reached ER (r0C c) 0 ∗ reached ER (r1C c) 0 ∗ reached ER (r2C c) 0)

instance marks_persistent (c : Dev nD) : BI.Persistent (marks (F := F) c) := by unfold marks; infer_instance

/-- The tokens of the nine duties it pays: three signals, its three send cells, three peers' receive cells. -/
def payToks (c : Dev nD) : sProp 𝕄 :=
  iprop(dutyTok ER (e0C (lft c)) 0 () ∗ dutyTok ER (e1C (rgt c)) 0 () ∗ dutyTok ER (bC (opp c)) 0 ()
    ∗ dutyTok ER (s0C c) 0 () ∗ dutyTok ER (s1C c) 0 () ∗ dutyTok ER (s2C c) 0 ()
    ∗ dutyTok ER (r0C (rgt c)) 0 () ∗ dutyTok ER (r1C (lft c)) 0 () ∗ dutyTok ER (r2C (opp c)) 0 ())

/-- The ring's ghost state device `c` starts from. -/
def ghost (K : Dev nD × Fin 9 → ℕ) (c : Dev nD) : sProp 𝕄 :=
  iprop(invs m K c ∗ posns c ∗ marks c ∗ payToks c)

/-- The credit of the six waits that other devices pay. -/
def waitCred (c : Dev nD) : sProp 𝕄 :=
  iprop(cred (tallyAt (e0C c) () 1) ∗ cred (tallyAt (e1C c) () 1) ∗ cred (tallyAt (bC c) () 1)
    ∗ cred (tallyAt (r0C c) () N) ∗ cred (tallyAt (r1C c) () N) ∗ cred (tallyAt (r2C c) () N))

/-- What device `c`'s body starts from, besides its buffers. -/
def start (c : Dev nD) : sProp 𝕄 :=
  iprop((∃ K, ghost m K c) ∗ waitCred c ∗ levAts Lset lv)

/-- The duty tokens of device `c`'s own nine cells, as minted. -/
def toks (c : Dev nD) : sProp 𝕄 := bigSep Finset.univ fun k : Fin 9 => dutyTok ER (kcell (c, k)) 0 ()

/-- What the launch element deals device `c`, before any invariant is allocated. -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- The tokens minted: one per cell, round 0. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

end Cert.Kernel.Ring

end
-- ==== Proof.KRingData.lean ====
/-
  The proof data of the one launch: what each window holds after the point, what a device holds before and after it, and
  what it owes.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingGhost
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device stores into its result block, as a function of its own three loads and of the six loads it makes from the
    three received slabs: the body's pure steps composed in the order the body applies them. -/
def outOfR (q k v : Vec F S256x64 .f32) (ka va kb vb kc vc : Vec F S1x256x64 .bf16) : FVec F S256x64 .f32 :=
  k0_pay13 (k0_pay4 q)
    (k0_pay11 (k0_pay4 q) (k0_pay6 q k) (k0_pay8 ka) kb)
    (k0_pay12 (k0_pay4 q) (k0_pay7 q k v) (k0_pay8 ka) va kb vb)
    kc vc

/-- Device `c`'s result: its own slab, then the slabs of `c+3`, `c+1`, `c+2`, in the order they are received. -/
def outAt (c : Dev nD) : (cc0_stg3_0 : Ref sig .tc).ty.Contents (Elt F) :=
  outOfR (qB m c) (kB m c) (vB m c) (slabK m (lft c)) (slabV m (lft c)) (slabK m (rgt c)) (slabV m (rgt c)) (slabK m (opp c)) (slabV m (opp c))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the point: the ghost state, and the two scratch buffers at some contents. -/
def Φ₀ (c : Dev nD) : sProp 𝕄 :=
  iprop(start m c ∗ (∃ f, sendPts fullShare c f) ∗ (∃ f : Buf (Elt F) ((c : Thread nD τ).loc cc0_scratch1), (((c : Thread nD τ).loc cc0_scratch1) ↦{fullShare} f)))
/-- After it: the two scratch buffers at some contents, the eight scoped cells at zero, closed (the barrier cell is the
    runtime's: nothing to hand back). -/
def Φ₁ (c : Dev nD) : sProp 𝕄 :=
  iprop((∃ f, sendPts fullShare c f) ∗ (∃ f : Buf (Elt F) ((c : Thread nD τ).loc cc0_scratch1), (((c : Thread nD τ).loc cc0_scratch1) ↦{fullShare} f))
    ∗ semVal (e0C c) 0 ∗ semVal (e1C c) 0 ∗ semVal (s0C c) 0 ∗ semVal (s1C c) 0 ∗ semVal (s2C c) 0
    ∗ semVal (r0C c) 0 ∗ semVal (r1C c) 0 ∗ semVal (r2C c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qB m c
    | ⟨1, _⟩ => kB m c
    | ⟨2, _⟩ => vB m c
    | ⟨3, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the after-state, what it still owes (nothing), and the four staging buffers, the result's at the
    device's result. -/
def bodyPost (c : Dev nD) : sProp 𝕄 :=
  iprop(Φ₁ (F := F) c ∗ (dats m ρ 0 c).owesAt () t₀.succ
    ∗ stg c cc0_stg0_0 (qB m c) ∗ stg c cc0_stg1_0 (kB m c) ∗ stg c cc0_stg2_0 (vB m c) ∗ stg c cc0_stg3_0 (outAt m c))

end Cert.Kernel.Ring

end
-- ==== Proof.KRingBodySpec.lean ====
/-
  The statement of one device's body: from the ghost state and buffers it starts with, to its result written, its scratch
  buffers whole again and its eight scoped cells closed.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingData
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer of device `c`, whole, at contents `f`. -/
def stgPts (b : Ref sig .tc) (c : Dev nD) (f : Buf (Elt F) ((Memref.whole b : Memref sig .tc b.space b.ty.shape b.ty.elt).view.loc (c : Thread nD τ))) : sProp 𝕄 :=
  (Memref.whole b : Memref sig .tc b.space b.ty.shape b.ty.elt).view.loc (c : Thread nD τ) ↦[(Memref.whole b : Memref sig .tc b.space b.ty.shape b.ty.elt).view.set]{fullShare} f

/-- What the body of device `c` starts from: the invariants, positions, reached marks and tokens of `ghost`, the credit of its
    six waits, the levels, what it owes, the packed buffer and the three slabs of the receive buffer at some contents, and the
    four staging buffers (the three inputs at the device's blocks). -/
def BodyPre (K : Dev nD × Fin 9 → ℕ) (c : Dev nD) (W : Waits sig Unit)
    (f0 : Buf (Elt F) ((sendM : Memref sig .tc .vmem S256x128 .bf16).view.loc (c : Thread nD τ)))
    (fc : Buf (Elt F) ((c : Thread nD τ).loc cc0_scratch1)) (fo : (cc0_stg3_0 : Ref sig .tc).ty.Contents (Elt F)) : sProp 𝕄 :=
  iprop(invs m K c ∗ posns c ∗ marks c ∗ payToks c ∗ waitCred c ∗ levAts Lset lv
    ∗ owes (c : Thread nD τ) (O₀ c) W
    ∗ sendPts fullShare c f0 ∗ slabPts0 c fc ∗ slabPts1 c fc ∗ slabPts2 c fc
    ∗ stgPts cc0_stg0_0 c (qB m c) ∗ stgPts cc0_stg1_0 c (kB m c) ∗ stgPts cc0_stg2_0 c (vB m c) ∗ stgPts cc0_stg3_0 c fo)

/-- What it ends with. -/
def BodyPost (c : Dev nD) : sProp 𝕄 :=
  iprop((∃ f, sendPts fullShare c f) ∗ (∃ f0 f1 f2, slabPts0 c f0 ∗ slabPts1 c f1 ∗ slabPts2 c f2)
    ∗ (semVal (e0C c) 0 ∗ semVal (e1C c) 0 ∗ semVal (s0C c) 0 ∗ semVal (s1C c) 0 ∗ semVal (s2C c) 0
        ∗ semVal (r0C c) 0 ∗ semVal (r1C c) 0 ∗ semVal (r2C c) 0)
    ∗ (∃ W', owes (c : Thread nD τ) 0 W')
    ∗ stgPts cc0_stg0_0 c (qB m c) ∗ stgPts cc0_stg1_0 c (kB m c) ∗ stgPts cc0_stg2_0 c (vB m c) ∗ stgPts cc0_stg3_0 c (outAt m c))

/-- The body, at a symbolic device. -/
def SoundBody : Prop :=
  ∀ (K : Dev nD × Fin 9 → ℕ) (c : Dev nD) (W : Waits sig Unit)
    (f0 : Buf (Elt F) ((sendM : Memref sig .tc .vmem S256x128 .bf16).view.loc (c : Thread nD τ)))
    (fc : Buf (Elt F) ((c : Thread nD τ).loc cc0_scratch1)) (fo : (cc0_stg3_0 : Ref sig .tc).ty.Contents (Elt F)),
    BodyPre m K c W f0 fc fo
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4) (fun _ => BodyPost m c)

end Cert.Kernel.Ring

end
-- ==== Proof.KRingSlabs.lean ====
/-
  A device's receive buffer as its three slabs.

  The buffer has shape [3, 256, 128]; slab `t` is the set of indices whose leading coordinate is `t`. The three slabs are
  pairwise disjoint and cover the buffer, so owning the whole buffer is owning the three slabs, at any contents.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingCells
import proofs.«900383_g7700000000000384_dist_ring_attn_i_s256_d64_v7x_i4_f32_1_alg».proof.Proof.KRingSched
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The three index sets -/

/-- An index is in the unit rectangle of leading offset `T` and full trailing extents exactly when its leading
    coordinate is `T`. -/
theorem mem_leading (T : ℕ) (inb : ∀ a, (![T, 0, 0] : Fin 3 → ℕ) a + S1x256x128.size a ≤ S3x256x128.size a)
    (i : S3x256x128.Idx) :
    i ∈ (Rect.unit (s := S3x256x128) ![T, 0, 0] S1x256x128.size inb).set ↔ (i 0).val = T := by
  rw [Rect.mem_set_unit]
  constructor
  · intro h
    have h0 : T ≤ (i 0).val ∧ (i 0).val < T + 1 := h 0
    omega
  · intro h a
    match a with
    | ⟨0, _⟩ => exact (show T ≤ (i 0).val ∧ (i 0).val < T + 1 by omega)
    | ⟨1, _⟩ =>
      have h1 : (i 1).val < 256 := (i 1).isLt
      exact (show 0 ≤ (i 1).val ∧ (i 1).val < 0 + 256 by omega)
    | ⟨2, _⟩ =>
      have h2 : (i 2).val < 128 := (i 2).isLt
      exact (show 0 ≤ (i 2).val ∧ (i 2).val < 0 + 128 by omega)

theorem slab0_set : (slab0 : Memref sig .tc .vmem S256x128 .bf16).view.set
    = (Rect.unit (s := S3x256x128) ![0, 0, 0] S1x256x128.size inb_S3x256x128_S1x256x128_0_0_0).set :=
  (View.set_reshape _ _).trans (View.set_slice_whole cc0_scratch1 _)
theorem slab1_set : (slab1 : Memref sig .tc .vmem S256x128 .bf16).view.set
    = (Rect.unit (s := S3x256x128) ![1, 0, 0] S1x256x128.size inb_S3x256x128_S1x256x128_1_0_0).set :=
  (View.set_reshape _ _).trans (View.set_slice_whole cc0_scratch1 _)
theorem slab2_set : (slab2 : Memref sig .tc .vmem S256x128 .bf16).view.set
    = (Rect.unit (s := S3x256x128) ![2, 0, 0] S1x256x128.size inb_S3x256x128_S1x256x128_2_0_0).set :=
  (View.set_reshape _ _).trans (View.set_slice_whole cc0_scratch1 _)

/-- Slab `t` is the indices of leading coordinate `t`. -/
theorem mem_slab0 (i : S3x256x128.Idx) :
    i ∈ (slab0 : Memref sig .tc .vmem S256x128 .bf16).view.set ↔ (i 0).val = 0 :=
  (Finset.ext_iff.mp slab0_set i).trans (mem_leading 0 _ i)
theorem mem_slab1 (i : S3x256x128.Idx) :
    i ∈ (slab1 : Memref sig .tc .vmem S256x128 .bf16).view.set ↔ (i 0).val = 1 :=
  (Finset.ext_iff.mp slab1_set i).trans (mem_leading 1 _ i)
theorem mem_slab2 (i : S3x256x128.Idx) :
    i ∈ (slab2 : Memref sig .tc .vmem S256x128 .bf16).view.set ↔ (i 0).val = 2 :=
  (Finset.ext_iff.mp slab2_set i).trans (mem_leading 2 _ i)

/-- Slab 1 lies outside slab 0. -/
theorem slab1_subset :
    (slab1 : Memref sig .tc .vmem S256x128 .bf16).view.set
      ⊆ Finset.univ \ (slab0 : Memref sig .tc .vmem S256x128 .bf16).view.set := fun i hi =>
  Finset.mem_sdiff.mpr ⟨Finset.mem_univ i, fun h0 => by
    have e0 := (mem_slab0 i).mp h0
    have e1 := (mem_slab1 i).mp hi
    omega⟩

/-- What is left of the buffer outside slabs 0 and 1 is slab 2. -/
theorem slabs_rest :
    (Finset.univ \ (slab0 : Memref sig .tc .vmem S256x128 .bf16).view.set)
        \ (slab1 : Memref sig .tc .vmem S256x128 .bf16).view.set
      = (slab2 : Memref sig .tc .vmem S256x128 .bf16).view.set := by
  ext i
  have hi : (i 0).val < 3 := (i 0).isLt
  constructor
  · intro h
    have h01 := Finset.mem_sdiff.mp h
    have h0 := (Finset.mem_sdiff.mp h01.1).2
    refine (mem_slab2 i).mpr ?_
    have n0 : (i 0).val ≠ 0 := fun e => h0 ((mem_slab0 i).mpr e)
    have n1 : (i 0).val ≠ 1 := fun e => h01.2 ((mem_slab1 i).mpr e)
    omega
  · intro h
    have e2 := (mem_slab2 i).mp h
    refine Finset.mem_sdiff.mpr ⟨Finset.mem_sdiff.mpr ⟨Finset.mem_univ i, fun h0 => ?_⟩, fun h1 => ?_⟩
    · have e0 := (mem_slab0 i).mp h0
      omega
    · have e1 := (mem_slab1 i).mp h1
      omega

theorem slab12_disjoint :
    Disjoint (slab1 : Memref sig .tc .vmem S256x128 .bf16).view.set (slab2 : Memref sig .tc .vmem S256x128 .bf16).view.set :=
  Finset.disjoint_left.mpr fun i h1 h2 => by
    have e1 := (mem_slab1 i).mp h1
    have e2 := (mem_slab2 i).mp h2
    omega

theorem slab0_disjoint :
    Disjoint (slab0 : Memref sig .tc .vmem S256x128 .bf16).view.set
      ((slab1 : Memref sig .tc .vmem S256x128 .bf16).view.set ∪ (slab2 : Memref sig .tc .vmem S256x128 .bf16).view.set) :=
  Finset.disjoint_left.mpr fun i h0 h12 => by
    have e0 := (mem_slab0 i).mp h0
    rcases Finset.mem_union.mp h12 with h | h
    · have e1 := (mem_slab1 i).mp h
      omega
    · have e2 := (mem_slab2 i).mp h
      omega

/-- The three slabs cover the buffer. -/
theorem slabs_cover :
    (slab0 : Memref sig .tc .vmem S256x128 .bf16).view.set
        ∪ ((slab1 : Memref sig .tc .vmem S256x128 .bf16).view.set ∪ (slab2 : Memref sig .tc .vmem S256x128 .bf16).view.set)
      = Finset.univ :=
  Finset.eq_univ_iff_forall.mpr fun i => by
    have hi : (i 0).val < 3 := (i 0).isLt
    rcases (by omega : (i 0).val = 0 ∨ (i 0).val = 1 ∨ (i 0).val = 2) with h | h | h
    · exact Finset.mem_union_left _ ((mem_slab0 i).mpr h)
    · exact Finset.mem_union_right _ (Finset.mem_union_left _ ((mem_slab1 i).mpr h))
    · exact Finset.mem_union_right _ (Finset.mem_union_right _ ((mem_slab2 i).mpr h))

/-! ## The buffer whole and in slabs -/

/-- The whole receive buffer, at contents `f`, is its three slabs at `f`. -/
theorem slabs_split (c : Dev nD) (f : Buf (Elt F) ((c : Thread nD τ).loc cc0_scratch1)) :
    ((((c : Thread nD τ).loc cc0_scratch1) ↦{fullShare} f : sProp 𝕄)) ⊢ iprop(slabPts0 c f ∗ slabPts1 c f ∗ slabPts2 c f) := by
  unfold slabPts0 slabPts1 slabPts2
  have h1 := (Region.is_split_subset (ι := (memEmb : UEmb _ 𝕄).toEmb) (k := (c : Thread nD τ).loc cc0_scratch1)
    (q := fullShare) (f := f) (Finset.subset_univ (slab0 : Memref sig .tc .vmem S256x128 .bf16).view.set)).1
  have h2 := (Region.is_split_subset (ι := (memEmb : UEmb _ 𝕄).toEmb) (k := (c : Thread nD τ).loc cc0_scratch1)
    (q := fullShare) (f := f) slab1_subset).1
  rw [slabs_rest] at h2
  exact h1.trans (sep_mono_right h2)

/-- The three slabs of a device's receive buffer, at any contents, are the whole buffer at some contents. -/
theorem slabs_join (c : Dev nD) (f0 f1 f2 : Buf (Elt F) ((c : Thread nD τ).loc cc0_scratch1)) :
    iprop(slabPts0 c f0 ∗ slabPts1 c f1 ∗ slabPts2 c f2)
      ⊢ (iprop(∃ f : Buf (Elt F) ((c : Thread nD τ).loc cc0_scratch1), (((c : Thread nD τ).loc cc0_scratch1) ↦{fullShare} f)) : sProp 𝕄) := by
  unfold slabPts0 slabPts1 slabPts2
  have j1 := Region.is_join (ι := (memEmb : UEmb _ 𝕄).toEmb) (k := (c : Thread nD τ).loc cc0_scratch1)
    (q := fullShare) (f := f1) (g := f2) slab12_disjoint
  have j2 := Region.is_join (ι := (memEmb : UEmb _ 𝕄).toEmb) (k := (c : Thread nD τ).loc cc0_scratch1)
    (q := fullShare) (f := f0)
    (g := ((slab2 : Memref sig .tc .vmem S256x128 .bf16).view.set).piecewise f2 f1) slab0_disjoint
  rw [slabs_cover] at j2
  exact (sep_mono_right j1).trans (j2.trans (exists_intro _))

end Cert.Kernel.Ring

end
-- ==== Proof.KRingGlob.lean ====
/-
  The launch's global step: from every device's semaphores at zero and the launch element, every cell's invariant is
  allocated, and each device is handed the ghost state its body starts from.

  The launch element splits into each cell's round state, position, reached mark and duty token. A device keeps its own
  positions; the reached marks and the invariants are persistent and shared; the tokens travel: a device pays the entry
  cell 0 of its left neighbour, the entry cell 1 of its right neighbour, the barrier cell of the opposite device, its own
  three send cells, and the receive cells 0, 1, 2 of its right, left and opposite devices.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingGhost
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A product over nine cells, spelled out. -/
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The launch element, split per device. -/
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own eight semaphores: the two entry cells, the three send cells, the three receive cells; -/
theorem ownSems0_eq (c : Dev nD) :
    (Pipeline.ownSems0 (Ix := Unit) (Name := ℕ) (U := UU) (Lvl := ℕ) (Val := Elt F) (τ := τ) osem c : sProp 𝕄)
      = iprop(semVal (e0C c) 0 ∗ semVal (e1C c) 0 ∗ semVal (s0C c) 0 ∗ semVal (s1C c) 0 ∗ semVal (s2C c) 0
          ∗ semVal (r0C c) 0 ∗ semVal (r1C c) 0 ∗ semVal (r2C c) 0) := by
  rw [Pipeline.ownSems0_eq_of_list c osem [0, 1, 2, 3, 4, 5, 6, 7] (by decide) (by decide)]; rfl

/-- the barrier semaphore is the one unscoped semaphore. -/
theorem unscopedSems0_eq (c : Dev nD) : (unscopedSems0 c : sProp 𝕄) = semVal (bC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H0, H1, H3, H4, H5, H6, H7, H8⟩, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- One device's nine invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, under the names `K`, and every cell's reached mark. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(posns c ∗ payToks c)

theorem ghost_intro (K : Dev nD × Fin 9 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (lft c, 0)); iexact HI
    isplitr; · iapply (inv_at m K (rgt c, 1)); iexact HI
    isplitr; · iapply (inv_at m K (opp c, 2)); iexact HI
    isplitr; · iapply (inv_at m K (rgt c, 6)); iexact HI
    isplitr; · iapply (inv_at m K (lft c, 7)); iexact HI
    iapply (inv_at m K (opp c, 8)); iexact HI
  isplitl [Hpos]; · iexact Hpos
  isplitr
  · isplitr; · iapply (reached_at (F := F) (lft c, 0)); iexact HR
    isplitr; · iapply (reached_at (F := F) (rgt c, 1)); iexact HR
    isplitr; · iapply (reached_at (F := F) (opp c, 2)); iexact HR
    isplitr; · iapply (reached_at (F := F) (rgt c, 6)); iexact HR
    isplitr; · iapply (reached_at (F := F) (lft c, 7)); iexact HR
    isplitr; · iapply (reached_at (F := F) (opp c, 8)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    iapply (reached_at (F := F) (c, 8)); iexact HR
  iexact Htok

/-- A device's own nine tokens, spelled out. -/
theorem toks_eq (c : Dev nD) :
    (toks c : sProp 𝕄) = iprop(dutyTok ER (e0C c) 0 () ∗ dutyTok ER (e1C c) 0 () ∗ dutyTok ER (bC c) 0 ()
      ∗ dutyTok ER (s0C c) 0 () ∗ dutyTok ER (s1C c) 0 () ∗ dutyTok ER (s2C c) 0 ()
      ∗ dutyTok ER (r0C c) 0 () ∗ dutyTok ER (r1C c) 0 () ∗ dutyTok ER (r2C c) 0 ()) := by
  unfold toks; rw [bigSep_fin9]

/-- The tokens dealt around the ring: an entry-0 token and a receive-1 token to the device on the right of the cell's,
    an entry-1 token and a receive-0 token to the device on its left, a barrier token and a receive-2 token to the
    device opposite; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv ringR.symm (fun c : Dev nD => (dutyTok ER (e0C c) 0 () : sProp 𝕄)),
    bigSep_univ_equiv ringR (fun c : Dev nD => (dutyTok ER (e1C c) 0 () : sProp 𝕄)),
    bigSep_univ_equiv ringO (fun c : Dev nD => (dutyTok ER (bC c) 0 () : sProp 𝕄)),
    bigSep_univ_equiv ringR (fun c : Dev nD => (dutyTok ER (r0C c) 0 () : sProp 𝕄)),
    bigSep_univ_equiv ringR.symm (fun c : Dev nD => (dutyTok ER (r1C c) 0 () : sProp 𝕄)),
    bigSep_univ_equiv ringO (fun c : Dev nD => (dutyTok ER (r2C c) 0 () : sProp 𝕄))]
  iintro ⟨H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Ring

end
-- ==== Proof.KRingCredit.lean ====
/-
  The launch credit. At launch every device d owes one unit to entry cell 0 of its left neighbour, to entry cell 1 of its
  right neighbour and to the barrier cell of the device opposite, and one slab's credit to receive cell 0 of its right
  neighbour, receive cell 1 of its left neighbour and receive cell 2 of the device opposite. Going round the ring, each
  of these six cells of a device c is therefore owed by exactly one device — the one whose neighbour in that direction c
  is — and the dues of the four devices sum, at each of the six cells, to exactly one round's amount: one unit at the
  entry and barrier cells, one slab's credit at the receive cells. The launch deals c the matching credit tokens.
-/
import proofs.«900383_g7700000000000384_dist_ring_attn_i_s256_d64_v7x_i4_f32_1_alg».proof.Proof.KRingSched
import Idealize.ShloMosaic.Lib.Pipeline.Launch
import Idealize.ShloMosaic.Lib.Pipeline.Kit

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Round the ring: who is whose neighbour -/

theorem lft_eq_iff (d c : Dev nD) : lft d = c ↔ d = rgt c :=
  ⟨fun h => by rw [← h, rgt_lft], fun h => by rw [h, lft_rgt]⟩
theorem rgt_eq_iff (d c : Dev nD) : rgt d = c ↔ d = lft c :=
  ⟨fun h => by rw [← h, lft_rgt], fun h => by rw [h, rgt_lft]⟩
theorem opp_eq_iff (d c : Dev nD) : opp d = c ↔ d = opp c :=
  ⟨fun h => by rw [← h, opp_opp], fun h => by rw [h, opp_opp]⟩

/-- Two of the nine cells, of two devices, are the same cell exactly when the devices and the two kinds are. -/
theorem kcell_eq_iff (a c : Dev nD) (i j : Fin 9) : kcell (c, j) = kcell (a, i) ↔ a = c ∧ i = j := by
  constructor
  · intro h
    exact ⟨(Fin.ext (congrArg (fun g : GSem nD τ sig => g.1.1.val) h)).symm,
      (csem_inj (congrArg Prod.snd h : csem j = csem i)).symm⟩
  · rintro ⟨rfl, rfl⟩; rfl

/-- A due of k to cell i of device a, read at cell j of device c: k there, nothing elsewhere. -/
theorem tally_kcell (a c : Dev nD) (i j : Fin 9) (k : ℕ) :
    (tallyAt (kcell (a, i)) () k : CellTallies nD τ sig Unit) (kcell (c, j)) () = if a = c ∧ i = j then k else 0 := by
  rw [tallyAt_apply]
  exact if_congr ⟨fun h => (kcell_eq_iff a c i j).mp h.1, fun h => ⟨(kcell_eq_iff a c i j).mpr h, rfl⟩⟩ rfl rfl

/-! ## What one device owes one cell -/

/-- What device d owes cell j of device c: its six dues, each read at that cell. -/
theorem owed (d c : Dev nD) (j : Fin 9) :
    O₀ d (kcell (c, j)) () =
      (if opp d = c ∧ (8 : Fin 9) = j then N else 0) + (if lft d = c ∧ (7 : Fin 9) = j then N else 0)
        + (if rgt d = c ∧ (6 : Fin 9) = j then N else 0) + (if opp d = c ∧ (2 : Fin 9) = j then 1 else 0)
        + (if rgt d = c ∧ (1 : Fin 9) = j then 1 else 0) + (if lft d = c ∧ (0 : Fin 9) = j then 1 else 0) := by
  have e : O₀ d = (tallyAt (kcell (opp d, 8)) () N + tallyAt (kcell (lft d, 7)) () N + tallyAt (kcell (rgt d, 6)) () N
      + tallyAt (kcell (opp d, 2)) () 1 + tallyAt (kcell (rgt d, 1)) () 1 + tallyAt (kcell (lft d, 0)) () 1 :
      CellTallies nD τ sig Unit) := rfl
  rw [e]
  simp only [Pi.add_apply, Finsupp.add_apply, tally_kcell]

theorem owed_e0 (d c : Dev nD) : O₀ d (e0C c) () = if lft d = c then 1 else 0 :=
  (owed d c 0).trans (by simp only [Fin.reduceEq, and_false, and_true, ↓reduceIte, Nat.zero_add, Nat.add_zero])
theorem owed_e1 (d c : Dev nD) : O₀ d (e1C c) () = if rgt d = c then 1 else 0 :=
  (owed d c 1).trans (by simp only [Fin.reduceEq, and_false, and_true, ↓reduceIte, Nat.zero_add, Nat.add_zero])
theorem owed_b (d c : Dev nD) : O₀ d (bC c) () = if opp d = c then 1 else 0 :=
  (owed d c 2).trans (by simp only [Fin.reduceEq, and_false, and_true, ↓reduceIte, Nat.zero_add, Nat.add_zero])
theorem owed_r0 (d c : Dev nD) : O₀ d (r0C c) () = if rgt d = c then N else 0 :=
  (owed d c 6).trans (by simp only [Fin.reduceEq, and_false, and_true, ↓reduceIte, Nat.zero_add, Nat.add_zero])
theorem owed_r1 (d c : Dev nD) : O₀ d (r1C c) () = if lft d = c then N else 0 :=
  (owed d c 7).trans (by simp only [Fin.reduceEq, and_false, and_true, ↓reduceIte, Nat.zero_add, Nat.add_zero])
theorem owed_r2 (d c : Dev nD) : O₀ d (r2C c) () = if opp d = c then N else 0 :=
  (owed d c 8).trans (by simp only [Fin.reduceEq, and_false, and_true, ↓reduceIte, Nat.zero_add, Nat.add_zero])

/-! ## What the four devices together owe a cell -/

/-- When exactly one device (g c) has c as its f-neighbour, dues of n from each device to its f-neighbour sum, at c, to n. -/
theorem sum_pay (f g : Dev nD → Dev nD) (hfg : ∀ d c, f d = c ↔ d = g c) (c : Dev nD) (n : ℕ) :
    ∑ d : Dev nD, (if f d = c then n else 0) = n := by
  simp only [hfg]
  rw [Finset.sum_ite_eq' Finset.univ (g c) (fun _ => n), if_pos (Finset.mem_univ _)]

/-- A cell that the devices together owe n is dealt, at launch, exactly the credit for n. -/
theorem launch_of_sum (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_e0 (c : Dev nD) :
    tallyOn (e0C c) (launchCredit (Pipeline.owing O₀) 0 (e0C c)) = (tallyAt (e0C c) () 1 : CellTallies nD τ sig Unit) :=
  launch_of_sum _ 1 ((Finset.sum_congr rfl fun d _ => owed_e0 d c).trans (sum_pay lft rgt lft_eq_iff c 1))
theorem launch_e1 (c : Dev nD) :
    tallyOn (e1C c) (launchCredit (Pipeline.owing O₀) 0 (e1C c)) = (tallyAt (e1C c) () 1 : CellTallies nD τ sig Unit) :=
  launch_of_sum _ 1 ((Finset.sum_congr rfl fun d _ => owed_e1 d c).trans (sum_pay rgt lft rgt_eq_iff c 1))
theorem launch_b (c : Dev nD) :
    tallyOn (bC c) (launchCredit (Pipeline.owing O₀) 0 (bC c)) = (tallyAt (bC c) () 1 : CellTallies nD τ sig Unit) :=
  launch_of_sum _ 1 ((Finset.sum_congr rfl fun d _ => owed_b d c).trans (sum_pay opp opp opp_eq_iff c 1))
theorem launch_r0 (c : Dev nD) :
    tallyOn (r0C c) (launchCredit (Pipeline.owing O₀) 0 (r0C c)) = (tallyAt (r0C c) () N : CellTallies nD τ sig Unit) :=
  launch_of_sum _ N ((Finset.sum_congr rfl fun d _ => owed_r0 d c).trans (sum_pay rgt lft rgt_eq_iff c N))
theorem launch_r1 (c : Dev nD) :
    tallyOn (r1C c) (launchCredit (Pipeline.owing O₀) 0 (r1C c)) = (tallyAt (r1C c) () N : CellTallies nD τ sig Unit) :=
  launch_of_sum _ N ((Finset.sum_congr rfl fun d _ => owed_r1 d c).trans (sum_pay lft rgt lft_eq_iff c N))
theorem launch_r2 (c : Dev nD) :
    tallyOn (r2C c) (launchCredit (Pipeline.owing O₀) 0 (r2C c)) = (tallyAt (r2C c) () N : CellTallies nD τ sig Unit) :=
  launch_of_sum _ N ((Finset.sum_congr rfl fun d _ => owed_r2 d c).trans (sum_pay opp opp opp_eq_iff c N))

/-! ## The credit a device is dealt -/

/-- Of the credit tokens the launch deals device c, those on its entry, barrier and receive cells: one round's amount each. -/
theorem creds (c : Dev nD) :
    (Pipeline.launchCred O₀ c : sProp 𝕄) ⊢ iprop(cred (tallyAt (e0C c) () 1) ∗ cred (tallyAt (e1C c) () 1) ∗ cred (tallyAt (bC c) () 1)
      ∗ cred (tallyAt (r0C c) () N) ∗ cred (tallyAt (r1C c) () N) ∗ cred (tallyAt (r2C c) () N)) := by
  unfold Pipeline.launchCred
  refine (bigSep_subset (Finset.subset_univ ({SemLoc.reg eS0, SemLoc.reg eS1, SemLoc.reg barS, SemLoc.dma rS0, SemLoc.dma rS1,
    SemLoc.dma rS2} : Finset (SemLoc sig)))).trans ?_
  rw [bigSep_insert (by decide), bigSep_insert (by decide), bigSep_insert (by decide), bigSep_insert (by decide),
    bigSep_insert (by decide), bigSep_singleton]
  rw [launch_e0, launch_e1, launch_b, launch_r0, launch_r1, launch_r2]
  exact .refl _

end Cert.Kernel.Ring

end
-- ==== Proof.KRingLaunch.lean ====
/-
  The launch: the side conditions of the launch theorem, and the run.

  A staging semaphore is none of the ring's nine cells and sits at level 0, below every cell a device owes at launch
  (three signal cells at level 1, three receive cells at level 2), so the pipeline may wait on it. The launch credit and
  the global step's ghost state make what a device's body starts from; the two scratch buffers enter and leave the
  point whole. Granted the body obligation, every run ends with each device's result array at the device's result
  and the three argument arrays as launched.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingData
import proofs.«900383_g7700000000000384_dist_ring_attn_i_s256_d64_v7x_i4_f32_1_alg».proof.Proof.KRingGlob
import proofs.«900383_g7700000000000384_dist_ring_attn_i_s256_d64_v7x_i4_f32_1_alg».proof.Proof.KRingCredit
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The levels of what a device owes -/

/-- A cell a device owes at launch is one of six: three receive cells and three signal cells of its peers. -/
theorem O₀_pos {c : Dev nD} {g : GSem nD τ sig} {u : Unit} (h : 0 < O₀ c g u) :
    g = r2C (opp c) ∨ g = r1C (lft c) ∨ g = r0C (rgt c) ∨ g = bC (opp c) ∨ g = e1C (rgt c) ∨ g = e0C (lft c) := by
  unfold O₀ O₃ at h
  rw [Pi.add_apply, Finsupp.add_apply, Pi.add_apply, Finsupp.add_apply, Pi.add_apply, Finsupp.add_apply,
    Pi.add_apply, Finsupp.add_apply, Pi.add_apply, Finsupp.add_apply,
    tallyAt_apply, tallyAt_apply, tallyAt_apply, tallyAt_apply, tallyAt_apply, tallyAt_apply] at h
  by_contra hn
  rw [not_or, not_or, not_or, not_or, not_or] at hn
  rw [if_neg (fun h' => hn.1 h'.1), if_neg (fun h' => hn.2.1 h'.1), if_neg (fun h' => hn.2.2.1 h'.1),
    if_neg (fun h' => hn.2.2.2.1 h'.1), if_neg (fun h' => hn.2.2.2.2.1 h'.1), if_neg (fun h' => hn.2.2.2.2.2 h'.1)] at h
  exact Nat.lt_irrefl 0 h

/-- A staging semaphore may be waited on whatever the device still owes: it sits at level 0, what is owed above. -/
theorem mayWait_stage (c : Dev nD) (q : DmaSem sig) (hq : ∀ k : Fin 9, (SemLoc.dma q : SemLoc sig) ≠ csem k)
    (O : CellTallies nD τ sig Unit) (hO : O = O₀ c ∨ O = 0) :
    (levAts Lset lv : sProp 𝕄) ⊢ MayWait (c : Thread nD τ) (.dma q) () O := by
  rcases hO with rfl | rfl
  · refine MayOwe.of_cut (L := Lset) (lev := lv) 0
      (fun p hp => by rw [Finset.mem_singleton.mp hp, Lset_tc]; exact Finset.mem_singleton_self _)
      (fun g u hg => by
        rcases O₀_pos hg with rfl | rfl | rfl | rfl | rfl | rfl <;> (rw [Lset_tc]; exact Finset.mem_singleton_self _))
      (fun p hp => by rw [Finset.mem_singleton.mp hp]; exact Nat.le_of_eq (lv_other _ _ hq))
      (fun g u hg => by
        rcases O₀_pos hg with rfl | rfl | rfl | rfl | rfl | rfl
        · rw [show lv (r2C (opp c)) u = lvk 8 from lv_kcell (opp c) 8 u]; decide
        · rw [show lv (r1C (lft c)) u = lvk 7 from lv_kcell (lft c) 7 u]; decide
        · rw [show lv (r0C (rgt c)) u = lvk 6 from lv_kcell (rgt c) 6 u]; decide
        · rw [show lv (bC (opp c)) u = lvk 2 from lv_kcell (opp c) 2 u]; decide
        · rw [show lv (e1C (rgt c)) u = lvk 1 from lv_kcell (rgt c) 1 u]; decide
        · rw [show lv (e0C (lft c)) u = lvk 0 from lv_kcell (lft c) 0 u]; decide)
  · rw [MayWait_zero]; iintro -; iempintro

/-! ### The theorem's side conditions -/

theorem share_eq (c : Dev nD) (w : Fin cfg0.W) : (dats m ρ 0 c).share w = fullShare := by unfold Dat.share; split <;> rfl

theorem send_set : (sendM : Memref sig .tc .vmem S256x128 .bf16).view.set = Finset.univ := View.set_whole _
/-- The packed buffer at a share is the whole first scratch buffer at that share. -/
theorem sendPts_eq (q : PosShare TreeShare) (c : Dev nD) (f : Buf (Elt F) ((c : Thread nD τ).loc cc0_scratch0)) :
    sendPts q c f = (((c : Thread nD τ).loc cc0_scratch0) ↦{q} f : sProp 𝕄) := by unfold sendPts; rw [send_set]

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' waitCred
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f0, H0⟩, H1⟩
  isplitl [Hs]; · iexact Hs
  isplitl [H0]
  · iexists f0; rw [sendPts_eq]; iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f0, H0⟩, H1, Hsems⟩
  isplitr; · iempintro
  isplitl [Hsems]; · iexact Hsems
  isplitl [H0]
  · iexists f0; rw [← sendPts_eq]; iexact H0
  iexact H1

theorem waits (c : Dev nD) : (levAts Lset lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, granted the body
    obligation: every weakly fair execution of @main terminates, and every final state has each device's four window
    arrays at the pipeline's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lset) (lv := lv) (hL := Lset_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- An argument array after the run holds what it held. -/
theorem finalA_in0 (c : Dev nD) : finalA m ρ c (0 : Fin 4) = m ((c : Thread nD τ).loc main_arg0) :=
  (dats (F := F) m ρ 0 c).arrAt_in (0 : Fin 4) rfl _
theorem finalA_in1 (c : Dev nD) : finalA m ρ c (1 : Fin 4) = m ((c : Thread nD τ).loc main_arg1) :=
  (dats (F := F) m ρ 0 c).arrAt_in (1 : Fin 4) rfl _
theorem finalA_in2 (c : Dev nD) : finalA m ρ c (2 : Fin 4) = m ((c : Thread nD τ).loc main_arg2) :=
  (dats (F := F) m ρ 0 c).arrAt_in (2 : Fin 4) rfl _

/-- The result array after the run holds the device's result: the one point writes the whole block back. -/
theorem finalA_out (c : Dev nD) : finalA m ρ c (3 : Fin 4) = outAt m c := by
  have h := (dats (F := F) m ρ 0 c).arrAt_succ (3 : Fin 4) t₀
  rw [flush0_3 t₀, if_pos rfl] at h
  refine (congrArg ((dats (F := F) m ρ 0 c).arrAt (3 : Fin 4)) (cfg0_N.trans (rfl : 1 = t₀.val + 1))).trans (h.trans ?_)
  exact Memref.write_access_unit_zero_univ (Elt F) main_v1 (funext fun a => Nat.zero_mul _) _ _ _

/-- THE RUN, at the strongest post: each device's result array at its result, the three argument arrays unchanged. -/
theorem run_strong (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
        r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c (3 : Fin 4)).trans (finalA_out m ρ c), (h c (0 : Fin 4)).trans (finalA_in0 m ρ c),
      (h c (1 : Fin 4)).trans (finalA_in1 m ρ c), (h c (2 : Fin 4)).trans (finalA_in2 m ρ c)⟩) (run_main m ρ hbody)

end Cert.Kernel.Ring

end
-- ==== Proof.KRingOblig.lean ====
/-
  From the body's statement at a symbolic device to the pipeline's body obligation, and the run.

  The obligation hands the body the invariant before the point, what the device owes, and the four staging buffers: the
  three inputs at the fetched blocks, the result's at anything. The invariant is the ghost state with the two scratch
  buffers; the receive buffer is split into its three slabs. The body's post gives back the invariant after the point
  (the receive buffer joined from its slabs), nothing owed, and the staging buffers at the blocks and the result.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingBodySpec
import proofs.«900383_g7700000000000384_dist_ring_attn_i_s256_d64_v7x_i4_f32_1_alg».proof.Proof.KRingSlabs
import proofs.«900383_g7700000000000384_dist_ring_attn_i_s256_d64_v7x_i4_f32_1_alg».proof.Proof.KRingLaunch
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole staging memref owned at the full share and read as `X` is its buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem stg_set (b : Ref sig .tc) : (Memref.whole b : Memref sig .tc b.space b.ty.shape b.ty.elt).view.set = Finset.univ :=
  View.set_whole _
/-- A whole staging buffer at contents `f`, as a points-to of the whole buffer. -/
theorem stgPts_eq (b : Ref sig .tc) (c : Dev nD) (f : Buf (Elt F) ((c : Thread nD τ).loc b)) :
    stgPts b c f = (((c : Thread nD τ).loc b) ↦{fullShare} f : sProp 𝕄) := by unfold stgPts; rw [stg_set]

/-- What the obligation hands the body at the one point. -/
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- The body's post is the obligation's. -/
theorem post_intro (c : Dev nD) : BodyPost m c ⊢ bodyPost m ρ c := by
  unfold BodyPost bodyPost Φ₁ Dat.owesAt Pipeline.owesWithin
  rw [show (dats m ρ 0 c).owed t₀.succ = 0 from rfl]
  iintro ⟨Hsend, ⟨%f0, %f1, %f2, Hsl⟩, Hsems, ⟨%W', HO⟩, H0, H1, H2, H3⟩
  isplitl [Hsend Hsl Hsems]
  · isplitl [Hsend]; · iexact Hsend
    isplitl [Hsl]
    · iapply (slabs_join (F := F) c f0 f1 f2); iexact Hsl
    iexact Hsems
  isplitl [HO]
  · iexists W'
    isplitr; · ipureintro; exact fun _ _ => Or.inl trivial
    iexact HO
  isplitl [H0]
  · iexists _; isplitr; · (ipureintro; rfl)
    rw [← stgPts_eq]; iexact H0
  isplitl [H1]
  · iexists _; isplitr; · (ipureintro; rfl)
    rw [← stgPts_eq]; iexact H1
  isplitl [H2]
  · iexists _; isplitr; · (ipureintro; rfl)
    rw [← stgPts_eq]; iexact H2
  iexists _; isplitr; · (ipureintro; rfl)
  rw [← stgPts_eq]; iexact H3

set_option maxRecDepth 4000 in
/-- The library's body obligation on device `c`, from the body's statement. -/
theorem body_obligation (hs : SoundBody (F := F) m) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3 cc0_scratch4) (fun _ => bodyPost m ρ c)
  unfold bodyPre' Φ₀ start
  iintro ⟨⟨⟨⟨%K, Hg⟩, Hcred, Hlev⟩, ⟨%f0, Hsend⟩, ⟨%fc, Hcomm⟩⟩, Ho, ⟨%d0, %g0, %hg0, H0⟩, ⟨%d1, %g1, %hg1, H1⟩,
    ⟨%d2, %g2, %hg2, H2⟩, ⟨%d3, %g3, %hg3, H3⟩⟩
  have hx0 : g0 = qB m c := by rw [hg0]; unfold Dat.before; rw [if_pos (fetch0_0 t₀)]; rfl
  have hx1 : g1 = kB m c := by rw [hg1]; unfold Dat.before; rw [if_pos (fetch0_1 t₀)]; rfl
  have hx2 : g2 = vB m c := by rw [hg2]; unfold Dat.before; rw [if_pos (fetch0_2 t₀)]; rfl
  subst hx0 hx1 hx2
  unfold Dat.owesAt Pipeline.owesWithin
  icases Ho with ⟨%W, %hW, HO⟩
  rw [show (dats m ρ 0 c).owed t₀.castSucc = O₀ c from rfl]
  iapply (wp_mono frame (wpE (defs₀ (F := F)) 𝒱₀ c none) Set.univ (Q := fun _ => BodyPost m c) fun _ => post_intro m ρ c)
  iapply (hs K c W f0 fc g3)
  unfold BodyPre ghost
  icases Hg with ⟨Hinv, Hpos, Hmark, Htok⟩
  ihave Hsl := (slabs_split (F := F) c fc) $$ Hcomm
  icases Hsl with ⟨Hs0, Hs1, Hs2⟩
  isplitl [Hinv]; · iexact Hinv
  isplitl [Hpos]; · iexact Hpos
  isplitl [Hmark]; · iexact Hmark
  isplitl [Htok]; · iexact Htok
  isplitl [Hcred]; · iexact Hcred
  isplitl [Hlev]; · iexact Hlev
  isplitl [HO]; · iexact HO
  isplitl [Hsend]; · iexact Hsend
  isplitl [Hs0]; · iexact Hs0
  isplitl [Hs1]; · iexact Hs1
  isplitl [Hs2]; · iexact Hs2
  isplitl [H0]; · rw [stgPts_eq]; iexact H0
  isplitl [H1]; · rw [stgPts_eq]; iexact H1
  isplitl [H2]; · rw [stgPts_eq]; iexact H2
  rw [stgPts_eq]; iexact H3

/-- THE RUN from the body's statement. -/
theorem run_strong' (hs : SoundBody (F := F) m) :
    θ_run defs (onTc (τ := τ) (main (F := F))) ⟨m, fun _ => 0, ρ⟩ (fun r => ∀ c : Dev nD,
        r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_strong m ρ (fun c => body_obligation m ρ hs c)

end Cert.Kernel.Ring

end
-- ==== Proof.RingPacked.lean ====
/-
  The value step of a landing. A device packs its narrowed keys into columns 0–63 and its narrowed values into columns
  64–127 of its [256, 128] buffer, by two stores over whatever the buffer held; the whole buffer is copied into slab t of
  another device's [3, 256, 128] receive buffer, over whatever that held; then the two [1, 256, 64] rectangles of slab t
  that the receiver loads — columns 0–63 and columns 64–127 — read back the sender's packed keys and values.

  Index by index: the element (0, p, o + e) of slab t is the element (p, o + e) of the copied buffer (the slab, squeezed,
  has the same row-major order); for o = 0 the second store left it alone and the first wrote the key (p, e) there; for
  o = 64 the second store wrote the value (p, e) there; and the [256, 64] vector seen as [1, 256, 64] has at (0, p, e) its
  element (p, e).
-/
import proofs.«900383_g7700000000000384_dist_ring_attn_i_s256_d64_v7x_i4_f32_1_alg».proof.Proof.RingSched
import Idealize.ShloMosaic.Lib.Pipeline.Value
import Idealize.ShloMosaic.Lib.ValueIdx

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two store rectangles of the packed buffer: columns 0–63 and columns 64–127, all 256 rows. -/
abbrev rA : Rect S256x128 := Rect.unit (s := S256x128) ![0, 0] S256x64.size inb_S256x128_S256x64_0_0
abbrev rB : Rect S256x128 := Rect.unit (s := S256x128) ![0, 64] S256x64.size inb_S256x128_S256x64_0_64

/-! ## The packed buffer, read at an index -/

section Packed
variable {Val : EltTy → Type}

/-- After the two stores, column e < 64 of row p holds what the first store wrote at (p, e): the second store's
    columns start at 64. -/
theorem read_packed_lo (f0 : (sendM : Memref sig .tc .vmem S256x128 .bf16).view.ty.Contents Val) (wA wB : S256x64.Idx → Val .bf16)
    (p : Fin 256) (e : Fin 64) (he : 0 + e.val < 128) :
    (sendM : Memref sig .tc .vmem S256x128 .bf16).view.read Val
        (((sendM : Memref sig .tc .vmem S256x128 .bf16).access rB : View sig .tc _ _ _).write Val
          (((sendM : Memref sig .tc .vmem S256x128 .bf16).access rA : View sig .tc _ _ _).write Val f0 wA Finset.univ) wB Finset.univ)
        (ValueIdx.ix2 p (⟨0 + e.val, he⟩ : Fin 128))
      = wA (ValueIdx.ix2 p e) := by
  have hx : (ValueIdx.ix2 p (⟨0 + e.val, he⟩ : Fin 128) : S256x128.Idx) = rA.emb (ValueIdx.ix2 p e) := by
    funext a
    match a with
    | ⟨0, _⟩ => exact Fin.ext (show p.val = 0 + 1 * p.val by omega)
    | ⟨1, _⟩ => exact Fin.ext (show 0 + e.val = 0 + 1 * e.val by omega)
  have hno : rA.emb (ValueIdx.ix2 p e) ∉ (Finset.univ : Finset rB.shape.Idx).map rB.emb := by
    intro hm
    obtain ⟨j, -, hj⟩ := Finset.mem_map.mp hm
    have h1 := congrArg (fun i : S256x128.Idx => (i ⟨1, by decide⟩).val) hj
    change 64 + 1 * (j ⟨1, by decide⟩).val = 0 + 1 * e.val at h1
    have := e.isLt
    omega
  rw [hx, View.read_slice_write_of_not_mem rB _ wB Finset.univ hno]
  exact View.read_slice_write_emb rA f0 wA (Finset.mem_univ _)

/-- After the two stores, column 64 + e of row p holds what the second store wrote at (p, e). -/
theorem read_packed_hi (f1 : (sendM : Memref sig .tc .vmem S256x128 .bf16).view.ty.Contents Val) (wB : S256x64.Idx → Val .bf16)
    (p : Fin 256) (e : Fin 64) (he : 64 + e.val < 128) :
    (sendM : Memref sig .tc .vmem S256x128 .bf16).view.read Val
        (((sendM : Memref sig .tc .vmem S256x128 .bf16).access rB : View sig .tc _ _ _).write Val f1 wB Finset.univ)
        (ValueIdx.ix2 p (⟨64 + e.val, he⟩ : Fin 128))
      = wB (ValueIdx.ix2 p e) := by
  have hx : (ValueIdx.ix2 p (⟨64 + e.val, he⟩ : Fin 128) : S256x128.Idx) = rB.emb (ValueIdx.ix2 p e) := by
    funext a
    match a with
    | ⟨0, _⟩ => exact Fin.ext (show p.val = 0 + 1 * p.val by omega)
    | ⟨1, _⟩ => exact Fin.ext (show 64 + e.val = 64 + 1 * e.val by omega)
  rw [hx]
  exact View.read_slice_write_emb rB f1 wB (Finset.mem_univ _)

/-- A [256, 128] vector P copied into slab t of the receive buffer, then read through the [1, 256, 64] rectangle of that
    slab whose columns start at o: at (x0, x1, x2) it is P at (x1, o + x2). The slab squeezed to [256, 128] lists its
    elements in the same row-major order as the slab itself, so writing P through it puts P (x1, y) at (t, x1, y). -/
theorem read_landed (t : ℕ) (inbR : ∀ a, (![t, 0, 0] : Fin 3 → ℕ) a + S1x256x128.size a ≤ S3x256x128.size a)
    (o : ℕ) (inbL : ∀ a, (![t, 0, o] : Fin 3 → ℕ) a + S1x256x64.size a ≤ S3x256x128.size a)
    (fd : (commM : Memref sig .tc .vmem S3x256x128 .bf16).view.ty.Contents Val) (P : S256x128.Idx → Val .bf16)
    (x0 : Fin 1) (x1 : Fin 256) (x2 : Fin 64) (ho : o + x2.val < 128) :
    (commM : Memref sig .tc .vmem S3x256x128 .bf16).view.readAt Val (Rect.unit (s := S3x256x128) ![t, 0, o] S1x256x64.size inbL).toLoadRect
        ((((commM : Memref sig .tc .vmem S3x256x128 .bf16).slice (Rect.unit (s := S3x256x128) ![t, 0, 0] S1x256x128.size inbR) (fun _ => rfl)).squeeze S256x128 squeezes_S1x256x128_S256x128).view.write Val fd P Finset.univ)
        (ValueIdx.ix3 x0 x1 x2)
      = P (ValueIdx.ix2 x1 (⟨o + x2.val, ho⟩ : Fin 128)) := by
  have hc : S1x256x128.ShapeCasts S256x128 := squeezes_S1x256x128_S256x128.numel_eq
  -- the slab, read back whole, is P
  have h1 : (((commM : Memref sig .tc .vmem S3x256x128 .bf16).slice (Rect.unit (s := S3x256x128) ![t, 0, 0] S1x256x128.size inbR) (fun _ => rfl)).squeeze S256x128 squeezes_S1x256x128_S256x128).view.read Val ((((commM : Memref sig .tc .vmem S3x256x128 .bf16).slice (Rect.unit (s := S3x256x128) ![t, 0, 0] S1x256x128.size inbR) (fun _ => rfl)).squeeze S256x128 squeezes_S1x256x128_S256x128).view.write Val fd P Finset.univ) = P :=
    View.read_write_univ (v := (((commM : Memref sig .tc .vmem S3x256x128 .bf16).slice (Rect.unit (s := S3x256x128) ![t, 0, 0] S1x256x128.size inbR) (fun _ => rfl)).squeeze S256x128 squeezes_S1x256x128_S256x128).view) fd P
  -- and the squeezed slab reads the slab's rectangle of the receive buffer, shape-cast
  have h2 : shapeCast S256x128 ((commM : Memref sig .tc .vmem S3x256x128 .bf16).view.readAt Val
      (Rect.unit (s := S3x256x128) ![t, 0, 0] S1x256x128.size inbR).toLoadRect
      ((((commM : Memref sig .tc .vmem S3x256x128 .bf16).slice (Rect.unit (s := S3x256x128) ![t, 0, 0] S1x256x128.size inbR) (fun _ => rfl)).squeeze S256x128 squeezes_S1x256x128_S256x128).view.write Val fd P Finset.univ)) hc = P := h1
  have hx0 : x0.val = 0 := by have := x0.isLt; omega
  have hz : (S1x256x128.rowMajor (ValueIdx.ix3 x0 x1 (⟨o + x2.val, ho⟩ : Fin 128))).val
      = (S256x128.rowMajor (ValueIdx.ix2 x1 (⟨o + x2.val, ho⟩ : Fin 128))).val := by
    rw [Shape.rowMajor_val_three, Shape.rowMajor_val_two]
    show (x0.val * 256 + x1.val) * 128 + (o + x2.val) = x1.val * 128 + (o + x2.val)
    rw [hx0]; omega
  have h3 := (shapeCast_apply _ hc (ValueIdx.ix2 x1 (⟨o + x2.val, ho⟩ : Fin 128))
    (ValueIdx.ix3 x0 x1 (⟨o + x2.val, ho⟩ : Fin 128)) hz).symm.trans (congrFun h2 _)
  refine Eq.trans ?_ h3
  refine congrArg ((commM : Memref sig .tc .vmem S3x256x128 .bf16).view.read Val ((((commM : Memref sig .tc .vmem S3x256x128 .bf16).slice (Rect.unit (s := S3x256x128) ![t, 0, 0] S1x256x128.size inbR) (fun _ => rfl)).squeeze S256x128 squeezes_S1x256x128_S256x128).view.write Val fd P Finset.univ)) ?_
  funext a
  match a with
  | ⟨0, _⟩ => exact Fin.ext (show t + 1 * x0.val = t + 1 * x0.val from rfl)
  | ⟨1, _⟩ => exact Fin.ext (show 0 + 1 * x1.val = 0 + 1 * x1.val from rfl)
  | ⟨2, _⟩ => exact Fin.ext (show o + 1 * x2.val = 0 + 1 * (o + x2.val) by omega)

end Packed

/-! ## What a device packs, and what a slab holds once it has landed -/

variable (m : (ℓ : Loc nD τ sig) → Buf (Elt F) ℓ)

/-- The packed buffer of device d after its two stores over earlier contents f0: the narrowed keys in columns 0–63, the
    narrowed values in columns 64–127. -/
def packedOn (d : Dev nD) (f0 : Buf (Elt F) ((sendM : Memref sig .tc .vmem S256x128 .bf16).view.loc (d : Thread nD τ))) :
    Buf (Elt F) ((sendM : Memref sig .tc .vmem S256x128 .bf16).view.loc (d : Thread nD τ)) :=
  ((sendM : Memref sig .tc .vmem S256x128 .bf16).access rB : View sig .tc _ _ _).write (Elt F)
    (((sendM : Memref sig .tc .vmem S256x128 .bf16).access rA : View sig .tc _ _ _).write (Elt F) f0 (k0_pay1 (kB m d)) Finset.univ)
    (k0_pay3 (k0_pay2 (vB m d))) Finset.univ

/-- A [256, 64] vector seen as [1, 256, 64] has at (x0, x1, x2) its element (x1, x2). -/
theorem cast_slab_apply {α : Type} (w : S256x64.Idx → α) (x0 : Fin 1) (x1 : Fin 256) (x2 : Fin 64) :
    shapeCast S1x256x64 w casts_slab (ValueIdx.ix3 x0 x1 x2) = w (ValueIdx.ix2 x1 x2) := by
  have hx0 : x0.val = 0 := by have := x0.isLt; omega
  refine shapeCast_apply w casts_slab _ _ ?_
  rw [Shape.rowMajor_val_three, Shape.rowMajor_val_two]
  show x1.val * 64 + x2.val = (x0.val * 256 + x1.val) * 64 + x2.val
  rw [hx0]; omega

/-- Slab t of c's receive buffer, after d's packed buffer was copied into it over earlier contents fd, reads d's packed
    keys through its columns 0–63 and d's packed values through its columns 64–127. -/
theorem landed_of_packed (t : ℕ) (inbR : ∀ a, (![t, 0, 0] : Fin 3 → ℕ) a + S1x256x128.size a ≤ S3x256x128.size a)
    (inbK : ∀ a, (![t, 0, 0] : Fin 3 → ℕ) a + S1x256x64.size a ≤ S3x256x128.size a)
    (inbV : ∀ a, (![t, 0, 64] : Fin 3 → ℕ) a + S1x256x64.size a ≤ S3x256x128.size a)
    (d c : Dev nD) (f0 : Buf (Elt F) ((sendM : Memref sig .tc .vmem S256x128 .bf16).view.loc (d : Thread nD τ)))
    (fd : Buf (Elt F) ((((commM : Memref sig .tc .vmem S3x256x128 .bf16).slice (Rect.unit (s := S3x256x128) ![t, 0, 0] S1x256x128.size inbR) (fun _ => rfl)).squeeze S256x128 squeezes_S1x256x128_S256x128).view.loc (c : Thread nD τ))) :
    (commM : Memref sig .tc .vmem S3x256x128 .bf16).view.readAt (Elt F) (Rect.unit (s := S3x256x128) ![t, 0, 0] S1x256x64.size inbK).toLoadRect
        ((((commM : Memref sig .tc .vmem S3x256x128 .bf16).slice (Rect.unit (s := S3x256x128) ![t, 0, 0] S1x256x128.size inbR) (fun _ => rfl)).squeeze S256x128 squeezes_S1x256x128_S256x128).view.write (Elt F) fd ((sendM : Memref sig .tc .vmem S256x128 .bf16).view.read (Elt F) (packedOn m d f0)) Finset.univ) = slabK m d
    ∧ (commM : Memref sig .tc .vmem S3x256x128 .bf16).view.readAt (Elt F) (Rect.unit (s := S3x256x128) ![t, 0, 64] S1x256x64.size inbV).toLoadRect
        ((((commM : Memref sig .tc .vmem S3x256x128 .bf16).slice (Rect.unit (s := S3x256x128) ![t, 0, 0] S1x256x128.size inbR) (fun _ => rfl)).squeeze S256x128 squeezes_S1x256x128_S256x128).view.write (Elt F) fd ((sendM : Memref sig .tc .vmem S256x128 .bf16).view.read (Elt F) (packedOn m d f0)) Finset.univ) = slabV m d := by
  refine ⟨funext fun x => ?_, funext fun x => ?_⟩
  · obtain ⟨x0, x1, x2, rfl⟩ : ∃ (x0 : Fin 1) (x1 : Fin 256) (x2 : Fin 64), x = ValueIdx.ix3 x0 x1 x2 :=
      ⟨x 0, x 1, x 2, ValueIdx.eq_ix3 x⟩
    have ho : 0 + x2.val < 128 := by have := x2.isLt; omega
    refine (read_landed (Val := Elt F) t inbR 0 inbK fd _ x0 x1 x2 ho).trans ?_
    refine Eq.trans ?_ (cast_slab_apply (k0_pay1 (kB m d)) x0 x1 x2).symm
    exact read_packed_lo (Val := Elt F) f0 (k0_pay1 (kB m d)) (k0_pay3 (k0_pay2 (vB m d))) x1 x2 ho
  · obtain ⟨x0, x1, x2, rfl⟩ : ∃ (x0 : Fin 1) (x1 : Fin 256) (x2 : Fin 64), x = ValueIdx.ix3 x0 x1 x2 :=
      ⟨x 0, x 1, x 2, ValueIdx.eq_ix3 x⟩
    have ho : 64 + x2.val < 128 := by have := x2.isLt; omega
    refine (read_landed (Val := Elt F) t inbR 64 inbV fd _ x0 x1 x2 ho).trans ?_
    refine Eq.trans ?_ (cast_slab_apply (k0_pay3 (k0_pay2 (vB m d))) x0 x1 x2).symm
    exact read_packed_hi (Val := Elt F) _ (k0_pay3 (k0_pay2 (vB m d))) x1 x2 ho

theorem holds0_of_packed (d c : Dev nD) (f0 : Buf (Elt F) ((sendM : Memref sig .tc .vmem S256x128 .bf16).view.loc (d : Thread nD τ)))
    (fd : Buf (Elt F) ((slab0 : Memref sig .tc .vmem S256x128 .bf16).view.loc (c : Thread nD τ))) :
    Holds0 m d c ((slab0 : Memref sig .tc .vmem S256x128 .bf16).view.write (Elt F) fd
      ((sendM : Memref sig .tc .vmem S256x128 .bf16).view.read (Elt F) (packedOn m d f0)) Finset.univ) :=
  landed_of_packed m 0 inb_S3x256x128_S1x256x128_0_0_0 inb_S3x256x128_S1x256x64_0_0_0 inb_S3x256x128_S1x256x64_0_0_64 d c f0 fd

theorem holds1_of_packed (d c : Dev nD) (f0 : Buf (Elt F) ((sendM : Memref sig .tc .vmem S256x128 .bf16).view.loc (d : Thread nD τ)))
    (fd : Buf (Elt F) ((slab1 : Memref sig .tc .vmem S256x128 .bf16).view.loc (c : Thread nD τ))) :
    Holds1 m d c ((slab1 : Memref sig .tc .vmem S256x128 .bf16).view.write (Elt F) fd
      ((sendM : Memref sig .tc .vmem S256x128 .bf16).view.read (Elt F) (packedOn m d f0)) Finset.univ) :=
  landed_of_packed m 1 inb_S3x256x128_S1x256x128_1_0_0 inb_S3x256x128_S1x256x64_1_0_0 inb_S3x256x128_S1x256x64_1_0_64 d c f0 fd

theorem holds2_of_packed (d c : Dev nD) (f0 : Buf (Elt F) ((sendM : Memref sig .tc .vmem S256x128 .bf16).view.loc (d : Thread nD τ)))
    (fd : Buf (Elt F) ((slab2 : Memref sig .tc .vmem S256x128 .bf16).view.loc (c : Thread nD τ))) :
    Holds2 m d c ((slab2 : Memref sig .tc .vmem S256x128 .bf16).view.write (Elt F) fd
      ((sendM : Memref sig .tc .vmem S256x128 .bf16).view.read (Elt F) (packedOn m d f0)) Finset.univ) :=
  landed_of_packed m 2 inb_S3x256x128_S1x256x128_2_0_0 inb_S3x256x128_S1x256x64_2_0_0 inb_S3x256x128_S1x256x64_2_0_64 d c f0 fd

end Cert.KernelIdeal.Ring

end
-- ==== Proof.RingLoads.lean ====
/-
  What the six loads read lies in the slab held. A load of the receive buffer through the [1, 256, 64] rectangle at
  (t, 0, 0) or (t, 0, 64) reads only indices whose leading coordinate is t + j for some j < 1, that is t: indices of slab t.
-/
import proofs.«900383_g7700000000000384_dist_ring_attn_i_s256_d64_v7x_i4_f32_1_alg».proof.Proof.RingSched
import proofs.«900383_g7700000000000384_dist_ring_attn_i_s256_d64_v7x_i4_f32_1_alg».proof.Proof.RingSlabs

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An index the whole receive buffer reads through the [1, 256, 64] rectangle at (T, 0, o) has leading coordinate T: the
    rectangle has one coordinate on the leading axis. -/
theorem load_leading (T o : ℕ) (inbL : ∀ a, (![T, 0, o] : Fin 3 → ℕ) a + S1x256x64.size a ≤ S3x256x128.size a)
    (i : S3x256x128.Idx)
    (hi : i ∈ (commM : Memref sig .tc .vmem S3x256x128 .bf16).view.setOn (Rect.unit (s := S3x256x128) ![T, 0, o] S1x256x64.size inbL).toLoadRect.set) :
    (i 0).val = T := by
  obtain ⟨x, hx, rfl⟩ := Finset.mem_map.mp hi
  obtain ⟨j, hj, hxj⟩ := (LoadRect.mem_set _).mp hx 0
  have hj' : j < 1 := hj
  have hxj' : (x 0).val = T + 1 * j := hxj
  show (x 0).val = T
  omega

theorem loadK0_sub : (commM : Memref sig .tc .vmem S3x256x128 .bf16).view.setOn (rK0.toLoadRect).set ⊆ (slab0 : Memref sig .tc .vmem S256x128 .bf16).view.set :=
  fun i hi => (mem_slab0 i).mpr (load_leading 0 0 _ i hi)
theorem loadV0_sub : (commM : Memref sig .tc .vmem S3x256x128 .bf16).view.setOn (rV0.toLoadRect).set ⊆ (slab0 : Memref sig .tc .vmem S256x128 .bf16).view.set :=
  fun i hi => (mem_slab0 i).mpr (load_leading 0 64 _ i hi)
theorem loadK1_sub : (commM : Memref sig .tc .vmem S3x256x128 .bf16).view.setOn (rK1.toLoadRect).set ⊆ (slab1 : Memref sig .tc .vmem S256x128 .bf16).view.set :=
  fun i hi => (mem_slab1 i).mpr (load_leading 1 0 _ i hi)
theorem loadV1_sub : (commM : Memref sig .tc .vmem S3x256x128 .bf16).view.setOn (rV1.toLoadRect).set ⊆ (slab1 : Memref sig .tc .vmem S256x128 .bf16).view.set :=
  fun i hi => (mem_slab1 i).mpr (load_leading 1 64 _ i hi)
theorem loadK2_sub : (commM : Memref sig .tc .vmem S3x256x128 .bf16).view.setOn (rK2.toLoadRect).set ⊆ (slab2 : Memref sig .tc .vmem S256x128 .bf16).view.set :=
  fun i hi => (mem_slab2 i).mpr (load_leading 2 0 _ i hi)
theorem loadV2_sub : (commM : Memref sig .tc .vmem S3x256x128 .bf16).view.setOn (rV2.toLoadRect).set ⊆ (slab2 : Memref sig .tc .vmem S256x128 .bf16).view.set :=
  fun i hi => (mem_slab2 i).mpr (load_leading 2 64 _ i hi)

end Cert.KernelIdeal.Ring

end
-- ==== Proof.RingShares.lean ====
/-
  The packed buffer back in one piece. The three transfers read the packed buffer at three shares — the left half, and the
  two halves of the right half — and each hands its share back at some contents. Two holders of the same elements agree on
  them, so the three contents are one on the buffer; the two quarters then make the right half and the two halves the whole.
-/
import proofs.«900383_g7700000000000384_dist_ring_attn_i_s256_d64_v7x_i4_f32_1_alg».proof.Proof.RingSched

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The three shares of the packed buffer, each at some contents, are the whole buffer at one contents. -/
theorem send_rejoin (c : Dev nD) (fa fb fc : Buf (Elt F) (((sendM : Memref sig .tc .vmem S256x128 .bf16)).view.loc (c : Thread nD τ))) :
    iprop(sendPts sh0 c fa ∗ sendPts sh1 c fb ∗ sendPts sh2 c fc) ⊢ (iprop(∃ f, sendPts fullShare c f) : sProp 𝕄) := by
  unfold sendPts
  iintro ⟨Ha, Hb, Hc⟩
  -- the two quarters agree on the buffer, and make the right half
  icombine Hb Hc as Hbc
  ihave %hbc := BI.Region.is_agree $$ Hbc
  icases Hbc with ⟨Hb, Hc⟩
  ihave Hc' := (Entails.of_eq (BI.Region.is_congr (f := fc) (g := fb)
    fun i hi => ((hbc i (Finset.mem_inter.mpr ⟨hi, hi⟩)).1).symm)) $$ Hc
  icombine Hb Hc' as Hr
  -- the two halves agree on the buffer, and make the whole
  icombine Ha Hr as Har
  ihave %har := BI.Region.is_agree $$ Har
  icases Har with ⟨Ha, Hr⟩
  ihave Hr' := (Entails.of_eq (BI.Region.is_congr (f := fb) (g := fa)
    fun i hi => ((har i (Finset.mem_inter.mpr ⟨hi, hi⟩)).1).symm)) $$ Hr
  icombine Ha Hr' as H
  iexists fa
  iexact H

end Cert.KernelIdeal.Ring

end
-- ==== Proof.RingBody.lean ====
/-
  One device's body, stepped once at a symbolic device.

  The device signals the three devices that will send to it, handing each the slab of its receive buffer that device writes;
  packs its narrowed keys and values side by side; for each of its three destinations waits for that destination's signal, then
  starts the transfer of the packed buffer into the slab it was handed, lending the transfer a share of the packed buffer;
  accumulates over its own keys and values; for each slab in turn waits for it to land and accumulates over the sender's packed
  keys and values; writes the quotient; and waits for its three transfers to have read the packed buffer.
-/
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.RingBodySpec
import proofs.«900383_g7700000000000384_dist_ring_attn_i_s256_d64_v7x_i4_f32_1_alg».proof.Proof.RingPacked
import proofs.«900383_g7700000000000384_dist_ring_attn_i_s256_d64_v7x_i4_f32_1_alg».proof.Proof.RingLoads
import proofs.«900383_g7700000000000384_dist_ring_attn_i_s256_d64_v7x_i4_f32_1_alg».proof.Proof.RingShares
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ)

section ExU
variable (c : Dev nD)
theorem ex_slab0_rl_u : (iprop(∃ f, ((slab0 : Memref sig .tc .vmem S256x128 .bf16).view.loc ((rgt (lft c) : Dev nD) : Thread nD τ) ↦[(slab0 : Memref sig .tc .vmem S256x128 .bf16).view.set]{fullShare} f)) : sProp 𝕄)
    = iprop(∃ f, ((slab0 : Memref sig .tc .vmem S256x128 .bf16).view.loc (c : Thread nD τ) ↦[(slab0 : Memref sig .tc .vmem S256x128 .bf16).view.set]{fullShare} f)) := ex_slab0_rl (F := F) c
theorem ex_slab1_lr_u : (iprop(∃ f, ((slab1 : Memref sig .tc .vmem S256x128 .bf16).view.loc ((lft (rgt c) : Dev nD) : Thread nD τ) ↦[(slab1 : Memref sig .tc .vmem S256x128 .bf16).view.set]{fullShare} f)) : sProp 𝕄)
    = iprop(∃ f, ((slab1 : Memref sig .tc .vmem S256x128 .bf16).view.loc (c : Thread nD τ) ↦[(slab1 : Memref sig .tc .vmem S256x128 .bf16).view.set]{fullShare} f)) := ex_slab1_lr (F := F) c
theorem ex_slab2_oo_u : (iprop(∃ f, ((slab2 : Memref sig .tc .vmem S256x128 .bf16).view.loc ((opp (opp c) : Dev nD) : Thread nD τ) ↦[(slab2 : Memref sig .tc .vmem S256x128 .bf16).view.set]{fullShare} f)) : sProp 𝕄)
    = iprop(∃ f, ((slab2 : Memref sig .tc .vmem S256x128 .bf16).view.loc (c : Thread nD τ) ↦[(slab2 : Memref sig .tc .vmem S256x128 .bf16).view.set]{fullShare} f)) := ex_slab2_oo (F := F) c
end ExU

attribute [local sl_rounds] duties_e0C amount_e0C payload_e0C expect_e0C mem_e0C duties_e1C amount_e1C payload_e1C expect_e1C mem_e1C duties_bC amount_bC payload_bC expect_bC mem_bC duties_s0C amount_s0C payload_s0C expect_s0C mem_s0C duties_s1C amount_s1C payload_s1C expect_s1C mem_s1C duties_s2C amount_s2C payload_s2C expect_s2C mem_s2C duties_r0C amount_r0C payload_r0C expect_r0C mem_r0C duties_r1C amount_r1C payload_r1C expect_r1C mem_r1C duties_r2C amount_r2C payload_r2C expect_r2C mem_r2C pay_e0 pay_e1 pay_b pay_s0 pay_s1 pay_s2 pay_r0 pay_r1 pay_r2 ex_slab0_rl ex_slab1_lr ex_slab2_oo ex_slab0_rl_u ex_slab1_lr_u ex_slab2_oo_u rgt_lft lft_rgt opp_opp slabPts0 slabPts1 slabPts2 sendPts

/-! ## The levels: what a device may wait for while it still owes -/

/-- Everything in `O` lies on receive cells. -/
def OnRecv (O : CellTallies nD τ sig Unit) : Prop := ∀ g u, 0 < O g u → ∃ (d : Dev nD) (k : Fin 9), 6 ≤ k.val ∧ g = kcell (d, k)

theorem onRecv_tally (d : Dev nD) (k : Fin 9) (hk : 6 ≤ k.val) (n : ℕ) : OnRecv (tallyAt (kcell (d, k)) () n) := fun g u hg => by
  rw [tallyAt_apply] at hg
  by_cases h : g = kcell (d, k) ∧ u = ()
  · exact ⟨d, k, hk, h.1⟩
  · rw [if_neg h] at hg; exact absurd hg (Nat.lt_irrefl 0)
theorem onRecv_add {A B : CellTallies nD τ sig Unit} (hA : OnRecv A) (hB : OnRecv B) : OnRecv (A + B) := fun g u hg => by
  rw [Pi.add_apply, Finsupp.add_apply] at hg
  rcases Nat.pos_of_ne_zero (fun h => by omega : A g u + B g u ≠ 0) |> fun _ => (Nat.eq_zero_or_pos (A g u)) with h | h
  · exact hB g u (by omega)
  · exact hA g u h

omit [FloatOps F] in
/-- An entry or barrier cell may be waited on while owing only receive credits: its level is below theirs. -/
theorem mayWait_low (c : Dev nD) (k : Fin 9) (hk : k.val < 3) (O : CellTallies nD τ sig Unit) (hO : OnRecv O) :
    (levAts Lset lv : sProp 𝕄) ⊢ MayWait (c : Thread nD τ) (csem k) () O :=
  MayOwe.of_cut (L := Lset) (lev := lv) 1
    (fun p hp => by rw [Finset.mem_singleton.mp hp, Lset_tc]; exact Finset.mem_singleton_self _)
    (fun g u hg => by obtain ⟨d, k', _, rfl⟩ := hO g u hg; rw [Lset_tc]; exact Finset.mem_singleton_self _)
    (fun p hp => by rw [Finset.mem_singleton.mp hp]; exact le_of_eq ((lv_kcell c k ()).trans (by unfold lvk; rw [if_pos hk])))
    (fun g u hg => by
      obtain ⟨d, k', hk', rfl⟩ := hO g u hg
      rw [lv_kcell]; unfold lvk; rw [if_neg (by omega), if_pos hk']; decide)

omit [FloatOps F] in
theorem hz2 : (![0, 0] : Fin 2 → Nat) = fun _ => 0 := funext fun a => by fin_cases a <;> rfl
theorem readAt_kB (d : Dev nD) : (Memref.whole cc0_stg1_0 : Memref sig .tc .vmem S256x64 .f32).view.readAt (Elt F)
    (Rect.unit (s := S256x64) ![0, 0] S256x64.size inb_S256x64_S256x64_0_0).toLoadRect (kB m d) = kB m d :=
  Memref.readAt_unit_zero (Elt F) cc0_stg1_0 hz2 _ _
theorem readAt_vB (d : Dev nD) : (Memref.whole cc0_stg2_0 : Memref sig .tc .vmem S256x64 .f32).view.readAt (Elt F)
    (Rect.unit (s := S256x64) ![0, 0] S256x64.size inb_S256x64_S256x64_0_0).toLoadRect (vB m d) = vB m d :=
  Memref.readAt_unit_zero (Elt F) cc0_stg2_0 hz2 _ _
theorem readAt_qB (d : Dev nD) : (Memref.whole cc0_stg0_0 : Memref sig .tc .vmem S256x64 .f32).view.readAt (Elt F)
    (Rect.unit (s := S256x64) ![0, 0] S256x64.size inb_S256x64_S256x64_0_0).toLoadRect (qB m d) = qB m d :=
  Memref.readAt_unit_zero (Elt F) cc0_stg0_0 hz2 _ _
/-- The packed buffer as the list of its two stores. -/
theorem packedOn_eq_writes (d : Dev nD) (f0 : Buf (Elt F) ((sendM : Memref sig .tc .vmem S256x128 .bf16).view.loc (d : Thread nD τ))) :
    (sendM : Memref sig .tc .vmem S256x128 .bf16).view.writes (Elt F) f0
      [⟨rB, k0_pay3 (k0_pay2 (vB m d))⟩, ⟨rA, k0_pay1 (kB m d)⟩] = packedOn m d f0 := rfl
theorem amt_slab0 : (slab0 : Memref sig .tc .vmem S256x128 .bf16).view.amount (SemLoc.dma rS0) = N := by decide
theorem amt_slab1 : (slab1 : Memref sig .tc .vmem S256x128 .bf16).view.amount (SemLoc.dma rS1) = N := by decide
theorem amt_slab2 : (slab2 : Memref sig .tc .vmem S256x128 .bf16).view.amount (SemLoc.dma rS2) = N := by decide

/-- The transfer of slab 0, to `rgt c`: the send rule at the ring's cells. -/
theorem wp_send0 (K : Dev nD × Fin 9 → ℕ) (c : Dev nD)
    {hsc : (slab0 : Memref sig ((rgt c).tc : Thread nD τ).2.kind .vmem S256x128 .bf16).view.ref.isScScratch = false}
    {hsrc : (sendM : Memref sig .tc .vmem S256x128 .bf16).view.WordExact} {hdst : (slab0 : Memref sig .tc .vmem S256x128 .bf16).view.WordExact}
    {hsem : DmaTarget.Typed .vmem (.dma rS0) (.remote ((rgt c).tc : Thread nD τ) (slab0 : Memref sig .tc .vmem S256x128 .bf16) (.dma sS0) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab0 : Memref sig .tc .vmem S256x128 .bf16).view.loc ((rgt c : Dev nD) : Thread nD τ)))
    (hH : Holds0 m c (rgt c) ((slab0 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r0C (rgt c)) () N) :
    iprop(cellInv ER (rd m) (K (c, 3)) (s0C c) ∗ cellInv ER (rd m) (K (rgt c, 6)) (r0C (rgt c))
        ∗ ((sendM : Memref sig .tc .vmem S256x128 .bf16).view.loc (c : Thread nD τ) ↦[(sendM : Memref sig .tc .vmem S256x128 .bf16).view.set]{sh0} fs)
        ∗ ((slab0 : Memref sig .tc .vmem S256x128 .bf16).view.loc ((rgt c : Dev nD) : Thread nD τ) ↦[(slab0 : Memref sig .tc .vmem S256x128 .bf16).view.set]{fullShare} fd)
        ∗ owes (c : Thread nD τ) O₁ W
        ∗ dutyTok ER (s0C c) 0 () ∗ reached ER (s0C c) 0
        ∗ dutyTok ER (r0C (rgt c)) 0 () ∗ reached ER (r0C (rgt c)) 0)
      ⊢ iprop(((cred (tallyAt (s0C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((rgt c).tc : Thread nD τ) slab0 (.dma sS0) hsc) (.dma rS0) hsrc hdst hsem) k) Q) :=
  Rounds.wp_send_pointsTo 𝒱₀ ER (rd m) (c : Thread nD τ) none (κ₁ := K (c, 3)) (κ₂ := K (rgt c, 6))
    (r₁ := 0) (r₂ := 0) (d₁ := ()) (d₂ := ()) (fd := fd) (q := sh0) (fs := fs)
    (mem_s0C m c) (mem_r0C m (rgt c)) () () N amt_slab0 (amount_s0C m c ()) (amount_r0C m (rgt c) ()) O hO (W := W)
    (by rw [payload_s0C, pay_s0]; unfold sendPts; iintro H; iexists fs; iexact H)
    (by
      rw [payload_r0C, pay_r0, lft_rgt]; unfold slabPts0
      iintro H; iexists _
      isplitl [H]; · iexact H
      ipureintro; exact hH)

/-- The transfer of slab 1, to `lft c`: the send rule at the ring's cells. -/
theorem wp_send1 (K : Dev nD × Fin 9 → ℕ) (c : Dev nD)
    {hsc : (slab1 : Memref sig ((lft c).tc : Thread nD τ).2.kind .vmem S256x128 .bf16).view.ref.isScScratch = false}
    {hsrc : (sendM : Memref sig .tc .vmem S256x128 .bf16).view.WordExact} {hdst : (slab1 : Memref sig .tc .vmem S256x128 .bf16).view.WordExact}
    {hsem : DmaTarget.Typed .vmem (.dma rS1) (.remote ((lft c).tc : Thread nD τ) (slab1 : Memref sig .tc .vmem S256x128 .bf16) (.dma sS1) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab1 : Memref sig .tc .vmem S256x128 .bf16).view.loc ((lft c : Dev nD) : Thread nD τ)))
    (hH : Holds1 m c (lft c) ((slab1 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r1C (lft c)) () N) :
    iprop(cellInv ER (rd m) (K (c, 4)) (s1C c) ∗ cellInv ER (rd m) (K (lft c, 7)) (r1C (lft c))
        ∗ ((sendM : Memref sig .tc .vmem S256x128 .bf16).view.loc (c : Thread nD τ) ↦[(sendM : Memref sig .tc .vmem S256x128 .bf16).view.set]{sh1} fs)
        ∗ ((slab1 : Memref sig .tc .vmem S256x128 .bf16).view.loc ((lft c : Dev nD) : Thread nD τ) ↦[(slab1 : Memref sig .tc .vmem S256x128 .bf16).view.set]{fullShare} fd)
        ∗ owes (c : Thread nD τ) O₁ W
        ∗ dutyTok ER (s1C c) 0 () ∗ reached ER (s1C c) 0
        ∗ dutyTok ER (r1C (lft c)) 0 () ∗ reached ER (r1C (lft c)) 0)
      ⊢ iprop(((cred (tallyAt (s1C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((lft c).tc : Thread nD τ) slab1 (.dma sS1) hsc) (.dma rS1) hsrc hdst hsem) k) Q) :=
  Rounds.wp_send_pointsTo 𝒱₀ ER (rd m) (c : Thread nD τ) none (κ₁ := K (c, 4)) (κ₂ := K (lft c, 7))
    (r₁ := 0) (r₂ := 0) (d₁ := ()) (d₂ := ()) (fd := fd) (q := sh1) (fs := fs)
    (mem_s1C m c) (mem_r1C m (lft c)) () () N amt_slab1 (amount_s1C m c ()) (amount_r1C m (lft c) ()) O hO (W := W)
    (by rw [payload_s1C, pay_s1]; unfold sendPts; iintro H; iexists fs; iexact H)
    (by
      rw [payload_r1C, pay_r1, rgt_lft]; unfold slabPts1
      iintro H; iexists _
      isplitl [H]; · iexact H
      ipureintro; exact hH)

/-- The transfer of slab 2, to `opp c`: the send rule at the ring's cells. -/
theorem wp_send2 (K : Dev nD × Fin 9 → ℕ) (c : Dev nD)
    {hsc : (slab2 : Memref sig ((opp c).tc : Thread nD τ).2.kind .vmem S256x128 .bf16).view.ref.isScScratch = false}
    {hsrc : (sendM : Memref sig .tc .vmem S256x128 .bf16).view.WordExact} {hdst : (slab2 : Memref sig .tc .vmem S256x128 .bf16).view.WordExact}
    {hsem : DmaTarget.Typed .vmem (.dma rS2) (.remote ((opp c).tc : Thread nD τ) (slab2 : Memref sig .tc .vmem S256x128 .bf16) (.dma sS2) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab2 : Memref sig .tc .vmem S256x128 .bf16).view.loc ((opp c : Dev nD) : Thread nD τ)))
    (hH : Holds2 m c (opp c) ((slab2 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r2C (opp c)) () N) :
    iprop(cellInv ER (rd m) (K (c, 5)) (s2C c) ∗ cellInv ER (rd m) (K (opp c, 8)) (r2C (opp c))
        ∗ ((sendM : Memref sig .tc .vmem S256x128 .bf16).view.loc (c : Thread nD τ) ↦[(sendM : Memref sig .tc .vmem S256x128 .bf16).view.set]{sh2} fs)
        ∗ ((slab2 : Memref sig .tc .vmem S256x128 .bf16).view.loc ((opp c : Dev nD) : Thread nD τ) ↦[(slab2 : Memref sig .tc .vmem S256x128 .bf16).view.set]{fullShare} fd)
        ∗ owes (c : Thread nD τ) O₁ W
        ∗ dutyTok ER (s2C c) 0 () ∗ reached ER (s2C c) 0
        ∗ dutyTok ER (r2C (opp c)) 0 () ∗ reached ER (r2C (opp c)) 0)
      ⊢ iprop(((cred (tallyAt (s2C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((opp c).tc : Thread nD τ) slab2 (.dma sS2) hsc) (.dma rS2) hsrc hdst hsem) k) Q) :=
  Rounds.wp_send_pointsTo 𝒱₀ ER (rd m) (c : Thread nD τ) none (κ₁ := K (c, 5)) (κ₂ := K (opp c, 8))
    (r₁ := 0) (r₂ := 0) (d₁ := ()) (d₂ := ()) (fd := fd) (q := sh2) (fs := fs)
    (mem_s2C m c) (mem_r2C m (opp c)) () () N amt_slab2 (amount_s2C m c ()) (amount_r2C m (opp c) ()) O hO (W := W)
    (by rw [payload_s2C, pay_s2]; unfold sendPts; iintro H; iexists fs; iexact H)
    (by
      rw [payload_r2C, pay_r2, opp_opp]; unfold slabPts2
      iintro H; iexists _
      isplitl [H]; · iexact H
      ipureintro; exact hH)

/-- What lands in slab 0 when the sender's buffer is the list of its two stores, whatever the spelling of their payloads. -/
theorem holds0_of_writes (d c' : Dev nD) (f0 : Buf (Elt F) ((sendM : Memref sig .tc .vmem S256x128 .bf16).view.loc (d : Thread nD τ)))
    (fd : Buf (Elt F) ((slab0 : Memref sig .tc .vmem S256x128 .bf16).view.loc (c' : Thread nD τ)))
    (wA wB : FVec F S256x64 .bf16) (hA : wA = k0_pay1 (kB m d)) (hB : wB = k0_pay3 (k0_pay2 (vB m d))) :
    Holds0 m d c' ((slab0 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds0_of_packed m d c' f0 fd

/-- What lands in slab 1 when the sender's buffer is the list of its two stores, whatever the spelling of their payloads. -/
theorem holds1_of_writes (d c' : Dev nD) (f0 : Buf (Elt F) ((sendM : Memref sig .tc .vmem S256x128 .bf16).view.loc (d : Thread nD τ)))
    (fd : Buf (Elt F) ((slab1 : Memref sig .tc .vmem S256x128 .bf16).view.loc (c' : Thread nD τ)))
    (wA wB : FVec F S256x64 .bf16) (hA : wA = k0_pay1 (kB m d)) (hB : wB = k0_pay3 (k0_pay2 (vB m d))) :
    Holds1 m d c' ((slab1 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds1_of_packed m d c' f0 fd

/-- What lands in slab 2 when the sender's buffer is the list of its two stores, whatever the spelling of their payloads. -/
theorem holds2_of_writes (d c' : Dev nD) (f0 : Buf (Elt F) ((sendM : Memref sig .tc .vmem S256x128 .bf16).view.loc (d : Thread nD τ)))
    (fd : Buf (Elt F) ((slab2 : Memref sig .tc .vmem S256x128 .bf16).view.loc (c' : Thread nD τ)))
    (wA wB : FVec F S256x64 .bf16) (hA : wA = k0_pay1 (kB m d)) (hB : wB = k0_pay3 (k0_pay2 (vB m d))) :
    Holds2 m d c' ((slab2 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds2_of_packed m d c' f0 fd

/-- A returned value bound to a continuation is the continuation at it. -/
theorem prog_ret_bind {E : Type → Type} {α β : Type} (a : α) (k : α → Prog E β) : (Prog.ret a).bind k = k a := rfl

/-! ## The body -/

omit [FloatOps F] in
theorem hz2' : (![0, 0] : Fin 2 → Nat) = fun _ => 0 := hz2

/-- A store through the result buffer's whole rectangle leaves its payload. -/
theorem write_out (f w : (cc0_stg3_0 : Ref sig .tc).ty.Contents (Elt F)) :
    (Memref.whole cc0_stg3_0 : Memref sig .tc .vmem S256x64 .f32).view.writes (Elt F) f
      [⟨Rect.unit (s := S256x64) ![0, 0] S256x64.size inb_S256x64_S256x64_0_0, w⟩] = w := by
  rw [View.writes_singleton]
  exact Memref.write_access_unit_zero_univ (Elt F) cc0_stg3_0 hz2 _ f w

/-- The three whole-rectangle reads of the staged blocks, through the buffer's view spelled directly. -/
theorem readAt_qB' (d : Dev nD) : View.readAt (Elt F) (View.whole cc0_stg0_0)
    (Rect.unit (s := S256x64) ![0, 0] S256x64.size inb_S256x64_S256x64_0_0).toLoadRect (qB m d) = qB m d := readAt_qB m d
theorem readAt_kB' (d : Dev nD) : View.readAt (Elt F) (View.whole cc0_stg1_0)
    (Rect.unit (s := S256x64) ![0, 0] S256x64.size inb_S256x64_S256x64_0_0).toLoadRect (kB m d) = kB m d := readAt_kB m d
theorem readAt_vB' (d : Dev nD) : View.readAt (Elt F) (View.whole cc0_stg2_0)
    (Rect.unit (s := S256x64) ![0, 0] S256x64.size inb_S256x64_S256x64_0_0).toLoadRect (vB m d) = vB m d := readAt_vB m d

/-- The stored quotient, with the three received slabs reading back what their senders packed, is the device's result. -/
theorem out_eq (c : Dev nD)
    (v0 : Buf (Elt F) ((slab0 : Memref sig .tc .vmem S256x128 .bf16).view.loc (c : Thread nD τ)))
    (v1 : Buf (Elt F) ((slab1 : Memref sig .tc .vmem S256x128 .bf16).view.loc (c : Thread nD τ)))
    (v2 : Buf (Elt F) ((slab2 : Memref sig .tc .vmem S256x128 .bf16).view.loc (c : Thread nD τ)))
    (h0 : Holds0 m (lft c) c v0) (h1 : Holds1 m (rgt c) c v1) (h2 : Holds2 m (opp c) c v2) :
    k0_pay13 (k0_pay4 ((Memref.whole cc0_stg0_0 : Memref sig .tc .vmem S256x64 .f32).view.readAt (Elt F) (Rect.unit (s := S256x64) ![0, 0] S256x64.size inb_S256x64_S256x64_0_0).toLoadRect (qB m c)))
      (k0_pay11 (k0_pay4 ((Memref.whole cc0_stg0_0 : Memref sig .tc .vmem S256x64 .f32).view.readAt (Elt F) (Rect.unit (s := S256x64) ![0, 0] S256x64.size inb_S256x64_S256x64_0_0).toLoadRect (qB m c))) (k0_pay6 ((Memref.whole cc0_stg0_0 : Memref sig .tc .vmem S256x64 .f32).view.readAt (Elt F) (Rect.unit (s := S256x64) ![0, 0] S256x64.size inb_S256x64_S256x64_0_0).toLoadRect (qB m c)) ((Memref.whole cc0_stg1_0 : Memref sig .tc .vmem S256x64 .f32).view.readAt (Elt F) (Rect.unit (s := S256x64) ![0, 0] S256x64.size inb_S256x64_S256x64_0_0).toLoadRect (kB m c))) (k0_pay8 ((commM : Memref sig .tc .vmem S3x256x128 .bf16).view.readAt (Elt F) rK0.toLoadRect v0)) ((commM : Memref sig .tc .vmem S3x256x128 .bf16).view.readAt (Elt F) rK1.toLoadRect v1))
      (k0_pay12 (k0_pay4 ((Memref.whole cc0_stg0_0 : Memref sig .tc .vmem S256x64 .f32).view.readAt (Elt F) (Rect.unit (s := S256x64) ![0, 0] S256x64.size inb_S256x64_S256x64_0_0).toLoadRect (qB m c))) (k0_pay7 ((Memref.whole cc0_stg0_0 : Memref sig .tc .vmem S256x64 .f32).view.readAt (Elt F) (Rect.unit (s := S256x64) ![0, 0] S256x64.size inb_S256x64_S256x64_0_0).toLoadRect (qB m c)) ((Memref.whole cc0_stg1_0 : Memref sig .tc .vmem S256x64 .f32).view.readAt (Elt F) (Rect.unit (s := S256x64) ![0, 0] S256x64.size inb_S256x64_S256x64_0_0).toLoadRect (kB m c)) ((Memref.whole cc0_stg2_0 : Memref sig .tc .vmem S256x64 .f32).view.readAt (Elt F) (Rect.unit (s := S256x64) ![0, 0] S256x64.size inb_S256x64_S256x64_0_0).toLoadRect (vB m c))) (k0_pay8 ((commM : Memref sig .tc .vmem S3x256x128 .bf16).view.readAt (Elt F) rK0.toLoadRect v0)) ((commM : Memref sig .tc .vmem S3x256x128 .bf16).view.readAt (Elt F) rV0.toLoadRect v0) ((commM : Memref sig .tc .vmem S3x256x128 .bf16).view.readAt (Elt F) rK1.toLoadRect v1) ((commM : Memref sig .tc .vmem S3x256x128 .bf16).view.readAt (Elt F) rV1.toLoadRect v1))
      ((commM : Memref sig .tc .vmem S3x256x128 .bf16).view.readAt (Elt F) rK2.toLoadRect v2) ((commM : Memref sig .tc .vmem S3x256x128 .bf16).view.readAt (Elt F) rV2.toLoadRect v2) = outAt m c := by
  unfold outAt outOfR
  rw [readAt_qB, readAt_kB, readAt_vB, h0.1, h0.2, h1.1, h1.2, h2.1, h2.2]

section Body

set_option maxHeartbeats 16000000 in
/-- The body of device `c`, from the ghost state the launch deals it and its buffers, to its result written, its scratch buffers
    whole again and its eight scoped cells closed. -/
theorem sound_body : SoundBody (F := F) m := by
  intro K c W f0 fc fo
  unfold BodyPre invs posns marks payToks waitCred
  iintro ⟨⟨#HIe0, #HIe1, #HIb, #HIs0, #HIs1, #HIs2, #HIr0, #HIr1, #HIr2, #HIe0L, #HIe1R, #HIbO, #HIr0R, #HIr1L, #HIr2O⟩,
    ⟨Hae0, Hae1, Hab, Has0, Has1, Has2, Har0, Har1, Har2⟩,
    ⟨#HRe0L, #HRe1R, #HRbO, #HRr0R, #HRr1L, #HRr2O, #HRs0, #HRs1, #HRs2, #HRr0, #HRr1, #HRr2⟩,
    ⟨Hte0L, Hte1R, HtbO, Hts0, Hts1, Hts2, Htr0R, Htr1L, Htr2O⟩,
    ⟨Hce0, Hce1, Hcb, Hcr0, Hcr1, Hcr2⟩, #Hlev, HO, Hsb, Hm0, Hm1, Hm2, Hq, Hk, Hv, Ho⟩
  have hd1 := dev1_eq c; have hd2 := dev2_eq c; have hd3 := dev3_eq c
  have hd4 := dev4_eq c; have hd5 := dev5_eq c; have hd6 := dev6_eq c
  have hw0 : (levAts Lset lv : sProp 𝕄) ⊢ MayWait (c : Thread nD τ) (SemLoc.reg eS0) () (tallyAt (r2C (opp c)) () N + tallyAt (r1C (lft c)) () N + tallyAt (r0C (rgt c)) () N) :=
    mayWait_low (F := F) c 0 (by decide) _
      (onRecv_add (onRecv_add (onRecv_tally (opp c) 8 (by decide) N) (onRecv_tally (lft c) 7 (by decide) N)) (onRecv_tally (rgt c) 6 (by decide) N))
  have hw1 : (levAts Lset lv : sProp 𝕄) ⊢ MayWait (c : Thread nD τ) (SemLoc.reg eS1) () (tallyAt (r2C (opp c)) () N + tallyAt (r1C (lft c)) () N) :=
    mayWait_low (F := F) c 1 (by decide) _ (onRecv_add (onRecv_tally (opp c) 8 (by decide) N) (onRecv_tally (lft c) 7 (by decide) N))
  have hw2 : (levAts Lset lv : sProp 𝕄) ⊢ MayWait (c : Thread nD τ) (SemLoc.reg barS) () (tallyAt (r2C (opp c)) () N) :=
    mayWait_low (F := F) c 2 (by decide) _ (onRecv_tally (opp c) 8 (by decide) N)
  unfold O₀ O₃ sendPts slabPts0 slabPts1 slabPts2 stgPts
  sl_unfold [cc0_body]
  sl_exec
  -- the value half of the packed buffer, as the run names it, is the narrowed value block
  have hv31 : sound_body.sl.v31 m c = k0_pay3 (k0_pay2 (vB m c)) := by
    unfold sound_body.sl.v31 sound_body.sl.r
    rw [readAt_vB]; rfl
  -- the first transfer, to `rgt c`, reading the packed buffer at the first of three shares
  icases Hsb with ⟨Hsb0, Hsb⟩
  iapply (wp_send0 m K c _ Hae0_pay1_v
      (holds0_of_writes m c (rgt c) f0 Hae0_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N + tallyAt (r1C (lft c)) () N + tallyAt (r0C (rgt c)) () N) (tallyAt (r2C (opp c)) () N + tallyAt (r1C (lft c)) () N) _ rfl) $$ [Hsb0 Hae0_pay1 HO Hts0 Htr0R]
  · isplitr; · iexact HIs0
    isplitr; · iexact HIr0R
    isplitl [Hsb0]; · iexact Hsb0
    isplitl [Hae0_pay1]; · iexact Hae0_pay1
    isplitl [HO]; · iexact HO
    isplitl [Hts0]; · iexact Hts0
    isplitr; · iexact HRs0
    isplitl [Htr0R]; · iexact Htr0R
    iexact HRr0R
  iintro ⟨Hcs0, HO⟩
  sl_exec
  -- the second, to `lft c`
  icases Hsb with ⟨Hsb1, Hsb2⟩
  iapply (wp_send1 m K c _ Hae1_pay1_v
      (holds1_of_writes m c (lft c) f0 Hae1_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N + tallyAt (r1C (lft c)) () N) (tallyAt (r2C (opp c)) () N) _ rfl) $$ [Hsb1 Hae1_pay1 HO Hts1 Htr1L]
  · isplitr; · iexact HIs1
    isplitr; · iexact HIr1L
    isplitl [Hsb1]; · iexact Hsb1
    isplitl [Hae1_pay1]; · iexact Hae1_pay1
    isplitl [HO]; · iexact HO
    isplitl [Hts1]; · iexact Hts1
    isplitr; · iexact HRs1
    isplitl [Htr1L]; · iexact Htr1L
    iexact HRr1L
  iintro ⟨Hcs1, HO⟩
  sl_exec
  -- the third, to `opp c`
  iapply (wp_send2 m K c _ Hab_pay1_v
      (holds2_of_writes m c (opp c) f0 Hab_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N) (0) _ (zero_add _).symm) $$ [Hsb2 Hab_pay1 HO Hts2 Htr2O]
  · isplitr; · iexact HIs2
    isplitr; · iexact HIr2O
    isplitl [Hsb2]; · iexact Hsb2
    isplitl [Hab_pay1]; · iexact Hab_pay1
    isplitl [HO]; · iexact HO
    isplitl [Hts2]; · iexact Hts2
    isplitr; · iexact HRs2
    isplitl [Htr2O]; · iexact Htr2O
    iexact HRr2O
  iintro ⟨Hcs2, HO⟩
  sl_exec
  -- slab 0 has landed: its two halves are loaded through the whole receive buffer
  icases Har0_pay1 with ⟨Hs0, %hH0⟩
  iapply (wp_load 𝒱₀ (c : Thread nD τ) none Set.univ (m := (commM : Memref sig .tc .vmem S3x256x128 .bf16)) loadK0_sub) $$ Hs0; iintro Hs0
  sl_exec
  iapply (wp_load 𝒱₀ (c : Thread nD τ) none Set.univ (m := (commM : Memref sig .tc .vmem S3x256x128 .bf16)) loadV0_sub) $$ Hs0; iintro Hs0
  sl_exec
  -- slab 1
  icases Har1_pay1 with ⟨Hs1, %hH1⟩
  iapply (wp_load 𝒱₀ (c : Thread nD τ) none Set.univ (m := (commM : Memref sig .tc .vmem S3x256x128 .bf16)) loadK1_sub) $$ Hs1; iintro Hs1
  iapply (wp_load 𝒱₀ (c : Thread nD τ) none Set.univ (m := (commM : Memref sig .tc .vmem S3x256x128 .bf16)) loadV1_sub) $$ Hs1; iintro Hs1
  rw [prog_ret_bind]
  sl_exec
  -- slab 2
  icases Har2_pay1 with ⟨Hs2, %hH2⟩
  iapply (wp_load 𝒱₀ (c : Thread nD τ) none Set.univ (m := (commM : Memref sig .tc .vmem S3x256x128 .bf16)) loadK2_sub) $$ Hs2; iintro Hs2
  iapply (wp_load 𝒱₀ (c : Thread nD τ) none Set.univ (m := (commM : Memref sig .tc .vmem S3x256x128 .bf16)) loadV2_sub) $$ Hs2; iintro Hs2
  rw [prog_ret_bind]
  sl_exec
  -- every transfer has read the packed buffer and every slab has landed: the eight scoped cells close
  imod (Rounds.cell_close ER (rd m) (Set.mem_univ (K (c, 0))) (fun h => h) (R := 0 + 1) (duties_later m (e0C c))) $$ [Hae0] with Hz0
  · isplitr; · iexact HIe0
    iexact Hae0
  imod (Rounds.cell_close ER (rd m) (Set.mem_univ (K (c, 1))) (fun h => h) (R := 0 + 1) (duties_later m (e1C c))) $$ [Hae1] with Hz1
  · isplitr; · iexact HIe1
    iexact Hae1
  imod (Rounds.cell_close ER (rd m) (Set.mem_univ (K (c, 3))) (fun h => h) (R := 0 + 1) (duties_later m (s0C c))) $$ [Has0] with Hz3
  · isplitr; · iexact HIs0
    iexact Has0
  imod (Rounds.cell_close ER (rd m) (Set.mem_univ (K (c, 4))) (fun h => h) (R := 0 + 1) (duties_later m (s1C c))) $$ [Has1] with Hz4
  · isplitr; · iexact HIs1
    iexact Has1
  imod (Rounds.cell_close ER (rd m) (Set.mem_univ (K (c, 5))) (fun h => h) (R := 0 + 1) (duties_later m (s2C c))) $$ [Has2] with Hz5
  · isplitr; · iexact HIs2
    iexact Has2
  imod (Rounds.cell_close ER (rd m) (Set.mem_univ (K (c, 6))) (fun h => h) (R := 0 + 1) (duties_later m (r0C c))) $$ [Har0] with Hz6
  · isplitr; · iexact HIr0
    iexact Har0
  imod (Rounds.cell_close ER (rd m) (Set.mem_univ (K (c, 7))) (fun h => h) (R := 0 + 1) (duties_later m (r1C c))) $$ [Har1] with Hz7
  · isplitr; · iexact HIr1
    iexact Har1
  imod (Rounds.cell_close ER (rd m) (Set.mem_univ (K (c, 8))) (fun h => h) (R := 0 + 1) (duties_later m (r2C c))) $$ [Har2] with Hz8
  · isplitr; · iexact HIr2
    iexact Har2
  -- what was stored is the device's result: the three received slabs read back what their senders packed
  have hout : (Memref.whole cc0_stg3_0 : Memref sig .tc .vmem S256x64 .f32).view.writes (Elt F) fo
      [⟨Rect.unit (s := S256x64) ![0, 0] S256x64.size inb_S256x64_S256x64_0_0,
        k0_pay13 (sound_body.sl.r_1 m c) (sound_body.sl.r_5 m c Har0_pay1_v Har1_pay1_v) (sound_body.sl.r_6 m c Har0_pay1_v Har1_pay1_v)
          ((commM : Memref sig .tc .vmem S3x256x128 .bf16).view.readAt (Elt F) rK2.toLoadRect Har2_pay1_v)
          ((commM : Memref sig .tc .vmem S3x256x128 .bf16).view.readAt (Elt F) rV2.toLoadRect Har2_pay1_v)⟩] = outAt m c := by
    rw [write_out]
    exact out_eq m c Har0_pay1_v Har1_pay1_v Har2_pay1_v hH0 hH1 hH2
  rw [hout]
  sl_step
  unfold BodyPost
  isplitl [Has0_pay1 Has1_pay1 Has2_pay1]
  · iapply (send_rejoin (F := F) c Has0_pay1_v Has1_pay1_v Has2_pay1_v)
    unfold sendPts
    isplitl [Has0_pay1]; · iexact Has0_pay1
    isplitl [Has1_pay1]; · iexact Has1_pay1
    iexact Has2_pay1
  isplitl [Hs0 Hs1 Hs2]
  · iexists Har0_pay1_v, Har1_pay1_v, Har2_pay1_v
    unfold slabPts0 slabPts1 slabPts2
    isplitl [Hs0]; · iexact Hs0
    isplitl [Hs1]; · iexact Hs1
    iexact Hs2
  isplitl [Hz0 Hz1 Hz3 Hz4 Hz5 Hz6 Hz7 Hz8]
  · isplitl [Hz0]; · iexact Hz0
    isplitl [Hz1]; · iexact Hz1
    isplitl [Hz3]; · iexact Hz3
    isplitl [Hz4]; · iexact Hz4
    isplitl [Hz5]; · iexact Hz5
    isplitl [Hz6]; · iexact Hz6
    isplitl [Hz7]; · iexact Hz7
    iexact Hz8
  isplitl [HO]
  · iexists _; iexact HO
  unfold stgPts
  isplitl [Hq]; · iexact Hq
  isplitl [Hk]; · iexact Hk
  isplitl [Hv]; · iexact Hv
  iexact Ho

end Body

end Cert.KernelIdeal.Ring

end
-- ==== Proof.KRingPacked.lean ====
/-
  The value step of a landing. A device packs its narrowed keys into columns 0–63 and its narrowed values into columns
  64–127 of its [256, 128] buffer, by two stores over whatever the buffer held; the whole buffer is copied into slab t of
  another device's [3, 256, 128] receive buffer, over whatever that held; then the two [1, 256, 64] rectangles of slab t
  that the receiver loads — columns 0–63 and columns 64–127 — read back the sender's packed keys and values.

  Index by index: the element (0, p, o + e) of slab t is the element (p, o + e) of the copied buffer (the slab, squeezed,
  has the same row-major order); for o = 0 the second store left it alone and the first wrote the key (p, e) there; for
  o = 64 the second store wrote the value (p, e) there; and the [256, 64] vector seen as [1, 256, 64] has at (0, p, e) its
  element (p, e).
-/
import proofs.«900383_g7700000000000384_dist_ring_attn_i_s256_d64_v7x_i4_f32_1_alg».proof.Proof.KRingSched
import Idealize.ShloMosaic.Lib.Pipeline.Value
import Idealize.ShloMosaic.Lib.ValueIdx

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two store rectangles of the packed buffer: columns 0–63 and columns 64–127, all 256 rows. -/
abbrev rA : Rect S256x128 := Rect.unit (s := S256x128) ![0, 0] S256x64.size inb_S256x128_S256x64_0_0
abbrev rB : Rect S256x128 := Rect.unit (s := S256x128) ![0, 64] S256x64.size inb_S256x128_S256x64_0_64

/-! ## The packed buffer, read at an index -/

section Packed
variable {Val : EltTy → Type}

/-- After the two stores, column e < 64 of row p holds what the first store wrote at (p, e): the second store's
    columns start at 64. -/
theorem read_packed_lo (f0 : (sendM : Memref sig .tc .vmem S256x128 .bf16).view.ty.Contents Val) (wA wB : S256x64.Idx → Val .bf16)
    (p : Fin 256) (e : Fin 64) (he : 0 + e.val < 128) :
    (sendM : Memref sig .tc .vmem S256x128 .bf16).view.read Val
        (((sendM : Memref sig .tc .vmem S256x128 .bf16).access rB : View sig .tc _ _ _).write Val
          (((sendM : Memref sig .tc .vmem S256x128 .bf16).access rA : View sig .tc _ _ _).write Val f0 wA Finset.univ) wB Finset.univ)
        (ValueIdx.ix2 p (⟨0 + e.val, he⟩ : Fin 128))
      = wA (ValueIdx.ix2 p e) := by
  have hx : (ValueIdx.ix2 p (⟨0 + e.val, he⟩ : Fin 128) : S256x128.Idx) = rA.emb (ValueIdx.ix2 p e) := by
    funext a
    match a with
    | ⟨0, _⟩ => exact Fin.ext (show p.val = 0 + 1 * p.val by omega)
    | ⟨1, _⟩ => exact Fin.ext (show 0 + e.val = 0 + 1 * e.val by omega)
  have hno : rA.emb (ValueIdx.ix2 p e) ∉ (Finset.univ : Finset rB.shape.Idx).map rB.emb := by
    intro hm
    obtain ⟨j, -, hj⟩ := Finset.mem_map.mp hm
    have h1 := congrArg (fun i : S256x128.Idx => (i ⟨1, by decide⟩).val) hj
    change 64 + 1 * (j ⟨1, by decide⟩).val = 0 + 1 * e.val at h1
    have := e.isLt
    omega
  rw [hx, View.read_slice_write_of_not_mem rB _ wB Finset.univ hno]
  exact View.read_slice_write_emb rA f0 wA (Finset.mem_univ _)

/-- After the two stores, column 64 + e of row p holds what the second store wrote at (p, e). -/
theorem read_packed_hi (f1 : (sendM : Memref sig .tc .vmem S256x128 .bf16).view.ty.Contents Val) (wB : S256x64.Idx → Val .bf16)
    (p : Fin 256) (e : Fin 64) (he : 64 + e.val < 128) :
    (sendM : Memref sig .tc .vmem S256x128 .bf16).view.read Val
        (((sendM : Memref sig .tc .vmem S256x128 .bf16).access rB : View sig .tc _ _ _).write Val f1 wB Finset.univ)
        (ValueIdx.ix2 p (⟨64 + e.val, he⟩ : Fin 128))
      = wB (ValueIdx.ix2 p e) := by
  have hx : (ValueIdx.ix2 p (⟨64 + e.val, he⟩ : Fin 128) : S256x128.Idx) = rB.emb (ValueIdx.ix2 p e) := by
    funext a
    match a with
    | ⟨0, _⟩ => exact Fin.ext (show p.val = 0 + 1 * p.val by omega)
    | ⟨1, _⟩ => exact Fin.ext (show 64 + e.val = 64 + 1 * e.val by omega)
  rw [hx]
  exact View.read_slice_write_emb rB f1 wB (Finset.mem_univ _)

/-- A [256, 128] vector P copied into slab t of the receive buffer, then read through the [1, 256, 64] rectangle of that
    slab whose columns start at o: at (x0, x1, x2) it is P at (x1, o + x2). The slab squeezed to [256, 128] lists its
    elements in the same row-major order as the slab itself, so writing P through it puts P (x1, y) at (t, x1, y). -/
theorem read_landed (t : ℕ) (inbR : ∀ a, (![t, 0, 0] : Fin 3 → ℕ) a + S1x256x128.size a ≤ S3x256x128.size a)
    (o : ℕ) (inbL : ∀ a, (![t, 0, o] : Fin 3 → ℕ) a + S1x256x64.size a ≤ S3x256x128.size a)
    (fd : (commM : Memref sig .tc .vmem S3x256x128 .bf16).view.ty.Contents Val) (P : S256x128.Idx → Val .bf16)
    (x0 : Fin 1) (x1 : Fin 256) (x2 : Fin 64) (ho : o + x2.val < 128) :
    (commM : Memref sig .tc .vmem S3x256x128 .bf16).view.readAt Val (Rect.unit (s := S3x256x128) ![t, 0, o] S1x256x64.size inbL).toLoadRect
        ((((commM : Memref sig .tc .vmem S3x256x128 .bf16).slice (Rect.unit (s := S3x256x128) ![t, 0, 0] S1x256x128.size inbR) (fun _ => rfl)).squeeze S256x128 squeezes_S1x256x128_S256x128).view.write Val fd P Finset.univ)
        (ValueIdx.ix3 x0 x1 x2)
      = P (ValueIdx.ix2 x1 (⟨o + x2.val, ho⟩ : Fin 128)) := by
  have hc : S1x256x128.ShapeCasts S256x128 := squeezes_S1x256x128_S256x128.numel_eq
  -- the slab, read back whole, is P
  have h1 : (((commM : Memref sig .tc .vmem S3x256x128 .bf16).slice (Rect.unit (s := S3x256x128) ![t, 0, 0] S1x256x128.size inbR) (fun _ => rfl)).squeeze S256x128 squeezes_S1x256x128_S256x128).view.read Val ((((commM : Memref sig .tc .vmem S3x256x128 .bf16).slice (Rect.unit (s := S3x256x128) ![t, 0, 0] S1x256x128.size inbR) (fun _ => rfl)).squeeze S256x128 squeezes_S1x256x128_S256x128).view.write Val fd P Finset.univ) = P :=
    View.read_write_univ (v := (((commM : Memref sig .tc .vmem S3x256x128 .bf16).slice (Rect.unit (s := S3x256x128) ![t, 0, 0] S1x256x128.size inbR) (fun _ => rfl)).squeeze S256x128 squeezes_S1x256x128_S256x128).view) fd P
  -- and the squeezed slab reads the slab's rectangle of the receive buffer, shape-cast
  have h2 : shapeCast S256x128 ((commM : Memref sig .tc .vmem S3x256x128 .bf16).view.readAt Val
      (Rect.unit (s := S3x256x128) ![t, 0, 0] S1x256x128.size inbR).toLoadRect
      ((((commM : Memref sig .tc .vmem S3x256x128 .bf16).slice (Rect.unit (s := S3x256x128) ![t, 0, 0] S1x256x128.size inbR) (fun _ => rfl)).squeeze S256x128 squeezes_S1x256x128_S256x128).view.write Val fd P Finset.univ)) hc = P := h1
  have hx0 : x0.val = 0 := by have := x0.isLt; omega
  have hz : (S1x256x128.rowMajor (ValueIdx.ix3 x0 x1 (⟨o + x2.val, ho⟩ : Fin 128))).val
      = (S256x128.rowMajor (ValueIdx.ix2 x1 (⟨o + x2.val, ho⟩ : Fin 128))).val := by
    rw [Shape.rowMajor_val_three, Shape.rowMajor_val_two]
    show (x0.val * 256 + x1.val) * 128 + (o + x2.val) = x1.val * 128 + (o + x2.val)
    rw [hx0]; omega
  have h3 := (shapeCast_apply _ hc (ValueIdx.ix2 x1 (⟨o + x2.val, ho⟩ : Fin 128))
    (ValueIdx.ix3 x0 x1 (⟨o + x2.val, ho⟩ : Fin 128)) hz).symm.trans (congrFun h2 _)
  refine Eq.trans ?_ h3
  refine congrArg ((commM : Memref sig .tc .vmem S3x256x128 .bf16).view.read Val ((((commM : Memref sig .tc .vmem S3x256x128 .bf16).slice (Rect.unit (s := S3x256x128) ![t, 0, 0] S1x256x128.size inbR) (fun _ => rfl)).squeeze S256x128 squeezes_S1x256x128_S256x128).view.write Val fd P Finset.univ)) ?_
  funext a
  match a with
  | ⟨0, _⟩ => exact Fin.ext (show t + 1 * x0.val = t + 1 * x0.val from rfl)
  | ⟨1, _⟩ => exact Fin.ext (show 0 + 1 * x1.val = 0 + 1 * x1.val from rfl)
  | ⟨2, _⟩ => exact Fin.ext (show o + 1 * x2.val = 0 + 1 * (o + x2.val) by omega)

end Packed

/-! ## What a device packs, and what a slab holds once it has landed -/

variable (m : (ℓ : Loc nD τ sig) → Buf (Elt F) ℓ)

/-- The packed buffer of device d after its two stores over earlier contents f0: the narrowed keys in columns 0–63, the
    narrowed values in columns 64–127. -/
def packedOn (d : Dev nD) (f0 : Buf (Elt F) ((sendM : Memref sig .tc .vmem S256x128 .bf16).view.loc (d : Thread nD τ))) :
    Buf (Elt F) ((sendM : Memref sig .tc .vmem S256x128 .bf16).view.loc (d : Thread nD τ)) :=
  ((sendM : Memref sig .tc .vmem S256x128 .bf16).access rB : View sig .tc _ _ _).write (Elt F)
    (((sendM : Memref sig .tc .vmem S256x128 .bf16).access rA : View sig .tc _ _ _).write (Elt F) f0 (k0_pay1 (kB m d)) Finset.univ)
    (k0_pay3 (k0_pay2 (vB m d))) Finset.univ

/-- A [256, 64] vector seen as [1, 256, 64] has at (x0, x1, x2) its element (x1, x2). -/
theorem cast_slab_apply {α : Type} (w : S256x64.Idx → α) (x0 : Fin 1) (x1 : Fin 256) (x2 : Fin 64) :
    shapeCast S1x256x64 w casts_slab (ValueIdx.ix3 x0 x1 x2) = w (ValueIdx.ix2 x1 x2) := by
  have hx0 : x0.val = 0 := by have := x0.isLt; omega
  refine shapeCast_apply w casts_slab _ _ ?_
  rw [Shape.rowMajor_val_three, Shape.rowMajor_val_two]
  show x1.val * 64 + x2.val = (x0.val * 256 + x1.val) * 64 + x2.val
  rw [hx0]; omega

/-- Slab t of c's receive buffer, after d's packed buffer was copied into it over earlier contents fd, reads d's packed
    keys through its columns 0–63 and d's packed values through its columns 64–127. -/
theorem landed_of_packed (t : ℕ) (inbR : ∀ a, (![t, 0, 0] : Fin 3 → ℕ) a + S1x256x128.size a ≤ S3x256x128.size a)
    (inbK : ∀ a, (![t, 0, 0] : Fin 3 → ℕ) a + S1x256x64.size a ≤ S3x256x128.size a)
    (inbV : ∀ a, (![t, 0, 64] : Fin 3 → ℕ) a + S1x256x64.size a ≤ S3x256x128.size a)
    (d c : Dev nD) (f0 : Buf (Elt F) ((sendM : Memref sig .tc .vmem S256x128 .bf16).view.loc (d : Thread nD τ)))
    (fd : Buf (Elt F) ((((commM : Memref sig .tc .vmem S3x256x128 .bf16).slice (Rect.unit (s := S3x256x128) ![t, 0, 0] S1x256x128.size inbR) (fun _ => rfl)).squeeze S256x128 squeezes_S1x256x128_S256x128).view.loc (c : Thread nD τ))) :
    (commM : Memref sig .tc .vmem S3x256x128 .bf16).view.readAt (Elt F) (Rect.unit (s := S3x256x128) ![t, 0, 0] S1x256x64.size inbK).toLoadRect
        ((((commM : Memref sig .tc .vmem S3x256x128 .bf16).slice (Rect.unit (s := S3x256x128) ![t, 0, 0] S1x256x128.size inbR) (fun _ => rfl)).squeeze S256x128 squeezes_S1x256x128_S256x128).view.write (Elt F) fd ((sendM : Memref sig .tc .vmem S256x128 .bf16).view.read (Elt F) (packedOn m d f0)) Finset.univ) = slabK m d
    ∧ (commM : Memref sig .tc .vmem S3x256x128 .bf16).view.readAt (Elt F) (Rect.unit (s := S3x256x128) ![t, 0, 64] S1x256x64.size inbV).toLoadRect
        ((((commM : Memref sig .tc .vmem S3x256x128 .bf16).slice (Rect.unit (s := S3x256x128) ![t, 0, 0] S1x256x128.size inbR) (fun _ => rfl)).squeeze S256x128 squeezes_S1x256x128_S256x128).view.write (Elt F) fd ((sendM : Memref sig .tc .vmem S256x128 .bf16).view.read (Elt F) (packedOn m d f0)) Finset.univ) = slabV m d := by
  refine ⟨funext fun x => ?_, funext fun x => ?_⟩
  · obtain ⟨x0, x1, x2, rfl⟩ : ∃ (x0 : Fin 1) (x1 : Fin 256) (x2 : Fin 64), x = ValueIdx.ix3 x0 x1 x2 :=
      ⟨x 0, x 1, x 2, ValueIdx.eq_ix3 x⟩
    have ho : 0 + x2.val < 128 := by have := x2.isLt; omega
    refine (read_landed (Val := Elt F) t inbR 0 inbK fd _ x0 x1 x2 ho).trans ?_
    refine Eq.trans ?_ (cast_slab_apply (k0_pay1 (kB m d)) x0 x1 x2).symm
    exact read_packed_lo (Val := Elt F) f0 (k0_pay1 (kB m d)) (k0_pay3 (k0_pay2 (vB m d))) x1 x2 ho
  · obtain ⟨x0, x1, x2, rfl⟩ : ∃ (x0 : Fin 1) (x1 : Fin 256) (x2 : Fin 64), x = ValueIdx.ix3 x0 x1 x2 :=
      ⟨x 0, x 1, x 2, ValueIdx.eq_ix3 x⟩
    have ho : 64 + x2.val < 128 := by have := x2.isLt; omega
    refine (read_landed (Val := Elt F) t inbR 64 inbV fd _ x0 x1 x2 ho).trans ?_
    refine Eq.trans ?_ (cast_slab_apply (k0_pay3 (k0_pay2 (vB m d))) x0 x1 x2).symm
    exact read_packed_hi (Val := Elt F) _ (k0_pay3 (k0_pay2 (vB m d))) x1 x2 ho

theorem holds0_of_packed (d c : Dev nD) (f0 : Buf (Elt F) ((sendM : Memref sig .tc .vmem S256x128 .bf16).view.loc (d : Thread nD τ)))
    (fd : Buf (Elt F) ((slab0 : Memref sig .tc .vmem S256x128 .bf16).view.loc (c : Thread nD τ))) :
    Holds0 m d c ((slab0 : Memref sig .tc .vmem S256x128 .bf16).view.write (Elt F) fd
      ((sendM : Memref sig .tc .vmem S256x128 .bf16).view.read (Elt F) (packedOn m d f0)) Finset.univ) :=
  landed_of_packed m 0 inb_S3x256x128_S1x256x128_0_0_0 inb_S3x256x128_S1x256x64_0_0_0 inb_S3x256x128_S1x256x64_0_0_64 d c f0 fd

theorem holds1_of_packed (d c : Dev nD) (f0 : Buf (Elt F) ((sendM : Memref sig .tc .vmem S256x128 .bf16).view.loc (d : Thread nD τ)))
    (fd : Buf (Elt F) ((slab1 : Memref sig .tc .vmem S256x128 .bf16).view.loc (c : Thread nD τ))) :
    Holds1 m d c ((slab1 : Memref sig .tc .vmem S256x128 .bf16).view.write (Elt F) fd
      ((sendM : Memref sig .tc .vmem S256x128 .bf16).view.read (Elt F) (packedOn m d f0)) Finset.univ) :=
  landed_of_packed m 1 inb_S3x256x128_S1x256x128_1_0_0 inb_S3x256x128_S1x256x64_1_0_0 inb_S3x256x128_S1x256x64_1_0_64 d c f0 fd

theorem holds2_of_packed (d c : Dev nD) (f0 : Buf (Elt F) ((sendM : Memref sig .tc .vmem S256x128 .bf16).view.loc (d : Thread nD τ)))
    (fd : Buf (Elt F) ((slab2 : Memref sig .tc .vmem S256x128 .bf16).view.loc (c : Thread nD τ))) :
    Holds2 m d c ((slab2 : Memref sig .tc .vmem S256x128 .bf16).view.write (Elt F) fd
      ((sendM : Memref sig .tc .vmem S256x128 .bf16).view.read (Elt F) (packedOn m d f0)) Finset.univ) :=
  landed_of_packed m 2 inb_S3x256x128_S1x256x128_2_0_0 inb_S3x256x128_S1x256x64_2_0_0 inb_S3x256x128_S1x256x64_2_0_64 d c f0 fd

end Cert.Kernel.Ring

end
-- ==== Proof.KRingLoads.lean ====
/-
  What the six loads read lies in the slab held. A load of the receive buffer through the [1, 256, 64] rectangle at
  (t, 0, 0) or (t, 0, 64) reads only indices whose leading coordinate is t + j for some j < 1, that is t: indices of slab t.
-/
import proofs.«900383_g7700000000000384_dist_ring_attn_i_s256_d64_v7x_i4_f32_1_alg».proof.Proof.KRingSched
import proofs.«900383_g7700000000000384_dist_ring_attn_i_s256_d64_v7x_i4_f32_1_alg».proof.Proof.KRingSlabs

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An index the whole receive buffer reads through the [1, 256, 64] rectangle at (T, 0, o) has leading coordinate T: the
    rectangle has one coordinate on the leading axis. -/
theorem load_leading (T o : ℕ) (inbL : ∀ a, (![T, 0, o] : Fin 3 → ℕ) a + S1x256x64.size a ≤ S3x256x128.size a)
    (i : S3x256x128.Idx)
    (hi : i ∈ (commM : Memref sig .tc .vmem S3x256x128 .bf16).view.setOn (Rect.unit (s := S3x256x128) ![T, 0, o] S1x256x64.size inbL).toLoadRect.set) :
    (i 0).val = T := by
  obtain ⟨x, hx, rfl⟩ := Finset.mem_map.mp hi
  obtain ⟨j, hj, hxj⟩ := (LoadRect.mem_set _).mp hx 0
  have hj' : j < 1 := hj
  have hxj' : (x 0).val = T + 1 * j := hxj
  show (x 0).val = T
  omega

theorem loadK0_sub : (commM : Memref sig .tc .vmem S3x256x128 .bf16).view.setOn (rK0.toLoadRect).set ⊆ (slab0 : Memref sig .tc .vmem S256x128 .bf16).view.set :=
  fun i hi => (mem_slab0 i).mpr (load_leading 0 0 _ i hi)
theorem loadV0_sub : (commM : Memref sig .tc .vmem S3x256x128 .bf16).view.setOn (rV0.toLoadRect).set ⊆ (slab0 : Memref sig .tc .vmem S256x128 .bf16).view.set :=
  fun i hi => (mem_slab0 i).mpr (load_leading 0 64 _ i hi)
theorem loadK1_sub : (commM : Memref sig .tc .vmem S3x256x128 .bf16).view.setOn (rK1.toLoadRect).set ⊆ (slab1 : Memref sig .tc .vmem S256x128 .bf16).view.set :=
  fun i hi => (mem_slab1 i).mpr (load_leading 1 0 _ i hi)
theorem loadV1_sub : (commM : Memref sig .tc .vmem S3x256x128 .bf16).view.setOn (rV1.toLoadRect).set ⊆ (slab1 : Memref sig .tc .vmem S256x128 .bf16).view.set :=
  fun i hi => (mem_slab1 i).mpr (load_leading 1 64 _ i hi)
theorem loadK2_sub : (commM : Memref sig .tc .vmem S3x256x128 .bf16).view.setOn (rK2.toLoadRect).set ⊆ (slab2 : Memref sig .tc .vmem S256x128 .bf16).view.set :=
  fun i hi => (mem_slab2 i).mpr (load_leading 2 0 _ i hi)
theorem loadV2_sub : (commM : Memref sig .tc .vmem S3x256x128 .bf16).view.setOn (rV2.toLoadRect).set ⊆ (slab2 : Memref sig .tc .vmem S256x128 .bf16).view.set :=
  fun i hi => (mem_slab2 i).mpr (load_leading 2 64 _ i hi)

end Cert.Kernel.Ring

end
-- ==== Proof.KRingShares.lean ====
/-
  The packed buffer back in one piece. The three transfers read the packed buffer at three shares — the left half, and the
  two halves of the right half — and each hands its share back at some contents. Two holders of the same elements agree on
  them, so the three contents are one on the buffer; the two quarters then make the right half and the two halves the whole.
-/
import proofs.«900383_g7700000000000384_dist_ring_attn_i_s256_d64_v7x_i4_f32_1_alg».proof.Proof.KRingSched

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The three shares of the packed buffer, each at some contents, are the whole buffer at one contents. -/
theorem send_rejoin (c : Dev nD) (fa fb fc : Buf (Elt F) (((sendM : Memref sig .tc .vmem S256x128 .bf16)).view.loc (c : Thread nD τ))) :
    iprop(sendPts sh0 c fa ∗ sendPts sh1 c fb ∗ sendPts sh2 c fc) ⊢ (iprop(∃ f, sendPts fullShare c f) : sProp 𝕄) := by
  unfold sendPts
  iintro ⟨Ha, Hb, Hc⟩
  -- the two quarters agree on the buffer, and make the right half
  icombine Hb Hc as Hbc
  ihave %hbc := BI.Region.is_agree $$ Hbc
  icases Hbc with ⟨Hb, Hc⟩
  ihave Hc' := (Entails.of_eq (BI.Region.is_congr (f := fc) (g := fb)
    fun i hi => ((hbc i (Finset.mem_inter.mpr ⟨hi, hi⟩)).1).symm)) $$ Hc
  icombine Hb Hc' as Hr
  -- the two halves agree on the buffer, and make the whole
  icombine Ha Hr as Har
  ihave %har := BI.Region.is_agree $$ Har
  icases Har with ⟨Ha, Hr⟩
  ihave Hr' := (Entails.of_eq (BI.Region.is_congr (f := fb) (g := fa)
    fun i hi => ((har i (Finset.mem_inter.mpr ⟨hi, hi⟩)).1).symm)) $$ Hr
  icombine Ha Hr' as H
  iexists fa
  iexact H

end Cert.Kernel.Ring

end
-- ==== Proof.KRingBody.lean ====
/-
  One device's body, stepped once at a symbolic device.

  The device signals the three devices that will send to it, handing each the slab of its receive buffer that device writes;
  packs its narrowed keys and values side by side; for each of its three destinations waits for that destination's signal, then
  starts the transfer of the packed buffer into the slab it was handed, lending the transfer a share of the packed buffer;
  accumulates over its own keys and values; for each slab in turn waits for it to land and accumulates over the sender's packed
  keys and values; writes the quotient; and waits for its three transfers to have read the packed buffer.
-/
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.KRingBodySpec
import proofs.«900383_g7700000000000384_dist_ring_attn_i_s256_d64_v7x_i4_f32_1_alg».proof.Proof.KRingPacked
import proofs.«900383_g7700000000000384_dist_ring_attn_i_s256_d64_v7x_i4_f32_1_alg».proof.Proof.KRingLoads
import proofs.«900383_g7700000000000384_dist_ring_attn_i_s256_d64_v7x_i4_f32_1_alg».proof.Proof.KRingShares
import Idealize.ShloMosaic.Lib.Pipeline.Launch
import Idealize.ShloMosaic.Lib.Pipeline.Kit
import Idealize.ShloMosaic.Lib.Tactic

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ)

section ExU
variable (c : Dev nD)
theorem ex_slab0_rl_u : (iprop(∃ f, ((slab0 : Memref sig .tc .vmem S256x128 .bf16).view.loc ((rgt (lft c) : Dev nD) : Thread nD τ) ↦[(slab0 : Memref sig .tc .vmem S256x128 .bf16).view.set]{fullShare} f)) : sProp 𝕄)
    = iprop(∃ f, ((slab0 : Memref sig .tc .vmem S256x128 .bf16).view.loc (c : Thread nD τ) ↦[(slab0 : Memref sig .tc .vmem S256x128 .bf16).view.set]{fullShare} f)) := ex_slab0_rl (F := F) c
theorem ex_slab1_lr_u : (iprop(∃ f, ((slab1 : Memref sig .tc .vmem S256x128 .bf16).view.loc ((lft (rgt c) : Dev nD) : Thread nD τ) ↦[(slab1 : Memref sig .tc .vmem S256x128 .bf16).view.set]{fullShare} f)) : sProp 𝕄)
    = iprop(∃ f, ((slab1 : Memref sig .tc .vmem S256x128 .bf16).view.loc (c : Thread nD τ) ↦[(slab1 : Memref sig .tc .vmem S256x128 .bf16).view.set]{fullShare} f)) := ex_slab1_lr (F := F) c
theorem ex_slab2_oo_u : (iprop(∃ f, ((slab2 : Memref sig .tc .vmem S256x128 .bf16).view.loc ((opp (opp c) : Dev nD) : Thread nD τ) ↦[(slab2 : Memref sig .tc .vmem S256x128 .bf16).view.set]{fullShare} f)) : sProp 𝕄)
    = iprop(∃ f, ((slab2 : Memref sig .tc .vmem S256x128 .bf16).view.loc (c : Thread nD τ) ↦[(slab2 : Memref sig .tc .vmem S256x128 .bf16).view.set]{fullShare} f)) := ex_slab2_oo (F := F) c
end ExU

attribute [local sl_rounds] duties_e0C amount_e0C payload_e0C expect_e0C mem_e0C duties_e1C amount_e1C payload_e1C expect_e1C mem_e1C duties_bC amount_bC payload_bC expect_bC mem_bC duties_s0C amount_s0C payload_s0C expect_s0C mem_s0C duties_s1C amount_s1C payload_s1C expect_s1C mem_s1C duties_s2C amount_s2C payload_s2C expect_s2C mem_s2C duties_r0C amount_r0C payload_r0C expect_r0C mem_r0C duties_r1C amount_r1C payload_r1C expect_r1C mem_r1C duties_r2C amount_r2C payload_r2C expect_r2C mem_r2C pay_e0 pay_e1 pay_b pay_s0 pay_s1 pay_s2 pay_r0 pay_r1 pay_r2 ex_slab0_rl ex_slab1_lr ex_slab2_oo ex_slab0_rl_u ex_slab1_lr_u ex_slab2_oo_u rgt_lft lft_rgt opp_opp slabPts0 slabPts1 slabPts2 sendPts

/-! ## The levels: what a device may wait for while it still owes -/

/-- Everything in `O` lies on receive cells. -/
def OnRecv (O : CellTallies nD τ sig Unit) : Prop := ∀ g u, 0 < O g u → ∃ (d : Dev nD) (k : Fin 9), 6 ≤ k.val ∧ g = kcell (d, k)

theorem onRecv_tally (d : Dev nD) (k : Fin 9) (hk : 6 ≤ k.val) (n : ℕ) : OnRecv (tallyAt (kcell (d, k)) () n) := fun g u hg => by
  rw [tallyAt_apply] at hg
  by_cases h : g = kcell (d, k) ∧ u = ()
  · exact ⟨d, k, hk, h.1⟩
  · rw [if_neg h] at hg; exact absurd hg (Nat.lt_irrefl 0)
theorem onRecv_add {A B : CellTallies nD τ sig Unit} (hA : OnRecv A) (hB : OnRecv B) : OnRecv (A + B) := fun g u hg => by
  rw [Pi.add_apply, Finsupp.add_apply] at hg
  rcases Nat.pos_of_ne_zero (fun h => by omega : A g u + B g u ≠ 0) |> fun _ => (Nat.eq_zero_or_pos (A g u)) with h | h
  · exact hB g u (by omega)
  · exact hA g u h

omit [FloatOps F] in
/-- An entry or barrier cell may be waited on while owing only receive credits: its level is below theirs. -/
theorem mayWait_low (c : Dev nD) (k : Fin 9) (hk : k.val < 3) (O : CellTallies nD τ sig Unit) (hO : OnRecv O) :
    (levAts Lset lv : sProp 𝕄) ⊢ MayWait (c : Thread nD τ) (csem k) () O :=
  MayOwe.of_cut (L := Lset) (lev := lv) 1
    (fun p hp => by rw [Finset.mem_singleton.mp hp, Lset_tc]; exact Finset.mem_singleton_self _)
    (fun g u hg => by obtain ⟨d, k', _, rfl⟩ := hO g u hg; rw [Lset_tc]; exact Finset.mem_singleton_self _)
    (fun p hp => by rw [Finset.mem_singleton.mp hp]; exact le_of_eq ((lv_kcell c k ()).trans (by unfold lvk; rw [if_pos hk])))
    (fun g u hg => by
      obtain ⟨d, k', hk', rfl⟩ := hO g u hg
      rw [lv_kcell]; unfold lvk; rw [if_neg (by omega), if_pos hk']; decide)

omit [FloatOps F] in
theorem hz2 : (![0, 0] : Fin 2 → Nat) = fun _ => 0 := funext fun a => by fin_cases a <;> rfl
theorem readAt_kB (d : Dev nD) : (Memref.whole cc0_stg1_0 : Memref sig .tc .vmem S256x64 .f32).view.readAt (Elt F)
    (Rect.unit (s := S256x64) ![0, 0] S256x64.size inb_S256x64_S256x64_0_0).toLoadRect (kB m d) = kB m d :=
  Memref.readAt_unit_zero (Elt F) cc0_stg1_0 hz2 _ _
theorem readAt_vB (d : Dev nD) : (Memref.whole cc0_stg2_0 : Memref sig .tc .vmem S256x64 .f32).view.readAt (Elt F)
    (Rect.unit (s := S256x64) ![0, 0] S256x64.size inb_S256x64_S256x64_0_0).toLoadRect (vB m d) = vB m d :=
  Memref.readAt_unit_zero (Elt F) cc0_stg2_0 hz2 _ _
theorem readAt_qB (d : Dev nD) : (Memref.whole cc0_stg0_0 : Memref sig .tc .vmem S256x64 .f32).view.readAt (Elt F)
    (Rect.unit (s := S256x64) ![0, 0] S256x64.size inb_S256x64_S256x64_0_0).toLoadRect (qB m d) = qB m d :=
  Memref.readAt_unit_zero (Elt F) cc0_stg0_0 hz2 _ _
/-- The packed buffer as the list of its two stores. -/
theorem packedOn_eq_writes (d : Dev nD) (f0 : Buf (Elt F) ((sendM : Memref sig .tc .vmem S256x128 .bf16).view.loc (d : Thread nD τ))) :
    (sendM : Memref sig .tc .vmem S256x128 .bf16).view.writes (Elt F) f0
      [⟨rB, k0_pay3 (k0_pay2 (vB m d))⟩, ⟨rA, k0_pay1 (kB m d)⟩] = packedOn m d f0 := rfl
theorem amt_slab0 : (slab0 : Memref sig .tc .vmem S256x128 .bf16).view.amount (SemLoc.dma rS0) = N := by decide
theorem amt_slab1 : (slab1 : Memref sig .tc .vmem S256x128 .bf16).view.amount (SemLoc.dma rS1) = N := by decide
theorem amt_slab2 : (slab2 : Memref sig .tc .vmem S256x128 .bf16).view.amount (SemLoc.dma rS2) = N := by decide

/-- The transfer of slab 0, to `rgt c`: the send rule at the ring's cells. -/
theorem wp_send0 (K : Dev nD × Fin 9 → ℕ) (c : Dev nD)
    {hsc : (slab0 : Memref sig ((rgt c).tc : Thread nD τ).2.kind .vmem S256x128 .bf16).view.ref.isScScratch = false}
    {hsrc : (sendM : Memref sig .tc .vmem S256x128 .bf16).view.WordExact} {hdst : (slab0 : Memref sig .tc .vmem S256x128 .bf16).view.WordExact}
    {hsem : DmaTarget.Typed .vmem (.dma rS0) (.remote ((rgt c).tc : Thread nD τ) (slab0 : Memref sig .tc .vmem S256x128 .bf16) (.dma sS0) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab0 : Memref sig .tc .vmem S256x128 .bf16).view.loc ((rgt c : Dev nD) : Thread nD τ)))
    (hH : Holds0 m c (rgt c) ((slab0 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r0C (rgt c)) () N) :
    iprop(cellInv ER (rd m) (K (c, 3)) (s0C c) ∗ cellInv ER (rd m) (K (rgt c, 6)) (r0C (rgt c))
        ∗ ((sendM : Memref sig .tc .vmem S256x128 .bf16).view.loc (c : Thread nD τ) ↦[(sendM : Memref sig .tc .vmem S256x128 .bf16).view.set]{sh0} fs)
        ∗ ((slab0 : Memref sig .tc .vmem S256x128 .bf16).view.loc ((rgt c : Dev nD) : Thread nD τ) ↦[(slab0 : Memref sig .tc .vmem S256x128 .bf16).view.set]{fullShare} fd)
        ∗ owes (c : Thread nD τ) O₁ W
        ∗ dutyTok ER (s0C c) 0 () ∗ reached ER (s0C c) 0
        ∗ dutyTok ER (r0C (rgt c)) 0 () ∗ reached ER (r0C (rgt c)) 0)
      ⊢ iprop(((cred (tallyAt (s0C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((rgt c).tc : Thread nD τ) slab0 (.dma sS0) hsc) (.dma rS0) hsrc hdst hsem) k) Q) :=
  Rounds.wp_send_pointsTo 𝒱₀ ER (rd m) (c : Thread nD τ) none (κ₁ := K (c, 3)) (κ₂ := K (rgt c, 6))
    (r₁ := 0) (r₂ := 0) (d₁ := ()) (d₂ := ()) (fd := fd) (q := sh0) (fs := fs)
    (mem_s0C m c) (mem_r0C m (rgt c)) () () N amt_slab0 (amount_s0C m c ()) (amount_r0C m (rgt c) ()) O hO (W := W)
    (by rw [payload_s0C, pay_s0]; unfold sendPts; iintro H; iexists fs; iexact H)
    (by
      rw [payload_r0C, pay_r0, lft_rgt]; unfold slabPts0
      iintro H; iexists _
      isplitl [H]; · iexact H
      ipureintro; exact hH)

/-- The transfer of slab 1, to `lft c`: the send rule at the ring's cells. -/
theorem wp_send1 (K : Dev nD × Fin 9 → ℕ) (c : Dev nD)
    {hsc : (slab1 : Memref sig ((lft c).tc : Thread nD τ).2.kind .vmem S256x128 .bf16).view.ref.isScScratch = false}
    {hsrc : (sendM : Memref sig .tc .vmem S256x128 .bf16).view.WordExact} {hdst : (slab1 : Memref sig .tc .vmem S256x128 .bf16).view.WordExact}
    {hsem : DmaTarget.Typed .vmem (.dma rS1) (.remote ((lft c).tc : Thread nD τ) (slab1 : Memref sig .tc .vmem S256x128 .bf16) (.dma sS1) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab1 : Memref sig .tc .vmem S256x128 .bf16).view.loc ((lft c : Dev nD) : Thread nD τ)))
    (hH : Holds1 m c (lft c) ((slab1 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r1C (lft c)) () N) :
    iprop(cellInv ER (rd m) (K (c, 4)) (s1C c) ∗ cellInv ER (rd m) (K (lft c, 7)) (r1C (lft c))
        ∗ ((sendM : Memref sig .tc .vmem S256x128 .bf16).view.loc (c : Thread nD τ) ↦[(sendM : Memref sig .tc .vmem S256x128 .bf16).view.set]{sh1} fs)
        ∗ ((slab1 : Memref sig .tc .vmem S256x128 .bf16).view.loc ((lft c : Dev nD) : Thread nD τ) ↦[(slab1 : Memref sig .tc .vmem S256x128 .bf16).view.set]{fullShare} fd)
        ∗ owes (c : Thread nD τ) O₁ W
        ∗ dutyTok ER (s1C c) 0 () ∗ reached ER (s1C c) 0
        ∗ dutyTok ER (r1C (lft c)) 0 () ∗ reached ER (r1C (lft c)) 0)
      ⊢ iprop(((cred (tallyAt (s1C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((lft c).tc : Thread nD τ) slab1 (.dma sS1) hsc) (.dma rS1) hsrc hdst hsem) k) Q) :=
  Rounds.wp_send_pointsTo 𝒱₀ ER (rd m) (c : Thread nD τ) none (κ₁ := K (c, 4)) (κ₂ := K (lft c, 7))
    (r₁ := 0) (r₂ := 0) (d₁ := ()) (d₂ := ()) (fd := fd) (q := sh1) (fs := fs)
    (mem_s1C m c) (mem_r1C m (lft c)) () () N amt_slab1 (amount_s1C m c ()) (amount_r1C m (lft c) ()) O hO (W := W)
    (by rw [payload_s1C, pay_s1]; unfold sendPts; iintro H; iexists fs; iexact H)
    (by
      rw [payload_r1C, pay_r1, rgt_lft]; unfold slabPts1
      iintro H; iexists _
      isplitl [H]; · iexact H
      ipureintro; exact hH)

/-- The transfer of slab 2, to `opp c`: the send rule at the ring's cells. -/
theorem wp_send2 (K : Dev nD × Fin 9 → ℕ) (c : Dev nD)
    {hsc : (slab2 : Memref sig ((opp c).tc : Thread nD τ).2.kind .vmem S256x128 .bf16).view.ref.isScScratch = false}
    {hsrc : (sendM : Memref sig .tc .vmem S256x128 .bf16).view.WordExact} {hdst : (slab2 : Memref sig .tc .vmem S256x128 .bf16).view.WordExact}
    {hsem : DmaTarget.Typed .vmem (.dma rS2) (.remote ((opp c).tc : Thread nD τ) (slab2 : Memref sig .tc .vmem S256x128 .bf16) (.dma sS2) hsc)}
    {α : Type} {Q : α → sProp 𝕄} {k : PUnit → Prog (TpuEff nD τ sig (Elt F) Λ₀ .tc) α}
    (fs : Buf (Elt F) ((sendM : Memref sig .tc .vmem S256x128 .bf16).view.loc (c : Thread nD τ)))
    (fd : Buf (Elt F) ((slab2 : Memref sig .tc .vmem S256x128 .bf16).view.loc ((opp c : Dev nD) : Thread nD τ)))
    (hH : Holds2 m c (opp c) ((slab2 : Memref sig .tc .vmem S256x128 .bf16).view.write (Elt F) fd ((sendM : Memref sig .tc .vmem S256x128 .bf16).view.read (Elt F) fs) Finset.univ))
    (O₁ O : CellTallies nD τ sig Unit) (W : Waits sig Unit)
    (hO : O₁ = O + tallyAt (r2C (opp c)) () N) :
    iprop(cellInv ER (rd m) (K (c, 5)) (s2C c) ∗ cellInv ER (rd m) (K (opp c, 8)) (r2C (opp c))
        ∗ ((sendM : Memref sig .tc .vmem S256x128 .bf16).view.loc (c : Thread nD τ) ↦[(sendM : Memref sig .tc .vmem S256x128 .bf16).view.set]{sh2} fs)
        ∗ ((slab2 : Memref sig .tc .vmem S256x128 .bf16).view.loc ((opp c : Dev nD) : Thread nD τ) ↦[(slab2 : Memref sig .tc .vmem S256x128 .bf16).view.set]{fullShare} fd)
        ∗ owes (c : Thread nD τ) O₁ W
        ∗ dutyTok ER (s2C c) 0 () ∗ reached ER (s2C c) 0
        ∗ dutyTok ER (r2C (opp c)) 0 () ∗ reached ER (r2C (opp c)) 0)
      ⊢ iprop(((cred (tallyAt (s2C c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote ((opp c).tc : Thread nD τ) slab2 (.dma sS2) hsc) (.dma rS2) hsrc hdst hsem) k) Q) :=
  Rounds.wp_send_pointsTo 𝒱₀ ER (rd m) (c : Thread nD τ) none (κ₁ := K (c, 5)) (κ₂ := K (opp c, 8))
    (r₁ := 0) (r₂ := 0) (d₁ := ()) (d₂ := ()) (fd := fd) (q := sh2) (fs := fs)
    (mem_s2C m c) (mem_r2C m (opp c)) () () N amt_slab2 (amount_s2C m c ()) (amount_r2C m (opp c) ()) O hO (W := W)
    (by rw [payload_s2C, pay_s2]; unfold sendPts; iintro H; iexists fs; iexact H)
    (by
      rw [payload_r2C, pay_r2, opp_opp]; unfold slabPts2
      iintro H; iexists _
      isplitl [H]; · iexact H
      ipureintro; exact hH)

/-- What lands in slab 0 when the sender's buffer is the list of its two stores, whatever the spelling of their payloads. -/
theorem holds0_of_writes (d c' : Dev nD) (f0 : Buf (Elt F) ((sendM : Memref sig .tc .vmem S256x128 .bf16).view.loc (d : Thread nD τ)))
    (fd : Buf (Elt F) ((slab0 : Memref sig .tc .vmem S256x128 .bf16).view.loc (c' : Thread nD τ)))
    (wA wB : FVec F S256x64 .bf16) (hA : wA = k0_pay1 (kB m d)) (hB : wB = k0_pay3 (k0_pay2 (vB m d))) :
    Holds0 m d c' ((slab0 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds0_of_packed m d c' f0 fd

/-- What lands in slab 1 when the sender's buffer is the list of its two stores, whatever the spelling of their payloads. -/
theorem holds1_of_writes (d c' : Dev nD) (f0 : Buf (Elt F) ((sendM : Memref sig .tc .vmem S256x128 .bf16).view.loc (d : Thread nD τ)))
    (fd : Buf (Elt F) ((slab1 : Memref sig .tc .vmem S256x128 .bf16).view.loc (c' : Thread nD τ)))
    (wA wB : FVec F S256x64 .bf16) (hA : wA = k0_pay1 (kB m d)) (hB : wB = k0_pay3 (k0_pay2 (vB m d))) :
    Holds1 m d c' ((slab1 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds1_of_packed m d c' f0 fd

/-- What lands in slab 2 when the sender's buffer is the list of its two stores, whatever the spelling of their payloads. -/
theorem holds2_of_writes (d c' : Dev nD) (f0 : Buf (Elt F) ((sendM : Memref sig .tc .vmem S256x128 .bf16).view.loc (d : Thread nD τ)))
    (fd : Buf (Elt F) ((slab2 : Memref sig .tc .vmem S256x128 .bf16).view.loc (c' : Thread nD τ)))
    (wA wB : FVec F S256x64 .bf16) (hA : wA = k0_pay1 (kB m d)) (hB : wB = k0_pay3 (k0_pay2 (vB m d))) :
    Holds2 m d c' ((slab2 : Memref sig .tc .vmem S256x128 .bf16).view.write (Elt F) fd
      ((sendM : Memref sig .tc .vmem S256x128 .bf16).view.read (Elt F)
        ((sendM : Memref sig .tc .vmem S256x128 .bf16).view.writes (Elt F) f0 [⟨rB, wB⟩, ⟨rA, wA⟩])) Finset.univ) := by
  subst hA hB; exact holds2_of_packed m d c' f0 fd

/-- A returned value bound to a continuation is the continuation at it. -/
theorem prog_ret_bind {E : Type → Type} {α β : Type} (a : α) (k : α → Prog E β) : (Prog.ret a).bind k = k a := rfl

/-! ## The body -/

omit [FloatOps F] in
theorem hz2' : (![0, 0] : Fin 2 → Nat) = fun _ => 0 := hz2

/-- A store through the result buffer's whole rectangle leaves its payload. -/
theorem write_out (f w : (cc0_stg3_0 : Ref sig .tc).ty.Contents (Elt F)) :
    (Memref.whole cc0_stg3_0 : Memref sig .tc .vmem S256x64 .f32).view.writes (Elt F) f
      [⟨Rect.unit (s := S256x64) ![0, 0] S256x64.size inb_S256x64_S256x64_0_0, w⟩] = w := by
  rw [View.writes_singleton]
  exact Memref.write_access_unit_zero_univ (Elt F) cc0_stg3_0 hz2 _ f w

/-- The three whole-rectangle reads of the staged blocks, through the buffer's view spelled directly. -/
theorem readAt_qB' (d : Dev nD) : View.readAt (Elt F) (View.whole cc0_stg0_0)
    (Rect.unit (s := S256x64) ![0, 0] S256x64.size inb_S256x64_S256x64_0_0).toLoadRect (qB m d) = qB m d := readAt_qB m d
theorem readAt_kB' (d : Dev nD) : View.readAt (Elt F) (View.whole cc0_stg1_0)
    (Rect.unit (s := S256x64) ![0, 0] S256x64.size inb_S256x64_S256x64_0_0).toLoadRect (kB m d) = kB m d := readAt_kB m d
theorem readAt_vB' (d : Dev nD) : View.readAt (Elt F) (View.whole cc0_stg2_0)
    (Rect.unit (s := S256x64) ![0, 0] S256x64.size inb_S256x64_S256x64_0_0).toLoadRect (vB m d) = vB m d := readAt_vB m d

/-- The stored quotient, with the three received slabs reading back what their senders packed, is the device's result. -/
theorem out_eq (c : Dev nD)
    (v0 : Buf (Elt F) ((slab0 : Memref sig .tc .vmem S256x128 .bf16).view.loc (c : Thread nD τ)))
    (v1 : Buf (Elt F) ((slab1 : Memref sig .tc .vmem S256x128 .bf16).view.loc (c : Thread nD τ)))
    (v2 : Buf (Elt F) ((slab2 : Memref sig .tc .vmem S256x128 .bf16).view.loc (c : Thread nD τ)))
    (h0 : Holds0 m (lft c) c v0) (h1 : Holds1 m (rgt c) c v1) (h2 : Holds2 m (opp c) c v2) :
    k0_pay13 (k0_pay4 ((Memref.whole cc0_stg0_0 : Memref sig .tc .vmem S256x64 .f32).view.readAt (Elt F) (Rect.unit (s := S256x64) ![0, 0] S256x64.size inb_S256x64_S256x64_0_0).toLoadRect (qB m c)))
      (k0_pay11 (k0_pay4 ((Memref.whole cc0_stg0_0 : Memref sig .tc .vmem S256x64 .f32).view.readAt (Elt F) (Rect.unit (s := S256x64) ![0, 0] S256x64.size inb_S256x64_S256x64_0_0).toLoadRect (qB m c))) (k0_pay6 ((Memref.whole cc0_stg0_0 : Memref sig .tc .vmem S256x64 .f32).view.readAt (Elt F) (Rect.unit (s := S256x64) ![0, 0] S256x64.size inb_S256x64_S256x64_0_0).toLoadRect (qB m c)) ((Memref.whole cc0_stg1_0 : Memref sig .tc .vmem S256x64 .f32).view.readAt (Elt F) (Rect.unit (s := S256x64) ![0, 0] S256x64.size inb_S256x64_S256x64_0_0).toLoadRect (kB m c))) (k0_pay8 ((commM : Memref sig .tc .vmem S3x256x128 .bf16).view.readAt (Elt F) rK0.toLoadRect v0)) ((commM : Memref sig .tc .vmem S3x256x128 .bf16).view.readAt (Elt F) rK1.toLoadRect v1))
      (k0_pay12 (k0_pay4 ((Memref.whole cc0_stg0_0 : Memref sig .tc .vmem S256x64 .f32).view.readAt (Elt F) (Rect.unit (s := S256x64) ![0, 0] S256x64.size inb_S256x64_S256x64_0_0).toLoadRect (qB m c))) (k0_pay7 ((Memref.whole cc0_stg0_0 : Memref sig .tc .vmem S256x64 .f32).view.readAt (Elt F) (Rect.unit (s := S256x64) ![0, 0] S256x64.size inb_S256x64_S256x64_0_0).toLoadRect (qB m c)) ((Memref.whole cc0_stg1_0 : Memref sig .tc .vmem S256x64 .f32).view.readAt (Elt F) (Rect.unit (s := S256x64) ![0, 0] S256x64.size inb_S256x64_S256x64_0_0).toLoadRect (kB m c)) ((Memref.whole cc0_stg2_0 : Memref sig .tc .vmem S256x64 .f32).view.readAt (Elt F) (Rect.unit (s := S256x64) ![0, 0] S256x64.size inb_S256x64_S256x64_0_0).toLoadRect (vB m c))) (k0_pay8 ((commM : Memref sig .tc .vmem S3x256x128 .bf16).view.readAt (Elt F) rK0.toLoadRect v0)) ((commM : Memref sig .tc .vmem S3x256x128 .bf16).view.readAt (Elt F) rV0.toLoadRect v0) ((commM : Memref sig .tc .vmem S3x256x128 .bf16).view.readAt (Elt F) rK1.toLoadRect v1) ((commM : Memref sig .tc .vmem S3x256x128 .bf16).view.readAt (Elt F) rV1.toLoadRect v1))
      ((commM : Memref sig .tc .vmem S3x256x128 .bf16).view.readAt (Elt F) rK2.toLoadRect v2) ((commM : Memref sig .tc .vmem S3x256x128 .bf16).view.readAt (Elt F) rV2.toLoadRect v2) = outAt m c := by
  unfold outAt outOfR
  rw [readAt_qB, readAt_kB, readAt_vB, h0.1, h0.2, h1.1, h1.2, h2.1, h2.2]

section Body

set_option maxHeartbeats 16000000 in
/-- The body of device `c`, from the ghost state the launch deals it and its buffers, to its result written, its scratch buffers
    whole again and its eight scoped cells closed. -/
theorem sound_body : SoundBody (F := F) m := by
  intro K c W f0 fc fo
  unfold BodyPre invs posns marks payToks waitCred
  iintro ⟨⟨#HIe0, #HIe1, #HIb, #HIs0, #HIs1, #HIs2, #HIr0, #HIr1, #HIr2, #HIe0L, #HIe1R, #HIbO, #HIr0R, #HIr1L, #HIr2O⟩,
    ⟨Hae0, Hae1, Hab, Has0, Has1, Has2, Har0, Har1, Har2⟩,
    ⟨#HRe0L, #HRe1R, #HRbO, #HRr0R, #HRr1L, #HRr2O, #HRs0, #HRs1, #HRs2, #HRr0, #HRr1, #HRr2⟩,
    ⟨Hte0L, Hte1R, HtbO, Hts0, Hts1, Hts2, Htr0R, Htr1L, Htr2O⟩,
    ⟨Hce0, Hce1, Hcb, Hcr0, Hcr1, Hcr2⟩, #Hlev, HO, Hsb, Hm0, Hm1, Hm2, Hq, Hk, Hv, Ho⟩
  have hd1 := dev1_eq c; have hd2 := dev2_eq c; have hd3 := dev3_eq c
  have hd4 := dev4_eq c; have hd5 := dev5_eq c; have hd6 := dev6_eq c
  have hw0 : (levAts Lset lv : sProp 𝕄) ⊢ MayWait (c : Thread nD τ) (SemLoc.reg eS0) () (tallyAt (r2C (opp c)) () N + tallyAt (r1C (lft c)) () N + tallyAt (r0C (rgt c)) () N) :=
    mayWait_low (F := F) c 0 (by decide) _
      (onRecv_add (onRecv_add (onRecv_tally (opp c) 8 (by decide) N) (onRecv_tally (lft c) 7 (by decide) N)) (onRecv_tally (rgt c) 6 (by decide) N))
  have hw1 : (levAts Lset lv : sProp 𝕄) ⊢ MayWait (c : Thread nD τ) (SemLoc.reg eS1) () (tallyAt (r2C (opp c)) () N + tallyAt (r1C (lft c)) () N) :=
    mayWait_low (F := F) c 1 (by decide) _ (onRecv_add (onRecv_tally (opp c) 8 (by decide) N) (onRecv_tally (lft c) 7 (by decide) N))
  have hw2 : (levAts Lset lv : sProp 𝕄) ⊢ MayWait (c : Thread nD τ) (SemLoc.reg barS) () (tallyAt (r2C (opp c)) () N) :=
    mayWait_low (F := F) c 2 (by decide) _ (onRecv_tally (opp c) 8 (by decide) N)
  unfold O₀ O₃ sendPts slabPts0 slabPts1 slabPts2 stgPts
  sl_unfold [cc0_body]
  sl_exec
  -- the value half of the packed buffer, as the run names it, is the narrowed value block
  have hv31 : sound_body.sl.v31 m c = k0_pay3 (k0_pay2 (vB m c)) := by
    unfold sound_body.sl.v31 sound_body.sl.r
    rw [readAt_vB]; rfl
  -- the first transfer, to `rgt c`, reading the packed buffer at the first of three shares
  icases Hsb with ⟨Hsb0, Hsb⟩
  iapply (wp_send0 m K c _ Hae0_pay1_v
      (holds0_of_writes m c (rgt c) f0 Hae0_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N + tallyAt (r1C (lft c)) () N + tallyAt (r0C (rgt c)) () N) (tallyAt (r2C (opp c)) () N + tallyAt (r1C (lft c)) () N) _ rfl) $$ [Hsb0 Hae0_pay1 HO Hts0 Htr0R]
  · isplitr; · iexact HIs0
    isplitr; · iexact HIr0R
    isplitl [Hsb0]; · iexact Hsb0
    isplitl [Hae0_pay1]; · iexact Hae0_pay1
    isplitl [HO]; · iexact HO
    isplitl [Hts0]; · iexact Hts0
    isplitr; · iexact HRs0
    isplitl [Htr0R]; · iexact Htr0R
    iexact HRr0R
  iintro ⟨Hcs0, HO⟩
  sl_exec
  -- the second, to `lft c`
  icases Hsb with ⟨Hsb1, Hsb2⟩
  iapply (wp_send1 m K c _ Hae1_pay1_v
      (holds1_of_writes m c (lft c) f0 Hae1_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N + tallyAt (r1C (lft c)) () N) (tallyAt (r2C (opp c)) () N) _ rfl) $$ [Hsb1 Hae1_pay1 HO Hts1 Htr1L]
  · isplitr; · iexact HIs1
    isplitr; · iexact HIr1L
    isplitl [Hsb1]; · iexact Hsb1
    isplitl [Hae1_pay1]; · iexact Hae1_pay1
    isplitl [HO]; · iexact HO
    isplitl [Hts1]; · iexact Hts1
    isplitr; · iexact HRs1
    isplitl [Htr1L]; · iexact Htr1L
    iexact HRr1L
  iintro ⟨Hcs1, HO⟩
  sl_exec
  -- the third, to `opp c`
  iapply (wp_send2 m K c _ Hab_pay1_v
      (holds2_of_writes m c (opp c) f0 Hab_pay1_v (k0_pay1 ((Memref.whole cc0_stg1_0 : Memref sig .tc .vmem S256x64 .f32).view.readAt (Elt F) (Rect.unit (s := S256x64) ![0, 0] S256x64.size inb_S256x64_S256x64_0_0).toLoadRect (kB m c))) (sound_body.sl.v31 m c)
        (congrArg k0_pay1 (readAt_kB m c)) hv31)
      (tallyAt (r2C (opp c)) () N) (0) _ (zero_add _).symm) $$ [Hsb2 Hab_pay1 HO Hts2 Htr2O]
  · isplitr; · iexact HIs2
    isplitr; · iexact HIr2O
    isplitl [Hsb2]; · iexact Hsb2
    isplitl [Hab_pay1]; · iexact Hab_pay1
    isplitl [HO]; · iexact HO
    isplitl [Hts2]; · iexact Hts2
    isplitr; · iexact HRs2
    isplitl [Htr2O]; · iexact Htr2O
    iexact HRr2O
  iintro ⟨Hcs2, HO⟩
  sl_exec
  -- slab 0 has landed: its two halves are loaded through the whole receive buffer
  icases Har0_pay1 with ⟨Hs0, %hH0⟩
  iapply (wp_load 𝒱₀ (c : Thread nD τ) none Set.univ (m := (commM : Memref sig .tc .vmem S3x256x128 .bf16)) loadK0_sub) $$ Hs0; iintro Hs0
  sl_exec
  iapply (wp_load 𝒱₀ (c : Thread nD τ) none Set.univ (m := (commM : Memref sig .tc .vmem S3x256x128 .bf16)) loadV0_sub) $$ Hs0; iintro Hs0
  sl_exec
  -- slab 1
  icases Har1_pay1 with ⟨Hs1, %hH1⟩
  iapply (wp_load 𝒱₀ (c : Thread nD τ) none Set.univ (m := (commM : Memref sig .tc .vmem S3x256x128 .bf16)) loadK1_sub) $$ Hs1; iintro Hs1
  iapply (wp_load 𝒱₀ (c : Thread nD τ) none Set.univ (m := (commM : Memref sig .tc .vmem S3x256x128 .bf16)) loadV1_sub) $$ Hs1; iintro Hs1
  rw [prog_ret_bind]
  sl_exec
  -- slab 2
  icases Har2_pay1 with ⟨Hs2, %hH2⟩
  iapply (wp_load 𝒱₀ (c : Thread nD τ) none Set.univ (m := (commM : Memref sig .tc .vmem S3x256x128 .bf16)) loadK2_sub) $$ Hs2; iintro Hs2
  iapply (wp_load 𝒱₀ (c : Thread nD τ) none Set.univ (m := (commM : Memref sig .tc .vmem S3x256x128 .bf16)) loadV2_sub) $$ Hs2; iintro Hs2
  rw [prog_ret_bind]
  sl_exec
  -- every transfer has read the packed buffer and every slab has landed: the eight scoped cells close
  imod (Rounds.cell_close ER (rd m) (Set.mem_univ (K (c, 0))) (fun h => h) (R := 0 + 1) (duties_later m (e0C c))) $$ [Hae0] with Hz0
  · isplitr; · iexact HIe0
    iexact Hae0
  imod (Rounds.cell_close ER (rd m) (Set.mem_univ (K (c, 1))) (fun h => h) (R := 0 + 1) (duties_later m (e1C c))) $$ [Hae1] with Hz1
  · isplitr; · iexact HIe1
    iexact Hae1
  imod (Rounds.cell_close ER (rd m) (Set.mem_univ (K (c, 3))) (fun h => h) (R := 0 + 1) (duties_later m (s0C c))) $$ [Has0] with Hz3
  · isplitr; · iexact HIs0
    iexact Has0
  imod (Rounds.cell_close ER (rd m) (Set.mem_univ (K (c, 4))) (fun h => h) (R := 0 + 1) (duties_later m (s1C c))) $$ [Has1] with Hz4
  · isplitr; · iexact HIs1
    iexact Has1
  imod (Rounds.cell_close ER (rd m) (Set.mem_univ (K (c, 5))) (fun h => h) (R := 0 + 1) (duties_later m (s2C c))) $$ [Has2] with Hz5
  · isplitr; · iexact HIs2
    iexact Has2
  imod (Rounds.cell_close ER (rd m) (Set.mem_univ (K (c, 6))) (fun h => h) (R := 0 + 1) (duties_later m (r0C c))) $$ [Har0] with Hz6
  · isplitr; · iexact HIr0
    iexact Har0
  imod (Rounds.cell_close ER (rd m) (Set.mem_univ (K (c, 7))) (fun h => h) (R := 0 + 1) (duties_later m (r1C c))) $$ [Har1] with Hz7
  · isplitr; · iexact HIr1
    iexact Har1
  imod (Rounds.cell_close ER (rd m) (Set.mem_univ (K (c, 8))) (fun h => h) (R := 0 + 1) (duties_later m (r2C c))) $$ [Har2] with Hz8
  · isplitr; · iexact HIr2
    iexact Har2
  -- what was stored is the device's result: the three received slabs read back what their senders packed
  have hout : (Memref.whole cc0_stg3_0 : Memref sig .tc .vmem S256x64 .f32).view.writes (Elt F) fo
      [⟨Rect.unit (s := S256x64) ![0, 0] S256x64.size inb_S256x64_S256x64_0_0,
        k0_pay13 (sound_body.sl.r_1 m c) (sound_body.sl.r_5 m c Har0_pay1_v Har1_pay1_v) (sound_body.sl.r_6 m c Har0_pay1_v Har1_pay1_v)
          ((commM : Memref sig .tc .vmem S3x256x128 .bf16).view.readAt (Elt F) rK2.toLoadRect Har2_pay1_v)
          ((commM : Memref sig .tc .vmem S3x256x128 .bf16).view.readAt (Elt F) rV2.toLoadRect Har2_pay1_v)⟩] = outAt m c := by
    rw [write_out]
    exact out_eq m c Har0_pay1_v Har1_pay1_v Har2_pay1_v hH0 hH1 hH2
  rw [hout]
  sl_step
  unfold BodyPost
  isplitl [Has0_pay1 Has1_pay1 Has2_pay1]
  · iapply (send_rejoin (F := F) c Has0_pay1_v Has1_pay1_v Has2_pay1_v)
    unfold sendPts
    isplitl [Has0_pay1]; · iexact Has0_pay1
    isplitl [Has1_pay1]; · iexact Has1_pay1
    iexact Has2_pay1
  isplitl [Hs0 Hs1 Hs2]
  · iexists Har0_pay1_v, Har1_pay1_v, Har2_pay1_v
    unfold slabPts0 slabPts1 slabPts2
    isplitl [Hs0]; · iexact Hs0
    isplitl [Hs1]; · iexact Hs1
    iexact Hs2
  isplitl [Hz0 Hz1 Hz3 Hz4 Hz5 Hz6 Hz7 Hz8]
  · isplitl [Hz0]; · iexact Hz0
    isplitl [Hz1]; · iexact Hz1
    isplitl [Hz3]; · iexact Hz3
    isplitl [Hz4]; · iexact Hz4
    isplitl [Hz5]; · iexact Hz5
    isplitl [Hz6]; · iexact Hz6
    isplitl [Hz7]; · iexact Hz7
    iexact Hz8
  isplitl [HO]
  · iexists _; iexact HO
  unfold stgPts
  isplitl [Hq]; · iexact Hq
  isplitl [Hk]; · iexact Hk
  isplitl [Hv]; · iexact Hv
  iexact Ho

end Body

end Cert.Kernel.Ring

end
-- ==== Proof.RefRun.lean ====
/-
  The one-device reference: its run read back as a pure term of the three whole arrays, and the frame that follows from it.
-/
import proofs.«900383_g7700000000000384_dist_ring_attn_i_s256_d64_v7x_i4_f32_1_alg».proof.Defs
import proofs.«900383_g7700000000000384_dist_ring_attn_i_s256_d64_v7x_i4_f32_1_alg».proof.Proof.Gen.ReferenceIdeal
import proofs.«900383_g7700000000000384_dist_ring_attn_i_s256_d64_v7x_i4_f32_1_alg».proof.Proof.Gen.ReferenceIdeal.Run
import proofs.«900383_g7700000000000384_dist_ring_attn_i_s256_d64_v7x_i4_f32_1_alg».proof.Proof.Gen.ReferenceIdeal.Read
import proofs.«900383_g7700000000000384_dist_ring_attn_i_s256_d64_v7x_i4_f32_1_alg».proof.Proof.Gen.Pre_finite_inputs_ReferenceIdeal

noncomputable section

open Idealize.ShloMosaic Idealize.ShloMosaic.TcCoe Idealize.SL.Sem

namespace Cert.Proof.RefSide

/-- Every weakly fair execution of the reference terminates; its result array then holds the last stage of the
    reference (val_main_v15) as a function of the three whole argument arrays at launch, and the three argument
    arrays are unchanged. This is the shape the reference half of the value claim asks for, the witness being
    that stage's value. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v15)
        = Cert.ReferenceIdeal.Read.val_main_v15 (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)) :=
  (θ_run Cert.ReferenceIdeal.defs _ _).mono
    (fun _ h => ⟨(h 0).1.trans (Cert.ReferenceIdeal.Read.val_main_v15_eq (F := Ideal) _ _ _), (h 0).2⟩)
    (Cert.ReferenceIdeal.Value.run (F := Ideal) m' g')

/-- The reference runs from any memory and leaves its three argument arrays as they were: the frame half of the
    generated run, the precondition unused. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.ValSpec.lean ====
/-
  The arithmetic of the comparison, on the reals and on the extended reals.

  On the reals: a softmax's weights do not depend on the shift subtracted inside the exponentials, so the weighted sum
  `∑ⱼ (exp (sⱼ − m) / ∑ₗ exp (sₗ − m))·vⱼ` is `(∑ⱼ exp sⱼ·vⱼ) / ∑ⱼ exp sⱼ`; a sum over 1024 indices is the sum over four
  slabs of 256, taken in any rotation of the slabs. On the extended reals: a finite sum, a maximum, a quotient by a
  non-zero real and an exponential of reals are the real ones, and three f32 patterns denote 1/8, 64 and −∞.
-/
import Idealize.ShloMosaic.PureOps.Ideal.Laws

noncomputable section

namespace Cert.Proof.RingAttn

open Idealize.ShloMosaic
open scoped BigOperators

/-! ## The reals -/

/-- The shift inside a softmax cancels between the numerator and the denominator. -/
theorem softmax_shift {J : Type*} [Fintype J] (s v : J → ℝ) (m : ℝ) :
    ∑ j, (Real.exp (s j - m) / ∑ l, Real.exp (s l - m)) * v j
      = (∑ j, Real.exp (s j) * v j) / ∑ j, Real.exp (s j) := by
  have hm : ∀ j, Real.exp (s j - m) = Real.exp (s j) * Real.exp (-m) := fun j => by
    rw [← Real.exp_add, sub_eq_add_neg]
  have hE : Real.exp (-m) ≠ 0 := (Real.exp_pos _).ne'
  simp_rw [hm]
  rw [← Finset.sum_mul, Finset.sum_div]
  refine Finset.sum_congr rfl fun j _ => ?_
  rw [mul_div_mul_right _ _ hE, div_mul_eq_mul_div]

/-- A sum over 1024 indices is the sum over four slabs of 256. -/
theorem sum_slabs {M : Type*} [AddCommMonoid M] (f : Fin 1024 → M) :
    ∑ j : Fin 1024, f j = ∑ s : Fin 4, ∑ j : Fin 256, f ⟨256 * s.val + j.val, by omega⟩ := by
  have h := Equiv.sum_comp (finProdFinEquiv : Fin 4 × Fin 256 ≃ Fin (4 * 256)) (fun i : Fin (4 * 256) => f i)
  rw [Fintype.sum_prod_type] at h
  refine h.symm.trans ?_
  refine Finset.sum_congr rfl fun s _ => Finset.sum_congr rfl fun j _ => ?_
  exact congrArg f (Fin.ext (Nat.add_comm _ _))

/-- A sum over four slabs, started at slab `c` and taken in the order `c, c + 3, c + 1, c + 2` modulo 4. -/
theorem sum_fin4_rot {M : Type*} [AddCommMonoid M] (c : Fin 4) (g : Fin 4 → M) :
    ∑ s : Fin 4, g s
      = ((g c + g ⟨(c.val + 3) % 4, Nat.mod_lt _ (by decide)⟩) + g ⟨(c.val + 1) % 4, Nat.mod_lt _ (by decide)⟩)
          + g ⟨(c.val + 2) % 4, Nat.mod_lt _ (by decide)⟩ := by
  rw [Fin.sum_univ_four]
  fin_cases c
  · show g 0 + g 1 + g 2 + g 3 = g 0 + g 3 + g 1 + g 2; abel
  · show g 0 + g 1 + g 2 + g 3 = g 1 + g 0 + g 2 + g 3; abel
  · show g 0 + g 1 + g 2 + g 3 = g 2 + g 1 + g 3 + g 0; abel
  · show g 0 + g 1 + g 2 + g 3 = g 3 + g 2 + g 0 + g 1; abel

/-- Row `j` of slab `s` is row `256·s + j` of the whole array. -/
theorem slab_lt (s : ℕ) (hs : s < 4) (j : Fin 256) : 256 * s + j.val < 1024 := by omega

/-- A sum over 1024 indices as four slab sums, in the order `c, c + 3, c + 1, c + 2` modulo 4. -/
theorem sum_slabs_rot {M : Type*} [AddCommMonoid M] (c : Fin 4) (f : Fin 1024 → M) :
    ∑ j : Fin 1024, f j
      = (((∑ j : Fin 256, f ⟨256 * c.val + j.val, slab_lt c.val c.isLt j⟩)
            + ∑ j : Fin 256, f ⟨256 * ((c.val + 3) % 4) + j.val, slab_lt _ (Nat.mod_lt _ (by decide)) j⟩)
            + ∑ j : Fin 256, f ⟨256 * ((c.val + 1) % 4) + j.val, slab_lt _ (Nat.mod_lt _ (by decide)) j⟩)
          + ∑ j : Fin 256, f ⟨256 * ((c.val + 2) % 4) + j.val, slab_lt _ (Nat.mod_lt _ (by decide)) j⟩ := by
  rw [sum_slabs, sum_fin4_rot c]

/-! ## The extended reals -/

/-- The embedding of the reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The maximum, from `⊥`, of finitely many reals over a non-empty index set is a real. -/
theorem fold_max_coe {ι : Type*} (s : Finset ι) (f : ι → ℝ) (hs : s.Nonempty) :
    ∃ m : ℝ, s.fold max (⊥ : EReal) (fun i => (f i : EReal)) = (m : EReal) := by
  classical
  revert hs
  refine Finset.induction_on s (fun h => absurd h Finset.not_nonempty_empty) fun a s ha ih _ => ?_
  rw [Finset.fold_insert ha]
  rcases s.eq_empty_or_nonempty with rfl | hne
  · exact ⟨f a, by rw [Finset.fold_empty, max_bot_right]⟩
  · obtain ⟨m, hm⟩ := ih hne
    exact ⟨max (f a) m, by rw [hm]; exact (EReal.coe_strictMono.monotone.map_max).symm⟩

/-- A quotient of reals by a non-zero real. -/
theorem div_coe_coe (x y : ℝ) (hy : y ≠ 0) : Ideal.div (x : EReal) (y : EReal) = ((x / y : ℝ) : EReal) := by
  rw [Ideal.div_coe hy, ← EReal.coe_mul, mul_one_div]

/-- The exponential of a real. -/
theorem exp_coe_real (x : ℝ) : Ideal.exp (x : EReal) = ((Real.exp x : ℝ) : EReal) := rfl

/-- The f32 pattern `0x3E000000` denotes one eighth. -/
theorem ofBits_eighth : Ideal.ofBits .f32 0x3E000000#32 = ((1 / 8 : ℝ) : EReal) := by
  simp [Ideal.ofBits, Ideal.ieee, -EReal.coe_mul]; norm_num

/-- The f32 pattern `0x42800000` denotes sixty-four. -/
theorem ofBits_sixtyfour : Ideal.ofBits .f32 0x42800000#32 = ((64 : ℝ) : EReal) := by
  simp [Ideal.ofBits, Ideal.ieee, -EReal.coe_mul]; norm_num

/-- The f32 pattern `0xFF800000` denotes `⊥`. -/
theorem ofBits_negInf : Ideal.ofBits .f32 0xFF800000#32 = ⊥ := by simp [Ideal.ofBits, Ideal.ieee]

/-- The square root of sixty-four is eight. -/
theorem sqrt_sixtyfour : Ideal.sqrt ((64 : ℝ) : EReal) = ((8 : ℝ) : EReal) := by
  show (if (64 : ℝ) < 0 then (⊥ : EReal) else (Real.sqrt 64 : EReal)) = _
  rw [if_neg (by norm_num)]
  congr 1
  rw [show (64 : ℝ) = 8 ^ 2 by norm_num, Real.sqrt_sq (by norm_num)]

end Cert.Proof.RingAttn

end
-- ==== Proof.RingSpec.lean ====
/-
  One device's result as a pure function of what its body loads.

  A device holds 256 query rows `q` and 256 key and value rows `k`, `v` of its own, and receives three more
  key/value slabs, one from each of the other devices. Over the four slabs it accumulates, row by row,
  the sum `l` of `exp (q·0.125 · key)` and the sum `acc` of `exp (q·0.125 · key) · value`, and writes `acc / l`.
  `outOf` is that value, composed from the body's named pure steps in the order the body applies them: the own slab
  first, then the slab received first (`ka`, `va`), second (`kb`, `vb`) and third (`kc`, `vc`).
-/
import proofs.«900383_g7700000000000384_dist_ring_attn_i_s256_d64_v7x_i4_f32_1_alg».proof.Proof.Gen.KernelIdeal.Skeleton

noncomputable section

namespace Cert.Proof.RingAttn

open Idealize.ShloMosaic Cert.KernelIdeal Cert.KernelIdeal.Gen

variable {F : FTy → Type} [FloatOps F]

/-- What a device stores into its result block: a function of its own three loads and of the six loads it makes from the
    three received slabs (keys in columns 0–63, values in columns 64–127 of each slab). -/
def outOf (q k v : Vec F S256x64 .f32) (ka va kb vb kc vc : Vec F S1x256x64 .bf16) : FVec F S256x64 .f32 :=
  k0_pay13 (k0_pay4 q)
    (k0_pay11 (k0_pay4 q) (k0_pay6 q k) (k0_pay8 ka) kb)
    (k0_pay12 (k0_pay4 q) (k0_pay7 q k v) (k0_pay8 ka) va kb vb)
    kc vc

end Cert.Proof.RingAttn

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.ValKernel.lean ====
/-
  One device's result read at an entry.

  Each named pure step of the body is read at an index on the extended reals, where a format change is the identity:
  the scaled queries, the exponentiated score blocks (a product contracted on both operands' last axes, into zero, then
  `exp`), the running row sums and the running weighted sums (a plain product into zero), and the final quotient.
  Composed, entry `(p, e)` of the result is the quotient of
  `0 + ∑ⱼ E₀ⱼ·v(j,e) + ∑ⱼ E₁ⱼ·va(0,j,e) + ∑ⱼ E₂ⱼ·vb(0,j,e) + ∑ⱼ E₃ⱼ·vc(0,j,e)` by `0 + ∑ⱼ E₀ⱼ + ∑ⱼ E₁ⱼ + ∑ⱼ E₂ⱼ + ∑ⱼ E₃ⱼ`,
  with `Eₛⱼ = exp (∑_d (q(p,d)·⅛)·Kₛ(j,d))` for the four key slabs in the order own, first, second, third received.
-/
import proofs.«900383_g7700000000000384_dist_ring_attn_i_s256_d64_v7x_i4_f32_1_alg».proof.Proof.RingSpec
import proofs.«900383_g7700000000000384_dist_ring_attn_i_s256_d64_v7x_i4_f32_1_alg».proof.Proof.LibTransposedDot
import proofs.«900383_g7700000000000384_dist_ring_attn_i_s256_d64_v7x_i4_f32_1_alg».proof.Proof.LibPlainDot
import proofs.«900383_g7700000000000384_dist_ring_attn_i_s256_d64_v7x_i4_f32_1_alg».proof.Proof.LibRowOps

noncomputable section

namespace Cert.Proof.RingAttn

open Idealize.ShloMosaic Idealize.ShloMosaic.ValueIdx Cert.KernelIdeal Cert.KernelIdeal.Gen

/-- The scale the queries are multiplied by: the f32 pattern of one eighth. -/
abbrev cScale : EReal := Ideal.ofBits .f32 0x3E000000#32

/-- A `[1, a, b]` slab cast to `[a, b]` reads, at `(p, e)`, the slab at `(0, p, e)`. -/
theorem slabCast_apply {α : Type} {a b : ℕ} (x : (⟨3, ![1, a, b]⟩ : Shape).Idx → α)
    (h : (⟨3, ![1, a, b]⟩ : Shape).ShapeCasts ⟨2, ![a, b]⟩) (p : Fin a) (e : Fin b) :
    shapeCast ⟨2, ![a, b]⟩ x h (ix2 p e) = x (ix3 (0 : Fin 1) p e) :=
  shapeCast_apply x h _ _ (by
    rw [Shape.rowMajor_val_three, Shape.rowMajor_val_two]
    show ((0 : ℕ) * a + p.val) * b + e.val = p.val * b + e.val
    rw [Nat.zero_mul, Nat.zero_add])

/-- A cast to the same shape reads the same index. -/
theorem idCast_apply {α : Type} {s : Shape} (x : s.Idx → α) (h : s.ShapeCasts s) (i : s.Idx) :
    shapeCast s x h i = x i :=
  shapeCast_apply x h i i rfl

/-- The scaled queries at an index. -/
theorem pay4_apply (q : Vec Ideal S256x64 .f32) (i : S256x64.Idx) :
    k0_pay4 (F := Ideal) q i = q i * cScale := by
  unfold k0_pay4
  show shapeCast S256x64 q shapeCasts_S256x64_S256x64 i * _ = _
  rw [idCast_apply]
  rfl

/-- `exp` of a product contracted on both last axes into zero, at `(p, j)`. -/
theorem expDot_apply (lhs rhs : FVec Ideal S256x64 .bf16) (p j : Fin 256) :
    exp (matmul dot_S256x64_S256x64_S256x256_1_1_0_0_n_n none lhs rhs (constant S256x256 .f32 0x00000000#32)) (ix2 p j)
      = Ideal.exp (∑ d : Fin 64, lhs (ix2 p d) * rhs (ix2 j d)) := by
  show Ideal.exp (FloatOps.matmul (DotDims.transposedRhs 256 64 256) none lhs rhs
      (constant ⟨2, ![256, 256]⟩ .f32 0x00000000#32) (ix2 p j)) = _
  rw [LinkLoss.transposed_matmul_zero_apply]

/-- The own slab's exponentiated scores at `(p, j)`. -/
theorem pay5_apply (q k : Vec Ideal S256x64 .f32) (p j : Fin 256) :
    k0_pay5 (F := Ideal) q k (ix2 p j) = Ideal.exp (∑ d : Fin 64, (q (ix2 p d) * cScale) * k (ix2 j d)) := by
  unfold k0_pay5
  rw [expDot_apply]
  refine congrArg Ideal.exp (Finset.sum_congr rfl fun d _ => ?_)
  rw [pay4_apply]
  show _ * shapeCast S256x64 k shapeCasts_S256x64_S256x64 (ix2 j d) = _
  rw [idCast_apply]

/-- A received slab's exponentiated scores, the slab already cast, at `(p, j)`. -/
theorem pay9_apply (qs kk : FVec Ideal S256x64 .bf16) (p j : Fin 256) :
    k0_pay9 (F := Ideal) qs kk (ix2 p j) = Ideal.exp (∑ d : Fin 64, qs (ix2 p d) * kk (ix2 j d)) := by
  unfold k0_pay9
  rw [expDot_apply]

/-- A received slab's exponentiated scores at `(p, j)`. -/
theorem pay10_apply (qs : FVec Ideal S256x64 .bf16) (kk : Vec Ideal S1x256x64 .bf16) (p j : Fin 256) :
    k0_pay10 (F := Ideal) qs kk (ix2 p j) = Ideal.exp (∑ d : Fin 64, qs (ix2 p d) * kk (ix3 (0 : Fin 1) j d)) := by
  unfold k0_pay10
  rw [expDot_apply]
  refine congrArg Ideal.exp (Finset.sum_congr rfl fun d _ => ?_)
  rw [slabCast_apply]

/-- The row sums of a `[256, 256]` block as a column, at `(p, u)`. -/
theorem rowSumCol_apply (x : FVec Ideal S256x256 .f32) (p : Fin 256) (u : Fin 1) :
    shapeCast S256x1 (multiReduction .add [1] S256 x 0x00000000#32 reduces_S256x256_S256 (.inl rfl) rfl)
        shapeCasts_S256_S256x1 (ix2 p u)
      = ∑ j : Fin 256, x (ix2 p j) := by
  rw [Gcn.Lib.shapeCast_a_a1_apply]
  exact Gcn.Lib.rowSum_apply x reduces_S256x256_S256 (.inl rfl) rfl p

/-- A plain product of a `[256, 256]` block with a `[256, 64]` one into zero, at `(p, e)`. -/
theorem plainDot_apply (lhs : FVec Ideal S256x256 .bf16) (rhs : FVec Ideal S256x64 .bf16) (p : Fin 256) (e : Fin 64) :
    matmul dot_S256x256_S256x64_S256x64_1_0_0_1_n_n none lhs rhs (constant S256x64 .f32 0x00000000#32) (ix2 p e)
      = ∑ j : Fin 256, lhs (ix2 p j) * rhs (ix2 j e) := by
  show FloatOps.matmul (DotDims.plain 256 256 64) none lhs rhs (constant ⟨2, ![256, 64]⟩ .f32 0x00000000#32) (ix2 p e) = _
  rw [Gcn.Lib.plain_matmul_zero_apply]

/-- The row sums after the own slab. -/
theorem pay6_apply (q k : Vec Ideal S256x64 .f32) (p : Fin 256) (u : Fin 1) :
    k0_pay6 (F := Ideal) q k (ix2 p u) = 0 + ∑ j : Fin 256, k0_pay5 (F := Ideal) q k (ix2 p j) := by
  unfold k0_pay6
  show Ideal.ofBits .f32 0x00000000#32 + shapeCast S256x1 _ shapeCasts_S256_S256x1 (ix2 p u) = _
  rw [rowSumCol_apply, Ideal.ofBits_zero_f32]

/-- The weighted sums after the own slab. -/
theorem pay7_apply (q k v : Vec Ideal S256x64 .f32) (p : Fin 256) (e : Fin 64) :
    k0_pay7 (F := Ideal) q k v (ix2 p e) = 0 + ∑ j : Fin 256, k0_pay5 (F := Ideal) q k (ix2 p j) * v (ix2 j e) := by
  unfold k0_pay7
  show Ideal.ofBits .f32 0x00000000#32 + matmul dot_S256x256_S256x64_S256x64_1_0_0_1_n_n none _ _ _ (ix2 p e) = _
  rw [plainDot_apply, Ideal.ofBits_zero_f32]
  refine congrArg (0 + ·) (Finset.sum_congr rfl fun j _ => ?_)
  show _ * shapeCast S256x64 v shapeCasts_S256x64_S256x64 (ix2 j e) = _
  rw [idCast_apply]
  rfl

/-- A received slab cast to a block. -/
theorem pay8_apply (x : Vec Ideal S1x256x64 .bf16) (p : Fin 256) (e : Fin 64) :
    k0_pay8 (F := Ideal) x (ix2 p e) = x (ix3 (0 : Fin 1) p e) := by
  unfold k0_pay8
  rw [slabCast_apply]

/-- The row sums after two more slabs. -/
theorem pay11_apply (qs : FVec Ideal S256x64 .bf16) (l : FVec Ideal S256x1 .f32) (ka : FVec Ideal S256x64 .bf16)
    (kb : Vec Ideal S1x256x64 .bf16) (p : Fin 256) (u : Fin 1) :
    k0_pay11 (F := Ideal) qs l ka kb (ix2 p u)
      = (l (ix2 p u) + ∑ j : Fin 256, k0_pay9 (F := Ideal) qs ka (ix2 p j))
          + ∑ j : Fin 256, k0_pay10 (F := Ideal) qs kb (ix2 p j) := by
  unfold k0_pay11
  show (l (ix2 p u) + shapeCast S256x1 _ shapeCasts_S256_S256x1 (ix2 p u))
      + shapeCast S256x1 _ shapeCasts_S256_S256x1 (ix2 p u) = _
  rw [rowSumCol_apply, rowSumCol_apply]

/-- The weighted sums after two more slabs. -/
theorem pay12_apply (qs : FVec Ideal S256x64 .bf16) (acc : FVec Ideal S256x64 .f32) (ka : FVec Ideal S256x64 .bf16)
    (va kb vb : Vec Ideal S1x256x64 .bf16) (p : Fin 256) (e : Fin 64) :
    k0_pay12 (F := Ideal) qs acc ka va kb vb (ix2 p e)
      = (acc (ix2 p e) + ∑ j : Fin 256, k0_pay9 (F := Ideal) qs ka (ix2 p j) * va (ix3 (0 : Fin 1) j e))
          + ∑ j : Fin 256, k0_pay10 (F := Ideal) qs kb (ix2 p j) * vb (ix3 (0 : Fin 1) j e) := by
  unfold k0_pay12
  show (acc (ix2 p e) + matmul dot_S256x256_S256x64_S256x64_1_0_0_1_n_n none _ _ _ (ix2 p e))
      + matmul dot_S256x256_S256x64_S256x64_1_0_0_1_n_n none _ _ _ (ix2 p e) = _
  rw [plainDot_apply, plainDot_apply]
  congr 1
  · refine congrArg (acc (ix2 p e) + ·) (Finset.sum_congr rfl fun j _ => ?_)
    rw [slabCast_apply]; rfl
  · refine Finset.sum_congr rfl fun j _ => ?_
    rw [slabCast_apply]; rfl

/-- The stored quotient after the last slab. -/
theorem pay13_apply (qs : FVec Ideal S256x64 .bf16) (l : FVec Ideal S256x1 .f32) (acc : FVec Ideal S256x64 .f32)
    (kc vc : Vec Ideal S1x256x64 .bf16) (p : Fin 256) (e : Fin 64) :
    k0_pay13 (F := Ideal) qs l acc kc vc (ix2 p e)
      = Ideal.div
          (acc (ix2 p e) + ∑ j : Fin 256, Ideal.exp (∑ d : Fin 64, qs (ix2 p d) * kc (ix3 (0 : Fin 1) j d)) * vc (ix3 (0 : Fin 1) j e))
          (l (ix2 p (0 : Fin 1)) + ∑ j : Fin 256, Ideal.exp (∑ d : Fin 64, qs (ix2 p d) * kc (ix3 (0 : Fin 1) j d))) := by
  unfold k0_pay13
  show Ideal.div (acc (ix2 p e) + matmul (F := Ideal) dot_S256x256_S256x64_S256x64_1_0_0_1_n_n none _ _ _ (ix2 p e))
      (broadcastTo S256x64 _ broadcasts_S256x1_S256x64 (ix2 p e)) = _
  rw [plainDot_apply, Gcn.Lib.broadcastTo_a1_ab_apply]
  show Ideal.div _ (l (ix2 p (0 : Fin 1)) + shapeCast S256x1 _ shapeCasts_S256_S256x1 (ix2 p (0 : Fin 1))) = _
  rw [rowSumCol_apply]
  have hE : ∀ j : Fin 256,
      exp (matmul dot_S256x64_S256x64_S256x256_1_1_0_0_n_n none qs (shapeCast S256x64 kc shapeCasts_S1x256x64_S256x64)
          (constant S256x256 .f32 0x00000000#32)) (ix2 p j)
        = Ideal.exp (∑ d : Fin 64, qs (ix2 p d) * kc (ix3 (0 : Fin 1) j d)) := fun j => by
    rw [expDot_apply]
    refine congrArg Ideal.exp (Finset.sum_congr rfl fun d _ => ?_)
    rw [slabCast_apply]
  congr 1
  · refine congrArg (acc (ix2 p e) + ·) (Finset.sum_congr rfl fun j _ => ?_)
    rw [slabCast_apply]
    exact congrArg (· * vc (ix3 (0 : Fin 1) j e)) (hE j)
  · exact congrArg (l (ix2 p (0 : Fin 1)) + ·) (Finset.sum_congr rfl fun j _ => hE j)

/-- THE RESULT AT `(p, e)`: the quotient of the weighted sums by the sums of the exponentiated scores, over the four
    slabs in the order own, first, second, third received. -/
theorem outOf_apply (q k v : Vec Ideal S256x64 .f32) (ka va kb vb kc vc : Vec Ideal S1x256x64 .bf16)
    (p : Fin 256) (e : Fin 64) :
    outOf (F := Ideal) q k v ka va kb vb kc vc (ix2 p e)
      = Ideal.div
          ((((0 + ∑ j : Fin 256, Ideal.exp (∑ d : Fin 64, (q (ix2 p d) * cScale) * k (ix2 j d)) * v (ix2 j e))
              + ∑ j : Fin 256, Ideal.exp (∑ d : Fin 64, (q (ix2 p d) * cScale) * ka (ix3 (0 : Fin 1) j d))
                  * va (ix3 (0 : Fin 1) j e))
              + ∑ j : Fin 256, Ideal.exp (∑ d : Fin 64, (q (ix2 p d) * cScale) * kb (ix3 (0 : Fin 1) j d))
                  * vb (ix3 (0 : Fin 1) j e))
              + ∑ j : Fin 256, Ideal.exp (∑ d : Fin 64, (q (ix2 p d) * cScale) * kc (ix3 (0 : Fin 1) j d))
                  * vc (ix3 (0 : Fin 1) j e))
          ((((0 + ∑ j : Fin 256, Ideal.exp (∑ d : Fin 64, (q (ix2 p d) * cScale) * k (ix2 j d)))
              + ∑ j : Fin 256, Ideal.exp (∑ d : Fin 64, (q (ix2 p d) * cScale) * ka (ix3 (0 : Fin 1) j d)))
              + ∑ j : Fin 256, Ideal.exp (∑ d : Fin 64, (q (ix2 p d) * cScale) * kb (ix3 (0 : Fin 1) j d)))
              + ∑ j : Fin 256, Ideal.exp (∑ d : Fin 64, (q (ix2 p d) * cScale) * kc (ix3 (0 : Fin 1) j d))) := by
  unfold outOf
  rw [pay13_apply, pay12_apply, pay11_apply, pay7_apply, pay6_apply]
  simp only [pay9_apply, pay10_apply, pay5_apply, pay8_apply, pay4_apply]

end Cert.Proof.RingAttn

end
-- ==== Proof.ValRef.lean ====
/-
  The one-device reference read at an entry.

  Its stages are read one at a time on the extended reals: the scores `S(i,j) = (∑_d Q(i,d)·K(j,d)) / sqrt 64`, the row
  maximum `M(i)` (a fold of `max` from the initial value `−∞`), the shifted exponentials `exp (S(i,j) − M(i))`, their
  row sums from `0`, the quotient, and the product with `V`. Entry `(i, e)` of the result is
  `∑ⱼ (exp (S(i,j) − M(i)) / (0 + ∑ₗ exp (S(i,l) − M(i))))·V(j,e)`.
-/
import proofs.«900383_g7700000000000384_dist_ring_attn_i_s256_d64_v7x_i4_f32_1_alg».proof.Proof.Gen.ReferenceIdeal.Read
import proofs.«900383_g7700000000000384_dist_ring_attn_i_s256_d64_v7x_i4_f32_1_alg».proof.Proof.LibRowOps

noncomputable section

namespace Cert.Proof.RingAttn

open Idealize.ShloMosaic Idealize.ShloMosaic.ValueIdx Cert.ReferenceIdeal Cert.ReferenceIdeal.Gen Cert.ReferenceIdeal.Read

/-- The reference's score of query row `i` against key row `j`. -/
def refScore (Q K : S1024x64.Idx → EReal) (i j : Fin 1024) : EReal :=
  Ideal.div (∑ d : Fin 64, Q (ix2 i d) * K (ix2 j d)) (Ideal.sqrt (Ideal.ofBits .f32 0x42800000#32))

/-- The reference's row maximum of the scores. -/
def refMax (Q K : S1024x64.Idx → EReal) (i : Fin 1024) : EReal :=
  (Finset.univ : Finset (Fin 1024)).fold max (Ideal.ofBits .f32 0xFF800000#32) (fun j => refScore Q K i j)

/-- The scaled scores at `(i, j)`. -/
theorem v5_apply (Q K : S1024x64.Idx → EReal) (i j : Fin 1024) :
    val_main_v5 (F := Ideal) Q K (ix2 i j) = refScore Q K i j := by
  rw [val_main_v5_apply, val_main_v1_apply, val_main_v4_apply, val_main_v3_apply, val_main_v2_apply, val_main_cst_apply]
  show Ideal.div _ (Ideal.sqrt (Ideal.ofBits .f32 0x42800000#32)) = _
  unfold refScore
  refine congrArg (Ideal.div · _) (Finset.sum_congr rfl fun d _ => ?_)
  rw [val_main_v0_apply]
  have e1 : lidx_main_v1 (ix2 i j) d = ix2 i d := funext fun a => by
    match a with
    | ⟨0, _⟩ => rfl
    | ⟨1, _⟩ => rfl
  have e2 : idx_main_v0 (ridx_main_v1 (ix2 i j) d) = ix2 j d := funext fun a => by
    match a with
    | ⟨0, _⟩ => rfl
    | ⟨1, _⟩ => rfl
  rw [e1, e2]

/-- The row maximum at `i`. -/
theorem v6_apply (Q K : S1024x64.Idx → EReal) (i : Fin 1024) :
    val_main_v6 (F := Ideal) Q K (ix1 i) = refMax Q K i := by
  unfold val_main_v6
  rw [Gcn.Lib.hostRowMax_apply _ _ reducesTo_S1024x1024_S1024_d1 (by decide) h_S_ i]
  unfold refMax
  rw [val_main_cst_0_apply]
  exact congrArg (fun f => (Finset.univ : Finset (Fin 1024)).fold max (Ideal.ofBits .f32 0xFF800000#32) f)
    (funext fun j => v5_apply Q K i j)

/-- The row maximum broadcast over the row. -/
theorem v8_apply (Q K : S1024x64.Idx → EReal) (i j : Fin 1024) :
    val_main_v8 (F := Ideal) Q K (ix2 i j) = refMax Q K i := by
  rw [val_main_v8_apply, val_main_v7_apply, ← v6_apply]
  refine congrArg (val_main_v6 (F := Ideal) Q K) (funext fun a => ?_)
  match a with
  | ⟨0, _⟩ => rfl

/-- The shifted exponentials. -/
theorem v10_apply (Q K : S1024x64.Idx → EReal) (i j : Fin 1024) :
    val_main_v10 (F := Ideal) Q K (ix2 i j) = Ideal.exp (refScore Q K i j - refMax Q K i) := by
  rw [val_main_v10_apply, val_main_v9_apply, v5_apply, v8_apply]
  rfl

/-- Their row sums. -/
theorem v11_apply (Q K : S1024x64.Idx → EReal) (i : Fin 1024) :
    val_main_v11 (F := Ideal) Q K (ix1 i) = 0 + ∑ l : Fin 1024, Ideal.exp (refScore Q K i l - refMax Q K i) := by
  rw [val_main_v11_apply, val_main_cst_1_apply]
  show Ideal.ofBits .f32 0x00000000#32 + _ = _
  rw [Ideal.ofBits_zero_f32]
  refine congrArg (0 + ·) (Finset.sum_congr rfl fun l _ => ?_)
  rw [← v10_apply]
  refine congrArg (val_main_v10 (F := Ideal) Q K) (funext fun a => ?_)
  match a with
  | ⟨0, _⟩ => rfl
  | ⟨1, _⟩ => rfl

/-- The row sums broadcast over the row. -/
theorem v13_apply (Q K : S1024x64.Idx → EReal) (i j : Fin 1024) :
    val_main_v13 (F := Ideal) Q K (ix2 i j) = 0 + ∑ l : Fin 1024, Ideal.exp (refScore Q K i l - refMax Q K i) := by
  rw [val_main_v13_apply, val_main_v12_apply, ← v11_apply]
  refine congrArg (val_main_v11 (F := Ideal) Q K) (funext fun a => ?_)
  match a with
  | ⟨0, _⟩ => rfl

/-- The softmax weights. -/
theorem v14_apply (Q K : S1024x64.Idx → EReal) (i j : Fin 1024) :
    val_main_v14 (F := Ideal) Q K (ix2 i j)
      = Ideal.div (Ideal.exp (refScore Q K i j - refMax Q K i))
          (0 + ∑ l : Fin 1024, Ideal.exp (refScore Q K i l - refMax Q K i)) := by
  rw [val_main_v14_apply, v10_apply, v13_apply]
  rfl

/-- THE REFERENCE AT `(i, e)`. -/
theorem ref_apply (Q K V : S1024x64.Idx → EReal) (i : Fin 1024) (e : Fin 64) :
    val_main_v15 (F := Ideal) Q K V (ix2 i e)
      = ∑ j : Fin 1024,
          Ideal.div (Ideal.exp (refScore Q K i j - refMax Q K i))
              (0 + ∑ l : Fin 1024, Ideal.exp (refScore Q K i l - refMax Q K i))
            * V (ix2 j e) := by
  rw [val_main_v15_apply]
  refine Finset.sum_congr rfl fun j _ => ?_
  have e1 : lidx_main_v15 (ix2 i e) j = ix2 i j := funext fun a => by
    match a with
    | ⟨0, _⟩ => rfl
    | ⟨1, _⟩ => rfl
  have e2 : ridx_main_v15 (ix2 i e) j = ix2 j e := funext fun a => by
    match a with
    | ⟨0, _⟩ => rfl
    | ⟨1, _⟩ => rfl
  rw [e1, e2, v14_apply]

end Cert.Proof.RingAttn

end
-- ==== Proof.ValBridge.lean ====
/-
  The value bridge: a device's result is its rows of the one-device reference.

  Both sides are read at an entry on the extended reals. All entries being real, each side is the embedding of a real
  expression: the device's is `(∑ₛ∑ⱼ wₛⱼ·vₛⱼ) / ∑ₛ∑ⱼ wₛⱼ` over its four slabs with `w = exp ((∑_d q_d·k_d) / 8)` (scaling the
  queries by 1/8 scales the score; `sqrt 64 = 8`), and the reference's is the softmax-weighted sum over all 1024 rows, in
  which the row maximum cancels. The 1024 rows are the four slabs, in the rotation the device receives them.
-/
import proofs.«900383_g7700000000000384_dist_ring_attn_i_s256_d64_v7x_i4_f32_1_alg».proof.Proof.ValSpec
import proofs.«900383_g7700000000000384_dist_ring_attn_i_s256_d64_v7x_i4_f32_1_alg».proof.Proof.ValKernel
import proofs.«900383_g7700000000000384_dist_ring_attn_i_s256_d64_v7x_i4_f32_1_alg».proof.Proof.ValRef

noncomputable section

namespace Cert.Proof.RingAttn

open Idealize.ShloMosaic Idealize.ShloMosaic.ValueIdx
open scoped BigOperators

/-- The device's result at `(p, e)` as a real expression of real entries. -/
theorem kernel_real (q k v : Vec Ideal Cert.KernelIdeal.S256x64 .f32)
    (ka va kb vb kc vc : Vec Ideal Cert.KernelIdeal.S1x256x64 .bf16) (p : Fin 256) (e : Fin 64)
    (qr : Fin 64 → ℝ) (k0 k1 k2 k3 : Fin 256 → Fin 64 → ℝ) (v0 v1 v2 v3 : Fin 256 → ℝ)
    (hq : ∀ d, q (ix2 p d) = (qr d : EReal))
    (hk0 : ∀ j d, k (ix2 j d) = (k0 j d : EReal)) (hv0 : ∀ j, v (ix2 j e) = (v0 j : EReal))
    (hk1 : ∀ j d, ka (ix3 (0 : Fin 1) j d) = (k1 j d : EReal)) (hv1 : ∀ j, va (ix3 (0 : Fin 1) j e) = (v1 j : EReal))
    (hk2 : ∀ j d, kb (ix3 (0 : Fin 1) j d) = (k2 j d : EReal)) (hv2 : ∀ j, vb (ix3 (0 : Fin 1) j e) = (v2 j : EReal))
    (hk3 : ∀ j d, kc (ix3 (0 : Fin 1) j d) = (k3 j d : EReal)) (hv3 : ∀ j, vc (ix3 (0 : Fin 1) j e) = (v3 j : EReal)) :
    outOf (F := Ideal) q k v ka va kb vb kc vc (ix2 p e)
      = ((((((∑ j, Real.exp ((∑ d, qr d * k0 j d) / 8) * v0 j) + ∑ j, Real.exp ((∑ d, qr d * k1 j d) / 8) * v1 j)
              + ∑ j, Real.exp ((∑ d, qr d * k2 j d) / 8) * v2 j) + ∑ j, Real.exp ((∑ d, qr d * k3 j d) / 8) * v3 j)
          / ((((∑ j, Real.exp ((∑ d, qr d * k0 j d) / 8)) + ∑ j, Real.exp ((∑ d, qr d * k1 j d) / 8))
              + ∑ j, Real.exp ((∑ d, qr d * k2 j d) / 8)) + ∑ j, Real.exp ((∑ d, qr d * k3 j d) / 8)) : ℝ) : EReal) := by
  rw [outOf_apply]
  have hE : ∀ (kk : Fin 256 → Fin 64 → ℝ) (j : Fin 256),
      Ideal.exp (∑ d : Fin 64, ((qr d : EReal) * cScale) * (kk j d : EReal))
        = ((Real.exp ((∑ d, qr d * kk j d) / 8) : ℝ) : EReal) := fun kk j => by
    rw [show cScale = ((1 / 8 : ℝ) : EReal) from ofBits_eighth]
    simp only [← EReal.coe_mul]
    rw [← coe_sum]
    show ((Real.exp _ : ℝ) : EReal) = _
    refine congrArg (fun x : ℝ => ((Real.exp x : ℝ) : EReal)) ?_
    rw [Finset.sum_div]
    exact Finset.sum_congr rfl fun d _ => by ring
  have hpos : ∀ kk : Fin 256 → Fin 64 → ℝ, 0 < ∑ j, Real.exp ((∑ d, qr d * kk j d) / 8) := fun kk =>
    Finset.sum_pos (fun j _ => Real.exp_pos _) Finset.univ_nonempty
  simp only [hq, hk0, hv0, hk1, hv1, hk2, hv2, hk3, hv3, hE k0, hE k1, hE k2, hE k3]
  simp only [← EReal.coe_mul, ← coe_sum, zero_add, ← EReal.coe_add]
  exact div_coe_coe _ _ (add_pos (add_pos (add_pos (hpos k0) (hpos k1)) (hpos k2)) (hpos k3)).ne'

/-- The reference at `(i, e)` as a real expression of real entries. -/
theorem ref_real (Q K V : Cert.ReferenceIdeal.S1024x64.Idx → EReal) (i : Fin 1024) (e : Fin 64)
    (qr : Fin 64 → ℝ) (Kr : Fin 1024 → Fin 64 → ℝ) (Vr : Fin 1024 → ℝ)
    (hQ : ∀ d, Q (ix2 i d) = (qr d : EReal)) (hK : ∀ j d, K (ix2 j d) = (Kr j d : EReal))
    (hV : ∀ j, V (ix2 j e) = (Vr j : EReal)) :
    Cert.ReferenceIdeal.Read.val_main_v15 (F := Ideal) Q K V (ix2 i e)
      = (((∑ j, Real.exp ((∑ d, qr d * Kr j d) / 8) * Vr j) / ∑ j, Real.exp ((∑ d, qr d * Kr j d) / 8) : ℝ) : EReal) := by
  rw [ref_apply]
  have hS : ∀ j, refScore Q K i j = (((∑ d, qr d * Kr j d) / 8 : ℝ) : EReal) := fun j => by
    unfold refScore
    simp only [hQ, hK]
    rw [ofBits_sixtyfour, sqrt_sixtyfour]
    simp only [← EReal.coe_mul, ← coe_sum]
    exact div_coe_coe _ _ (by norm_num)
  obtain ⟨m, hm⟩ : ∃ m : ℝ, refMax Q K i = (m : EReal) := by
    unfold refMax
    rw [ofBits_negInf]
    simp only [hS]
    exact fold_max_coe _ _ Finset.univ_nonempty
  simp only [hS, hm]
  simp only [← EReal.coe_sub, exp_coe_real, zero_add, ← coe_sum]
  have hD : (∑ l, Real.exp ((∑ d, qr d * Kr l d) / 8 - m)) ≠ 0 :=
    (Finset.sum_pos (fun l _ => Real.exp_pos _) Finset.univ_nonempty).ne'
  simp only [div_coe_coe _ _ hD, hV, ← EReal.coe_mul, ← coe_sum]
  rw [softmax_shift]

/-- THE VALUE BRIDGE. Device `c` holds rows `256·c …` of the three arrays and receives the slabs of devices
    `c + 3`, `c + 1`, `c + 2` (modulo 4) in that order; all entries are real. Then its result is rows `256·c …` of the
    reference's. -/
theorem value_bridge
    (Q K V : (⟨Cert.ReferenceIdeal.S1024x64, .f32⟩ : BufTy).Contents (Elt Ideal))
    (hQ : ∀ i, ∃ x : ℝ, Q i = (x : EReal)) (hK : ∀ i, ∃ x : ℝ, K i = (x : EReal)) (hV : ∀ i, ∃ x : ℝ, V i = (x : EReal))
    (c : Fin 4)
    (q k v : Vec Ideal Cert.KernelIdeal.S256x64 .f32) (ka va kb vb kc vc : Vec Ideal Cert.KernelIdeal.S1x256x64 .bf16)
    (hq : ∀ (p : Fin 256) (e : Fin 64), q (ix2 p e) = Q (ix2 ⟨256 * c.val + p.val, slab_lt c.val c.isLt p⟩ e))
    (hk : ∀ (p : Fin 256) (e : Fin 64), k (ix2 p e) = K (ix2 ⟨256 * c.val + p.val, slab_lt c.val c.isLt p⟩ e))
    (hv : ∀ (p : Fin 256) (e : Fin 64), v (ix2 p e) = V (ix2 ⟨256 * c.val + p.val, slab_lt c.val c.isLt p⟩ e))
    (hka : ∀ (p : Fin 256) (e : Fin 64), ka (ix3 (0 : Fin 1) p e)
      = K (ix2 ⟨256 * ((c.val + 3) % 4) + p.val, slab_lt _ (Nat.mod_lt _ (by decide)) p⟩ e))
    (hva : ∀ (p : Fin 256) (e : Fin 64), va (ix3 (0 : Fin 1) p e)
      = V (ix2 ⟨256 * ((c.val + 3) % 4) + p.val, slab_lt _ (Nat.mod_lt _ (by decide)) p⟩ e))
    (hkb : ∀ (p : Fin 256) (e : Fin 64), kb (ix3 (0 : Fin 1) p e)
      = K (ix2 ⟨256 * ((c.val + 1) % 4) + p.val, slab_lt _ (Nat.mod_lt _ (by decide)) p⟩ e))
    (hvb : ∀ (p : Fin 256) (e : Fin 64), vb (ix3 (0 : Fin 1) p e)
      = V (ix2 ⟨256 * ((c.val + 1) % 4) + p.val, slab_lt _ (Nat.mod_lt _ (by decide)) p⟩ e))
    (hkc : ∀ (p : Fin 256) (e : Fin 64), kc (ix3 (0 : Fin 1) p e)
      = K (ix2 ⟨256 * ((c.val + 2) % 4) + p.val, slab_lt _ (Nat.mod_lt _ (by decide)) p⟩ e))
    (hvc : ∀ (p : Fin 256) (e : Fin 64), vc (ix3 (0 : Fin 1) p e)
      = V (ix2 ⟨256 * ((c.val + 2) % 4) + p.val, slab_lt _ (Nat.mod_lt _ (by decide)) p⟩ e)) :
    ∀ (p : Fin 256) (e : Fin 64),
      outOf (F := Ideal) q k v ka va kb vb kc vc (ix2 p e)
        = Cert.ReferenceIdeal.Read.val_main_v15 (F := Ideal) Q K V
            (ix2 ⟨256 * c.val + p.val, slab_lt c.val c.isLt p⟩ e) := by
  choose Qr hQr using hQ
  choose Kr hKr using hK
  choose Vr hVr using hV
  intro p e
  rw [kernel_real q k v ka va kb vb kc vc p e
      (fun d => Qr (ix2 ⟨256 * c.val + p.val, slab_lt c.val c.isLt p⟩ d))
      (fun j d => Kr (ix2 ⟨256 * c.val + j.val, slab_lt c.val c.isLt j⟩ d))
      (fun j d => Kr (ix2 ⟨256 * ((c.val + 3) % 4) + j.val, slab_lt _ (Nat.mod_lt _ (by decide)) j⟩ d))
      (fun j d => Kr (ix2 ⟨256 * ((c.val + 1) % 4) + j.val, slab_lt _ (Nat.mod_lt _ (by decide)) j⟩ d))
      (fun j d => Kr (ix2 ⟨256 * ((c.val + 2) % 4) + j.val, slab_lt _ (Nat.mod_lt _ (by decide)) j⟩ d))
      (fun j => Vr (ix2 ⟨256 * c.val + j.val, slab_lt c.val c.isLt j⟩ e))
      (fun j => Vr (ix2 ⟨256 * ((c.val + 3) % 4) + j.val, slab_lt _ (Nat.mod_lt _ (by decide)) j⟩ e))
      (fun j => Vr (ix2 ⟨256 * ((c.val + 1) % 4) + j.val, slab_lt _ (Nat.mod_lt _ (by decide)) j⟩ e))
      (fun j => Vr (ix2 ⟨256 * ((c.val + 2) % 4) + j.val, slab_lt _ (Nat.mod_lt _ (by decide)) j⟩ e))
      (fun d => (hq p d).trans (hQr _))
      (fun j d => (hk j d).trans (hKr _)) (fun j => (hv j e).trans (hVr _))
      (fun j d => (hka j d).trans (hKr _)) (fun j => (hva j e).trans (hVr _))
      (fun j d => (hkb j d).trans (hKr _)) (fun j => (hvb j e).trans (hVr _))
      (fun j d => (hkc j d).trans (hKr _)) (fun j => (hvc j e).trans (hVr _))]
  rw [ref_real Q K V ⟨256 * c.val + p.val, slab_lt c.val c.isLt p⟩ e
      (fun d => Qr (ix2 ⟨256 * c.val + p.val, slab_lt c.val c.isLt p⟩ d))
      (fun j d => Kr (ix2 j d)) (fun j => Vr (ix2 j e))
      (fun d => hQr _) (fun j d => hKr _) (fun j => hVr _)]
  refine congrArg (fun x : ℝ => (x : EReal)) ?_
  rw [sum_slabs_rot c (fun j => Real.exp ((∑ d, Qr (ix2 ⟨256 * c.val + p.val, slab_lt c.val c.isLt p⟩ d) * Kr (ix2 j d)) / 8)
        * Vr (ix2 j e)),
    sum_slabs_rot c (fun j => Real.exp ((∑ d, Qr (ix2 ⟨256 * c.val + p.val, slab_lt c.val c.isLt p⟩ d) * Kr (ix2 j d)) / 8))]

end Cert.Proof.RingAttn

end
-- ==== Proof.GlueBlock.lean ====
/-
  A [1024, 64] array cut along its rows into four [256, 64] blocks: block c read at (p, e) is the whole array at
  (256 c + p, e); a [256, 64] array that agrees with the whole array there is block c; and every index of the
  whole array lies in exactly such a place of some block. For any element type.
-/
import Idealize.ShloMosaic.Lib.Layout
import Idealize.ShloMosaic.Lib.ValueIdx

noncomputable section

open Idealize.ShloMosaic

namespace Cert.Proof.Glue

variable {α : Type}

/-- Row 256 c + p of the whole array exists: c < 4 and p < 256. -/
theorem row_lt (c : Fin 4) (p : Fin 256) : 256 * c.val + p.val < 1024 := by
  have hc := c.isLt
  have hp := p.isLt
  omega

/-- Block c at (p, e) is the whole array at (256 c + p, e). -/
theorem block_apply (c : Fin 4) (X : (⟨2, ![1024, 64]⟩ : Shape).Idx → α) (p : Fin 256) (e : Fin 64) :
    (Layout.block ⟨2, ![256, 64]⟩ ⟨2, ![1024, 64]⟩ 0 4 c X) (ValueIdx.ix2 p e)
      = X (ValueIdx.ix2 (⟨256 * c.val + p.val, row_lt c p⟩ : Fin 1024) e) := by
  rw [Layout.block_apply]
  congr 1
  funext b
  match b with
  | ⟨0, _⟩ => exact Fin.ext (show c.val * 256 + p.val = 256 * c.val + p.val by omega)
  | ⟨1, _⟩ => rfl

/-- A [256, 64] array that agrees, index by index, with rows 256 c … 256 c + 255 of the whole array is block c of it. -/
theorem block_ext (c : Fin 4) (X : (⟨2, ![1024, 64]⟩ : Shape).Idx → α) (Y : (⟨2, ![256, 64]⟩ : Shape).Idx → α)
    (h : ∀ (p : Fin 256) (e : Fin 64),
      Y (ValueIdx.ix2 p e) = X (ValueIdx.ix2 (⟨256 * c.val + p.val, row_lt c p⟩ : Fin 1024) e)) :
    Y = Layout.block ⟨2, ![256, 64]⟩ ⟨2, ![1024, 64]⟩ 0 4 c X := by
  funext i
  obtain ⟨p, e, rfl⟩ : ∃ (p : Fin 256) (e : Fin 64), i = ValueIdx.ix2 p e := ⟨i 0, i 1, ValueIdx.eq_ix2 i⟩
  rw [h p e, block_apply]

/-- Every index of the whole array is (256 c + p, e) for a block c, a row p of the block and a column e:
    c and p are the quotient and the remainder of the row by 256. -/
theorem block_cover (i : (⟨2, ![1024, 64]⟩ : Shape).Idx) :
    ∃ (c : Fin 4) (p : Fin 256) (e : Fin 64),
      i = ValueIdx.ix2 (⟨256 * c.val + p.val, row_lt c p⟩ : Fin 1024) e := by
  obtain ⟨r, e, rfl⟩ : ∃ (r : Fin 1024) (e : Fin 64), i = ValueIdx.ix2 r e := ⟨i 0, i 1, ValueIdx.eq_ix2 i⟩
  have hr := r.isLt
  refine ⟨⟨r.val / 256, by omega⟩, ⟨r.val % 256, Nat.mod_lt _ (by decide)⟩, e, ?_⟩
  exact congrArg (fun t : Fin 1024 => ValueIdx.ix2 t e) (Fin.ext (Nat.div_add_mod r.val 256).symm)

end Cert.Proof.Glue

end
-- ==== Proof.GlueFinite.lean ====
/-
  Finiteness out of the precondition. The precondition is the conjunction of three tests, one per argument block,
  that every entry x satisfies |x| < +∞; at the ideal instance an entry is an extended real, |x| is max x (-x), and
  the test says that the entry is neither infinity: it is a real number. A whole [1024, 64] array whose four row
  blocks have only real entries has only real entries, since every index of it lies in one of the blocks.
-/
import proofs.«900383_g7700000000000384_dist_ring_attn_i_s256_d64_v7x_i4_f32_1_alg».proof.Defs
import proofs.«900383_g7700000000000384_dist_ring_attn_i_s256_d64_v7x_i4_f32_1_alg».proof.Proof.Gen.Pre_finite_inputs_Kernel
import proofs.«900383_g7700000000000384_dist_ring_attn_i_s256_d64_v7x_i4_f32_1_alg».proof.Proof.GlueBlock
import Idealize.ShloMosaic.Lib.ReduceAll
import Idealize.ShloMosaic.Lib.ValueIdx

noncomputable section

open Idealize.ShloMosaic

namespace Cert.Proof.Glue

/-- The scalar shape has one index. -/
instance subsingleton_scalar_idx : Subsingleton Cert.Pre_finite_inputs_Kernel.S_.Idx :=
  ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real x with max x (-x) < +∞, the comparison read as a bit, is a real number: for x = +∞ the
    maximum is +∞, for x = -∞ it is -(-∞) = +∞, and +∞ < +∞ is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the precondition holds of three [256, 64] blocks, every entry of each is a real number. -/
theorem finite_of_pre (x y z : FVec Ideal Cert.Pre_finite_inputs_Kernel.S256x64 .f32)
    (h : Cert.Pre_finite_inputs_Kernel.fn (F := Ideal) x y z = fun _ => 1#1) :
    (∀ i, ∃ r : ℝ, x i = (r : EReal)) ∧ (∀ i, ∃ r : ℝ, y i = (r : EReal)) ∧ (∀ i, ∃ r : ℝ, z i = (r : EReal)) := by
  have h0 := congrFun h ValueIdx.ix0
  dsimp only [Cert.Pre_finite_inputs_Kernel.fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf (x i) (Host.reduce_andi_all _ _ _ _ _ h1 i)
  · exact real_of_abs_lt_inf (y i) (Host.reduce_andi_all _ _ _ _ _ h2 i)
  · exact real_of_abs_lt_inf (z i) (Host.reduce_andi_all _ _ _ _ _ h3 i)

/-- A whole [1024, 64] array each of whose four row blocks has only real entries has only real entries. -/
theorem whole_finite (X : FVec Ideal (⟨2, ![1024, 64]⟩ : Shape) .f32)
    (h : ∀ c : Fin 4, ∀ i, ∃ r : ℝ, (Layout.block ⟨2, ![256, 64]⟩ ⟨2, ![1024, 64]⟩ 0 4 c X) i = (r : EReal)) :
    ∀ i, ∃ r : ℝ, X i = (r : EReal) := by
  intro i
  obtain ⟨c, p, e, rfl⟩ := block_cover i
  obtain ⟨r, hr⟩ := h c (ValueIdx.ix2 p e)
  exact ⟨r, (block_apply c X p e).symm.trans hr⟩

end Cert.Proof.Glue

end
-- ==== Proof.RingValue.lean ====
/-
  The value join, on the extended reals. Device c's result block is rows 256 c … 256 c + 255 of the one-device reference's
  result, when each device's three argument blocks are its rows of the whole arrays Q, K, V and the precondition holds.

  The three windows are whole arrays at block index 0, so what a device stages is its argument block, entry by entry;
  narrowing to the packed format and the casts between equal shapes do nothing to an extended real, so a slab received
  from device d reads, at (0, p, e), d's key (or value) block at (p, e), that is row 256 d + p of K (or V); and the three
  slabs come from the devices c + 3, c + 1, c + 2 (modulo 4). The precondition makes every entry of every block a real
  number, hence every entry of Q, K, V. The value bridge then says the device's result at (p, e) is the reference's at
  (256 c + p, e).
-/
import proofs.«900383_g7700000000000384_dist_ring_attn_i_s256_d64_v7x_i4_f32_1_alg».proof.Defs
import proofs.«900383_g7700000000000384_dist_ring_attn_i_s256_d64_v7x_i4_f32_1_alg».proof.Proof.RingData
import proofs.«900383_g7700000000000384_dist_ring_attn_i_s256_d64_v7x_i4_f32_1_alg».proof.Proof.ValBridge
import proofs.«900383_g7700000000000384_dist_ring_attn_i_s256_d64_v7x_i4_f32_1_alg».proof.Proof.GlueBlock
import proofs.«900383_g7700000000000384_dist_ring_attn_i_s256_d64_v7x_i4_f32_1_alg».proof.Proof.GlueFinite
import proofs.«900383_g7700000000000384_dist_ring_attn_i_s256_d64_v7x_i4_f32_1_alg».proof.Proof.RingPacked
import Idealize.ShloMosaic.Lib.Pipeline.Value
import Idealize.ShloMosaic.Lib.ValueIdx

noncomputable section

namespace Cert.Proof.RingAttn

open Cert.KernelIdeal Cert.KernelIdeal.Gen Cert.KernelIdeal.Ring
open Idealize.ShloMosaic Idealize.ShloMosaic.TcCoe Idealize.SL.Sem
open Idealize.ShloMosaic.ValueIdx

/-! ## What a device stages is its argument block -/

section Staged
variable {F : FTy → Type} [FloatOps F] (m : (ℓ : Loc nD τ sig) → Buf (Elt F) ℓ)

/-- The window is the whole array at block index 0: the staged queries at (p, e) are the argument block at (p, e). -/
theorem qB_apply (d : Dev nD) (p : Fin 256) (e : Fin 64) :
    qB m d (ix2 p e) = m ((d : Thread nD τ).loc main_arg0) (ix2 p e) := by
  show m ((d : Thread nD τ).loc main_arg0) ((win0_0.rect (0 : Fin 1)).emb (ix2 p e)) = _
  refine congrArg (m ((d : Thread nD τ).loc main_arg0)) (funext fun a => ?_)
  match a with
  | ⟨0, _⟩ => exact Fin.ext (show 0 * 256 + 1 * p.val = p.val by omega)
  | ⟨1, _⟩ => exact Fin.ext (show 0 * 64 + 1 * e.val = e.val by omega)

theorem kB_apply (d : Dev nD) (p : Fin 256) (e : Fin 64) :
    kB m d (ix2 p e) = m ((d : Thread nD τ).loc main_arg1) (ix2 p e) := by
  show m ((d : Thread nD τ).loc main_arg1) ((win0_1.rect (0 : Fin 1)).emb (ix2 p e)) = _
  refine congrArg (m ((d : Thread nD τ).loc main_arg1)) (funext fun a => ?_)
  match a with
  | ⟨0, _⟩ => exact Fin.ext (show 0 * 256 + 1 * p.val = p.val by omega)
  | ⟨1, _⟩ => exact Fin.ext (show 0 * 64 + 1 * e.val = e.val by omega)

theorem vB_apply (d : Dev nD) (p : Fin 256) (e : Fin 64) :
    vB m d (ix2 p e) = m ((d : Thread nD τ).loc main_arg2) (ix2 p e) := by
  show m ((d : Thread nD τ).loc main_arg2) ((win0_2.rect (0 : Fin 1)).emb (ix2 p e)) = _
  refine congrArg (m ((d : Thread nD τ).loc main_arg2)) (funext fun a => ?_)
  match a with
  | ⟨0, _⟩ => exact Fin.ext (show 0 * 256 + 1 * p.val = p.val by omega)
  | ⟨1, _⟩ => exact Fin.ext (show 0 * 64 + 1 * e.val = e.val by omega)

end Staged

/-! ## Packing does nothing to an extended real -/

/-- Narrowing the keys for packing, between casts to the same shape, is the identity on extended reals. -/
theorem pay1_apply (v : Vec Ideal S256x64 .f32) (i : S256x64.Idx) : k0_pay1 (F := Ideal) v i = v i := by
  unfold k0_pay1
  rw [shapeCast_self, shapeCast_self]
  rfl

/-- So is narrowing the values and casting them to the same shape. -/
theorem pay3_pay2_apply (v : Vec Ideal S256x64 .f32) (i : S256x64.Idx) : k0_pay3 (F := Ideal) (k0_pay2 (F := Ideal) v) i = v i := by
  unfold k0_pay3 k0_pay2
  dsimp only
  rw [shapeCast_self, shapeCast_self]
  rfl

/-! ## The join -/

section Join
variable (m : (ℓ : Loc Cert.KernelIdeal.nD Cert.KernelIdeal.τ Cert.KernelIdeal.sig) → Buf (Elt Ideal) ℓ)
  (Q : Buf (Elt Ideal) (((0 : Dev Cert.ReferenceIdeal.nD).tc : Thread Cert.ReferenceIdeal.nD Cert.ReferenceIdeal.τ).loc Cert.ReferenceIdeal.main_arg0))
  (K : Buf (Elt Ideal) (((0 : Dev Cert.ReferenceIdeal.nD).tc : Thread Cert.ReferenceIdeal.nD Cert.ReferenceIdeal.τ).loc Cert.ReferenceIdeal.main_arg1))
  (V : Buf (Elt Ideal) (((0 : Dev Cert.ReferenceIdeal.nD).tc : Thread Cert.ReferenceIdeal.nD Cert.ReferenceIdeal.τ).loc Cert.ReferenceIdeal.main_arg2))

/-- The slab received from device d reads d's rows of K through its key half … -/
theorem slabK_apply
    (hK : ∀ c : Dev Cert.KernelIdeal.nD, m ((c.tc : Thread Cert.KernelIdeal.nD Cert.KernelIdeal.τ).loc Cert.KernelIdeal.main_arg1) = Layout.block ⟨2, ![256, 64]⟩ ⟨2, ![1024, 64]⟩ 0 4 c K)
    (d : Dev Cert.KernelIdeal.nD) (p : Fin 256) (e : Fin 64) :
    slabK m d (ix3 (0 : Fin 1) p e) = K (ix2 (⟨256 * d.val + p.val, Cert.Proof.Glue.row_lt d p⟩ : Fin 1024) e) := by
  unfold slabK
  rw [cast_slab_apply, pay1_apply, kB_apply]
  exact (congrFun (hK d) (ix2 p e)).trans (Cert.Proof.Glue.block_apply d K p e)

/-- … and d's rows of V through its value half. -/
theorem slabV_apply
    (hV : ∀ c : Dev Cert.KernelIdeal.nD, m ((c.tc : Thread Cert.KernelIdeal.nD Cert.KernelIdeal.τ).loc Cert.KernelIdeal.main_arg2) = Layout.block ⟨2, ![256, 64]⟩ ⟨2, ![1024, 64]⟩ 0 4 c V)
    (d : Dev Cert.KernelIdeal.nD) (p : Fin 256) (e : Fin 64) :
    slabV m d (ix3 (0 : Fin 1) p e) = V (ix2 (⟨256 * d.val + p.val, Cert.Proof.Glue.row_lt d p⟩ : Fin 1024) e) := by
  unfold slabV
  rw [cast_slab_apply, pay3_pay2_apply, vB_apply]
  exact (congrFun (hV d) (ix2 p e)).trans (Cert.Proof.Glue.block_apply d V p e)

/-- Device c's result is block c of the reference's result. -/
theorem result_block (hpre : Cert.Pre_KernelIdeal m)
    (hag : ∀ c : Dev Cert.KernelIdeal.nD,
      m ((c.tc : Thread Cert.KernelIdeal.nD Cert.KernelIdeal.τ).loc Cert.KernelIdeal.main_arg0) = Layout.block ⟨2, ![256, 64]⟩ ⟨2, ![1024, 64]⟩ 0 4 c Q
      ∧ m ((c.tc : Thread Cert.KernelIdeal.nD Cert.KernelIdeal.τ).loc Cert.KernelIdeal.main_arg1) = Layout.block ⟨2, ![256, 64]⟩ ⟨2, ![1024, 64]⟩ 0 4 c K
      ∧ m ((c.tc : Thread Cert.KernelIdeal.nD Cert.KernelIdeal.τ).loc Cert.KernelIdeal.main_arg2) = Layout.block ⟨2, ![256, 64]⟩ ⟨2, ![1024, 64]⟩ 0 4 c V)
    (c : Dev Cert.KernelIdeal.nD) :
    Cert.KernelIdeal.Ring.outAt (F := Ideal) m c
      = Layout.block ⟨2, ![256, 64]⟩ ⟨2, ![1024, 64]⟩ 0 4 c (Cert.ReferenceIdeal.Read.val_main_v15 (F := Ideal) Q K V) := by
  have hQ : ∀ i, ∃ r : ℝ, Q i = (r : EReal) :=
    Cert.Proof.Glue.whole_finite Q (fun c' i => by
      rw [← (hag c').1]; exact (Cert.Proof.Glue.finite_of_pre _ _ _ (hpre c')).1 i)
  have hK : ∀ i, ∃ r : ℝ, K i = (r : EReal) :=
    Cert.Proof.Glue.whole_finite K (fun c' i => by
      rw [← (hag c').2.1]; exact (Cert.Proof.Glue.finite_of_pre _ _ _ (hpre c')).2.1 i)
  have hV : ∀ i, ∃ r : ℝ, V i = (r : EReal) :=
    Cert.Proof.Glue.whole_finite V (fun c' i => by
      rw [← (hag c').2.2]; exact (Cert.Proof.Glue.finite_of_pre _ _ _ (hpre c')).2.2 i)
  refine Cert.Proof.Glue.block_ext c _ _ (fun p e => ?_)
  exact value_bridge Q K V hQ hK hV c (qB m c) (kB m c) (vB m c)
    (slabK m (lft c)) (slabV m (lft c)) (slabK m (rgt c)) (slabV m (rgt c)) (slabK m (opp c)) (slabV m (opp c))
    (fun p e => (qB_apply m c p e).trans ((congrFun (hag c).1 (ix2 p e)).trans (Cert.Proof.Glue.block_apply c Q p e)))
    (fun p e => (kB_apply m c p e).trans ((congrFun (hag c).2.1 (ix2 p e)).trans (Cert.Proof.Glue.block_apply c K p e)))
    (fun p e => (vB_apply m c p e).trans ((congrFun (hag c).2.2 (ix2 p e)).trans (Cert.Proof.Glue.block_apply c V p e)))
    (slabK_apply m K (fun c' => (hag c').2.1) (lft c)) (slabV_apply m V (fun c' => (hag c').2.2) (lft c))
    (slabK_apply m K (fun c' => (hag c').2.1) (rgt c)) (slabV_apply m V (fun c' => (hag c').2.2) (rgt c))
    (slabK_apply m K (fun c' => (hag c').2.1) (opp c)) (slabV_apply m V (fun c' => (hag c').2.2) (opp c))
    p e

end Join

end Cert.Proof.RingAttn

end
-- ==== Proof.lean ====
/-
  Ring attention on four devices against one-device softmax attention.

  The kernel. Device `c` holds 256 rows of `q`, `k`, `v` : f32[1024, 64]. It packs its keys and values (narrowed) side by side,
  sends the packed slab to each of the other three devices, and, over its own slab and then the three received ones, accumulates
  row by row `l = Σ_j exp ((q · 1/8) · k_j)` and `acc = Σ_j exp ((q · 1/8) · k_j) · v_j`; its 256 result rows are `acc / l`.
  The reference. `softmax (q kᵀ / sqrt 64) v` over the whole arrays, with the row maximum subtracted before the exponential.
  Why they agree at the exact instance. Every entry is a real number (the precondition), `sqrt 64 = 8`, the narrowing is the
  identity, and `exp (s − M) / Σ_j exp (s_j − M) = exp s / Σ_j exp s_j` since `exp (−M) > 0` cancels; the sum over the 1024 keys
  splits into the four slabs of 256 in whatever order they arrive. So device `c`'s result is rows `256 c … 256 c + 255` of the
  reference's.
  Why the kernel runs. Before a device writes into a peer's receive slab it has waited for a signal from that peer (two entry
  semaphores and the barrier semaphore), which hands it the slab; each transfer credits the sender's send semaphore and the
  receiver's receive semaphore once; a slab is read only after its receive semaphore has been waited for, and the packed buffer
  is not written after the transfers start. Signal cells sit below receive cells in the waiting order, so no device waits on
  something it still owes. The three frames are the run with the values dropped; the word-level program is the same text read at
  the bit-exact instance; the idealization rewrote no operation.
-/
import proofs.«900383_g7700000000000384_dist_ring_attn_i_s256_d64_v7x_i4_f32_1_alg».proof.Defs
import proofs.«900383_g7700000000000384_dist_ring_attn_i_s256_d64_v7x_i4_f32_1_alg».proof.Proof.Gen.Kernel
import proofs.«900383_g7700000000000384_dist_ring_attn_i_s256_d64_v7x_i4_f32_1_alg».proof.Proof.Gen.Kernel.Skeleton
import proofs.«900383_g7700000000000384_dist_ring_attn_i_s256_d64_v7x_i4_f32_1_alg».proof.Proof.Gen.Kernel.Launch
import proofs.«900383_g7700000000000384_dist_ring_attn_i_s256_d64_v7x_i4_f32_1_alg».proof.Proof.Gen.Kernel.Points
import proofs.«900383_g7700000000000384_dist_ring_attn_i_s256_d64_v7x_i4_f32_1_alg».proof.Proof.Gen.Kernel.Frame
import proofs.«900383_g7700000000000384_dist_ring_attn_i_s256_d64_v7x_i4_f32_1_alg».proof.Proof.Gen.KernelIdeal
import proofs.«900383_g7700000000000384_dist_ring_attn_i_s256_d64_v7x_i4_f32_1_alg».proof.Proof.Gen.KernelIdeal.Skeleton
import proofs.«900383_g7700000000000384_dist_ring_attn_i_s256_d64_v7x_i4_f32_1_alg».proof.Proof.Gen.KernelIdeal.Launch
import proofs.«900383_g7700000000000384_dist_ring_attn_i_s256_d64_v7x_i4_f32_1_alg».proof.Proof.Gen.KernelIdeal.Points
import proofs.«900383_g7700000000000384_dist_ring_attn_i_s256_d64_v7x_i4_f32_1_alg».proof.Proof.Gen.KernelIdeal.Frame
import proofs.«900383_g7700000000000384_dist_ring_attn_i_s256_d64_v7x_i4_f32_1_alg».proof.Proof.Gen.ReferenceIdeal
import proofs.«900383_g7700000000000384_dist_ring_attn_i_s256_d64_v7x_i4_f32_1_alg».proof.Proof.Gen.Pre_finite_inputs_Kernel
import proofs.«900383_g7700000000000384_dist_ring_attn_i_s256_d64_v7x_i4_f32_1_alg».proof.Proof.Gen.Pre_finite_inputs_ReferenceIdeal
import Idealize.ShloMosaic.Adequacy
import Idealize.ShloMosaic.Init
import proofs.«900383_g7700000000000384_dist_ring_attn_i_s256_d64_v7x_i4_f32_1_alg».proof.Proof.RingOblig
import proofs.«900383_g7700000000000384_dist_ring_attn_i_s256_d64_v7x_i4_f32_1_alg».proof.Proof.KRingOblig
import proofs.«900383_g7700000000000384_dist_ring_attn_i_s256_d64_v7x_i4_f32_1_alg».proof.Proof.RingBody
import proofs.«900383_g7700000000000384_dist_ring_attn_i_s256_d64_v7x_i4_f32_1_alg».proof.Proof.KRingBody
import proofs.«900383_g7700000000000384_dist_ring_attn_i_s256_d64_v7x_i4_f32_1_alg».proof.Proof.RefRun
import proofs.«900383_g7700000000000384_dist_ring_attn_i_s256_d64_v7x_i4_f32_1_alg».proof.Proof.RingValue

noncomputable section

namespace Cert.Proof

open Idealize.ShloMosaic Idealize.SL.Sem

/-- The word-level kernel runs on every device and leaves its arguments unchanged: its run with the result dropped. -/
theorem frame_p : Cert.frame_Kernel := fun m ρ _ =>
  (θ_run _ _ _).mono (fun _ h c => (h c).2) (Cert.Kernel.Ring.run_strong' m ρ (Cert.Kernel.Ring.sound_body m))

/-- The idealized kernel likewise. -/
theorem frame_pi : Cert.frame_KernelIdeal := fun m ρ _ =>
  (θ_run _ _ _).mono (fun _ h c => (h c).2) (Cert.KernelIdeal.Ring.run_strong' m ρ (Cert.KernelIdeal.Ring.sound_body m))

/-- From blocks of finite whole arrays, every device's result is its block of the reference's result, and both programs leave
    their arguments unchanged. -/
theorem algebraic : Cert.algebraic_KernelIdeal_ReferenceIdeal := fun m g m' g' hpre hag =>
  ⟨Cert.ReferenceIdeal.Read.val_main_v15 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)),
    (θ_run _ _ _).mono (fun _ h c => ⟨(h c).1.trans (Cert.Proof.RingAttn.result_block m _ _ _ hpre hag c), (h c).2⟩)
      (Cert.KernelIdeal.Ring.run_strong' m g (Cert.KernelIdeal.Ring.sound_body m)),
    Cert.Proof.RefSide.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, frame_pi, Cert.Proof.RefSide.frame_ri, trivial, algebraic⟩

end Cert.Proof

end
